-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v49)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v49) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v59) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S64x128 : Shape := ⟨2, ![64, 128]⟩
abbrev S64 : Shape := ⟨1, ![64]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S64x128 : S_.BroadcastsInDim S64x128 (![] : Fin 0 → Fin S64x128.rank)
  reducesTo_S64x128_S_d0_1 : S64x128.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg5 : FVec F S64x128 .f32) (main_arg6 : FVec F S64 .f32) (main_arg7 : FVec F S64x128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S64x128 .f32 := Host.absf main_arg5
  let main_cst_6 : FVec F S_ .f32 := constant S_ .f32 0x7F800000#32
  let main_v20 : FVec F S64x128 .f32 := broadcastInDim S64x128 ![] bcast_S_S64x128 main_cst_6
  let main_v21 : IVec S64x128 1 := cmpf .olt main_v19 main_v20
  let main_c_7 : IVec S_ 1 := constantI S_ 1 1#1
  let main_v22 : IVec S_ 1 := (fun x v => Host.reduce IntOp.andi x v reducesTo_S64x128_S_d0_1 h_S_) main_v21 main_c_7
  let main_v23 : IVec S_ 1 := andi main_v18 main_v22
  let main_v24 : FVec F S64 .f32 := Host.absf main_arg6
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64x128 .f32 := Host.absf main_arg7
  let main_cst_10 : FVec F S_ .f32 := constant S_ .f32 0x7F800000#32
  let main_v30 : FVec F S64x128 .f32 := broadcastInDim S64x128 ![] bcast_S_S64x128 main_cst_10
  let main_v31 : IVec S64x128 1 := cmpf .olt main_v29 main_v30
  let main_c_11 : IVec S_ 1 := constantI S_ 1 1#1
  let main_v32 : IVec S_ 1 := (fun x v => Host.reduce IntOp.andi x v reducesTo_S64x128_S_d0_1 h_S_) main_v31 main_c_11
  let main_v33 : IVec S_ 1 := andi main_v28 main_v32
  main_v33

def fn {F : FTy → Type} [FloatOps F] (main_arg0 : FVec F S50000x128 .f32) (main_arg1 : IVec S2x800000 32) (main_arg2 : FVec F S128x128 .f32) (main_arg3 : FVec F S128 .f32) (main_arg4 : FVec F S128x128 .f32) (main_arg5 : FVec F S64x128 .f32) (main_arg6 : FVec F S64 .f32) (main_arg7 : FVec F S64x128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_v13 main_v16
-- ==== Kernel.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S64x128 : Shape := ⟨2, ![64, 128]⟩
abbrev S64 : Shape := ⟨1, ![64]⟩
abbrev S1x800000 : Shape := ⟨2, ![1, 800000]⟩
abbrev S800000 : Shape := ⟨1, ![800000]⟩
abbrev S_ : Shape := ⟨0, ![]⟩
abbrev S50000 : Shape := ⟨1, ![50000]⟩
abbrev S800000x1 : Shape := ⟨2, ![800000, 1]⟩
abbrev S50000x1 : Shape := ⟨2, ![50000, 1]⟩
abbrev S800000x128 : Shape := ⟨2, ![800000, 128]⟩
abbrev S2000x128 : Shape := ⟨2, ![2000, 128]⟩
abbrev S1x128 : Shape := ⟨2, ![1, 128]⟩
abbrev S128x64 : Shape := ⟨2, ![128, 64]⟩
abbrev S50000x64 : Shape := ⟨2, ![50000, 64]⟩
abbrev S2000x64 : Shape := ⟨2, ![2000, 64]⟩
abbrev S1x64 : Shape := ⟨2, ![1, 64]⟩
abbrev S2000 : Shape := ⟨1, ![2000]⟩
abbrev S2000x1 : Shape := ⟨2, ![2000, 1]⟩

abbrev nBuf : Space → Nat
  | .hbm => 68
  | .vmem => 18
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S64x128, .f32⟩
  | .hbm, ⟨6, _⟩ => ⟨S64, .f32⟩
  | .hbm, ⟨7, _⟩ => ⟨S64x128, .f32⟩
  | .hbm, ⟨8, _⟩ => ⟨S1x800000, .i32⟩
  | .hbm, ⟨9, _⟩ => ⟨S800000, .i32⟩
  | .hbm, ⟨10, _⟩ => ⟨S1x800000, .i32⟩
  | .hbm, ⟨11, _⟩ => ⟨S800000, .i32⟩
  | .hbm, ⟨12, _⟩ => ⟨S_, .f32⟩
  | .hbm, ⟨13, _⟩ => ⟨S800000, .f32⟩
  | .hbm, ⟨14, _⟩ => ⟨S_, .f32⟩
  | .hbm, ⟨15, _⟩ => ⟨S50000, .f32⟩
  | .hbm, ⟨16, _⟩ => ⟨S800000x1, .i32⟩
  | .hbm, ⟨17, _⟩ => ⟨S50000, .f32⟩
  | .hbm, ⟨18, _⟩ => ⟨S50000x1, .f32⟩
  | .hbm, ⟨19, _⟩ => ⟨S_, .f32⟩
  | .hbm, ⟨20, _⟩ => ⟨S50000x1, .f32⟩
  | .hbm, ⟨21, _⟩ => ⟨S50000x1, .f32⟩
  | .hbm, ⟨22, _⟩ => ⟨S_, .f32⟩
  | .hbm, ⟨23, _⟩ => ⟨S50000x1, .f32⟩
  | .hbm, ⟨24, _⟩ => ⟨S50000x1, .f32⟩
  | .hbm, ⟨25, _⟩ => ⟨S50000x128, .bf16⟩
  | .hbm, ⟨26, _⟩ => ⟨S_, .i32⟩
  | .hbm, ⟨27, _⟩ => ⟨S800000, .i32⟩
  | .hbm, ⟨28, _⟩ => ⟨S800000, .i1⟩
  | .hbm, ⟨29, _⟩ => ⟨S_, .i32⟩
  | .hbm, ⟨30, _⟩ => ⟨S800000, .i32⟩
  | .hbm, ⟨31, _⟩ => ⟨S800000, .i32⟩
  | .hbm, ⟨32, _⟩ => ⟨S800000, .i32⟩
  | .hbm, ⟨33, _⟩ => ⟨S800000x1, .i32⟩
  | .hbm, ⟨34, _⟩ => ⟨S800000x128, .bf16⟩
  | .hbm, ⟨35, _⟩ => ⟨S800000x128, .f32⟩
  | .hbm, ⟨36, _⟩ => ⟨S_, .f32⟩
  | .hbm, ⟨37, _⟩ => ⟨S50000x128, .f32⟩
  | .hbm, ⟨38, _⟩ => ⟨S800000x1, .i32⟩
  | .hbm, ⟨39, _⟩ => ⟨S50000x128, .f32⟩
  | .hbm, ⟨40, _⟩ => ⟨S50000x128, .f32⟩
  | .hbm, ⟨41, _⟩ => ⟨S50000x128, .f32⟩
  | .hbm, ⟨42, _⟩ => ⟨S128x128, .f32⟩
  | .hbm, ⟨43, _⟩ => ⟨S128x128, .bf16⟩
  | .hbm, ⟨44, _⟩ => ⟨S128x128, .f32⟩
  | .hbm, ⟨45, _⟩ => ⟨S128x128, .bf16⟩
  | .hbm, ⟨46, _⟩ => ⟨S50000x128, .bf16⟩
  | .hbm, ⟨47, _⟩ => ⟨S_, .i32⟩
  | .hbm, ⟨48, _⟩ => ⟨S800000, .i32⟩
  | .hbm, ⟨49, _⟩ => ⟨S800000, .i1⟩
  | .hbm, ⟨50, _⟩ => ⟨S_, .i32⟩
  | .hbm, ⟨51, _⟩ => ⟨S800000, .i32⟩
  | .hbm, ⟨52, _⟩ => ⟨S800000, .i32⟩
  | .hbm, ⟨53, _⟩ => ⟨S800000, .i32⟩
  | .hbm, ⟨54, _⟩ => ⟨S800000x1, .i32⟩
  | .hbm, ⟨55, _⟩ => ⟨S800000x128, .bf16⟩
  | .hbm, ⟨56, _⟩ => ⟨S800000x128, .f32⟩
  | .hbm, ⟨57, _⟩ => ⟨S_, .f32⟩
  | .hbm, ⟨58, _⟩ => ⟨S50000x128, .f32⟩
  | .hbm, ⟨59, _⟩ => ⟨S800000x1, .i32⟩
  | .hbm, ⟨60, _⟩ => ⟨S50000x128, .f32⟩
  | .hbm, ⟨61, _⟩ => ⟨S50000x128, .f32⟩
  | .hbm, ⟨62, _⟩ => ⟨S50000x128, .f32⟩
  | .hbm, ⟨63, _⟩ => ⟨S128x64, .f32⟩
  | .hbm, ⟨64, _⟩ => ⟨S128x64, .bf16⟩
  | .hbm, ⟨65, _⟩ => ⟨S128x64, .f32⟩
  | .hbm, ⟨66, _⟩ => ⟨S128x64, .bf16⟩
  | .hbm, ⟨67, _⟩ => ⟨S50000x64, .f32⟩
  | .local _ .vmem, ⟨0, _⟩ => ⟨S2000x128, .f32⟩
  | .local _ .vmem, ⟨1, _⟩ => ⟨S2000x128, .f32⟩
  | .local _ .vmem, ⟨2, _⟩ => ⟨S2000x128, .bf16⟩
  | .local _ .vmem, ⟨3, _⟩ => ⟨S2000x128, .bf16⟩
  | .local _ .vmem, ⟨4, _⟩ => ⟨S128x128, .bf16⟩
  | .local _ .vmem, ⟨5, _⟩ => ⟨S128, .f32⟩
  | .local _ .vmem, ⟨6, _⟩ => ⟨S128x128, .bf16⟩
  | .local _ .vmem, ⟨7, _⟩ => ⟨S2000x128, .bf16⟩
  | .local _ .vmem, ⟨8, _⟩ => ⟨S2000x128, .bf16⟩
  | .local _ .vmem, ⟨9, _⟩ => ⟨S2000x128, .f32⟩
  | .local _ .vmem, ⟨10, _⟩ => ⟨S2000x128, .f32⟩
  | .local _ .vmem, ⟨11, _⟩ => ⟨S2000x128, .bf16⟩
  | .local _ .vmem, ⟨12, _⟩ => ⟨S2000x128, .bf16⟩
  | .local _ .vmem, ⟨13, _⟩ => ⟨S128x64, .bf16⟩
  | .local _ .vmem, ⟨14, _⟩ => ⟨S64, .f32⟩
  | .local _ .vmem, ⟨15, _⟩ => ⟨S128x64, .bf16⟩
  | .local _ .vmem, ⟨16, _⟩ => ⟨S2000x64, .f32⟩
  | .local _ .vmem, ⟨17, _⟩ => ⟨S2000x64, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst_1 : Ref sig .tc := ⟨.hbm, 19, rfl⟩
abbrev main_v9 : Ref sig .tc := ⟨.hbm, 20, rfl⟩
abbrev main_v10 : Ref sig .tc := ⟨.hbm, 21, rfl⟩
abbrev main_cst_2 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_c : Ref sig .tc := ⟨.hbm, 26, rfl⟩
abbrev main_v14 : Ref sig .tc := ⟨.hbm, 27, rfl⟩
abbrev main_v15 : Ref sig .tc := ⟨.hbm, 28, rfl⟩
abbrev main_c_3 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_cst_4 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_c_5 : Ref sig .tc := ⟨.hbm, 47, rfl⟩
abbrev main_v32 : Ref sig .tc := ⟨.hbm, 48, rfl⟩
abbrev main_v33 : Ref sig .tc := ⟨.hbm, 49, rfl⟩
abbrev main_c_6 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_cst_7 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2000x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x128 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x64 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x64 .bf16 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S2000x64 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  shapeCasts_S50000_S50000x1 : S50000.ShapeCasts S50000x1
  bcast_S_S50000x1 : S_.BroadcastsInDim S50000x1 (![] : Fin 0 → Fin S50000x1.rank)
  bitsLt_bf16_f32 : FTy.bits .bf16 < FTy.bits .f32
  bcast_S_S50000x128 : S_.BroadcastsInDim S50000x128 (![] : Fin 0 → Fin S50000x128.rank)
  bcast_S50000x1_S50000x128_0_1 : S50000x1.BroadcastsInDim S50000x128 (![0, 1] : Fin 2 → Fin S50000x128.rank)
  transposes_S128x128_S128x128_1_0 : S128x128.Transposes [1, 0] S128x128
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S128_S128_0 : ∀ a, (![0] : Fin 1 → Nat) a + S128.size a ≤ S128.size a
  h_S128 : 0 < S128.numel
  shapeCasts_S128_S1x128 : S128.ShapeCasts S1x128
  broadcasts_S1x128_S2000x128 : S1x128.Broadcasts S2000x128
  packedbf16_S2000x128_S2000x128_0_0 : (Rect.unit (s := S2000x128) ![0, 0] S2000x128.size inb_S2000x128_S2000x128_0_0).PackedRows (EltTy.packing .bf16)
  transposes_S64x128_S128x64_1_0 : S64x128.Transposes [1, 0] S128x64
  inb_S128x64_S128x64_0_0 : ∀ a, (![0, 0] : Fin 2 → Nat) a + S128x64.size a ≤ S128x64.size a
  h_S128x64 : 0 < S128x64.numel
  shapeCasts_S128x64_S128x64 : S128x64.ShapeCasts S128x64
  inb_S64_S64_0 : ∀ a, (![0] : Fin 1 → Nat) a + S64.size a ≤ S64.size a
  h_S64 : 0 < S64.numel
  shapeCasts_S64_S1x64 : S64.ShapeCasts S1x64
  broadcasts_S1x64_S2000x64 : S1x64.Broadcasts S2000x64
  reduces_S2000x64_S2000 : S2000x64.Reduces [1] S2000
  shapeCasts_S2000_S2000x1 : S2000.ShapeCasts S2000x1
  broadcasts_S2000x1_S2000x64 : S2000x1.Broadcasts S2000x64
  inb_S2000x64_S2000x64_0_0 : ∀ a, (![0, 0] : Fin 2 → Nat) a + S2000x64.size a ≤ S2000x64.size a
  h_S2000x64 : 0 < S2000x64.numel
  scatter_S50000_S800000x1_S800000_n_0_0_1_wf : ScatterDims.WF S50000 S800000x1 S800000 [] [0] [0] 1
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S2000x128_S128x128_S2000x128_1_0_0_1_n_n_wf : DotDims.WF S2000x128 S128x128 S2000x128 [1] [0] [0] [1] [] []
  dot_S2000x128_S128x64_S2000x64_1_0_0_1_n_n_wf : DotDims.WF S2000x128 S128x64 S2000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x128.size a ≤ S50000x128.size a
  hwx0_1 : ∀ i : grid0.Coords, EltTy.bits .bf16 = 32 ∨ (Rect.block (s := S50000x128) S2000x128.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .bf16 = 32 ∨ (Rect.block (s := S128x128) S128x128.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128.size a ≤ S128.size a
  hwx0_3 : ∀ i : grid0.Coords, EltTy.bits .f32 = 32 ∨ (Rect.block (s := S128) S128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .bf16 = 32 ∨ (Rect.block (s := S128x128) S128x128.size (cc0_transform_4 i) (hinb0_4 i)).WholeWords (EltTy.packing .bf16)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2000x128.size a ≤ S50000x128.size a
  hwx0_5 : ∀ i : grid0.Coords, EltTy.bits .bf16 = 32 ∨ (Rect.block (s := S50000x128) S2000x128.size (cc0_transform_5 i) (hinb0_5 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S50000x128.size a
  hwx1_0 : ∀ i : grid1.Coords, EltTy.bits .f32 = 32 ∨ (Rect.block (s := S50000x128) S2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x128.size a ≤ S50000x128.size a
  hwx1_1 : ∀ i : grid1.Coords, EltTy.bits .bf16 = 32 ∨ (Rect.block (s := S50000x128) S2000x128.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x64.size a ≤ S128x64.size a
  hwx1_2 : ∀ i : grid1.Coords, EltTy.bits .bf16 = 32 ∨ (Rect.block (s := S128x64) S128x64.size (cc1_transform_2 i) (hinb1_2 i)).WholeWords (EltTy.packing .bf16)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64.size a ≤ S64.size a
  hwx1_3 : ∀ i : grid1.Coords, EltTy.bits .f32 = 32 ∨ (Rect.block (s := S64) S64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x64.size a ≤ S128x64.size a
  hwx1_4 : ∀ i : grid1.Coords, EltTy.bits .bf16 = 32 ∨ (Rect.block (s := S128x64) S128x64.size (cc1_transform_4 i) (hinb1_4 i)).WholeWords (EltTy.packing .bf16)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S2000x64.size a ≤ S50000x64.size a
  hwx1_5 : ∀ i : grid1.Coords, EltTy.bits .f32 = 32 ∨ (Rect.block (s := S50000x64) S2000x64.size (cc1_transform_5 i) (hinb1_5 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def dot_S2000x128_S128x64_S2000x64_1_0_0_1_n_n : DotDims S2000x128 S128x64 S2000x64 where
  lhsContracting := [1]
  rhsContracting := [0]
  lhsNonContracting := [0]
  rhsNonContracting := [1]
  lhsBatch := []
  rhsBatch := []
  wf := dot_S2000x128_S128x64_S2000x64_1_0_0_1_n_n_wf

abbrev win0_0 : Pipeline.Window sig grid0 :=
  Pipeline.Window.ofSpec (Memref.whole main_v26) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S2000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v28) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v30) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v31) S2000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v44) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v31) S2000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v46) S128x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg6) S64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v48) S128x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v49) S2000x64.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S64x128 : Shape := ⟨2, ![64, 128]⟩
abbrev S64 : Shape := ⟨1, ![64]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S50000 : Shape := ⟨1, ![50000]⟩
abbrev S50000x1 : Shape := ⟨2, ![50000, 1]⟩
abbrev S1x128 : Shape := ⟨2, ![1, 128]⟩
abbrev S128x64 : Shape := ⟨2, ![128, 64]⟩
abbrev S50000x64 : Shape := ⟨2, ![50000, 64]⟩
abbrev S1x64 : Shape := ⟨2, ![1, 64]⟩

abbrev nBuf : Space → Nat
  | .hbm => 96
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S64x128, .f32⟩
  | .hbm, ⟨6, _⟩ => ⟨S64, .f32⟩
  | .hbm, ⟨7, _⟩ => ⟨S64x128, .f32⟩
  | .hbm, ⟨8, _⟩ => ⟨S1x800000, .i32⟩
  | .hbm, ⟨9, _⟩ => ⟨S800000, .i32⟩
  | .hbm, ⟨10, _⟩ => ⟨S1x800000, .i32⟩
  | .hbm, ⟨11, _⟩ => ⟨S800000, .i32⟩
  | .hbm, ⟨12, _⟩ => ⟨S_, .i32⟩
  | .hbm, ⟨13, _⟩ => ⟨S800000, .i32⟩
  | .hbm, ⟨14, _⟩ => ⟨S800000, .i1⟩
  | .hbm, ⟨15, _⟩ => ⟨S_, .i32⟩
  | .hbm, ⟨16, _⟩ => ⟨S800000, .i32⟩
  | .hbm, ⟨17, _⟩ => ⟨S800000, .i32⟩
  | .hbm, ⟨18, _⟩ => ⟨S800000, .i32⟩
  | .hbm, ⟨19, _⟩ => ⟨S800000x1, .i32⟩
  | .hbm, ⟨20, _⟩ => ⟨S800000x128, .f32⟩
  | .hbm, ⟨21, _⟩ => ⟨S_, .f32⟩
  | .hbm, ⟨22, _⟩ => ⟨S50000x128, .f32⟩
  | .hbm, ⟨23, _⟩ => ⟨S800000x1, .i32⟩
  | .hbm, ⟨24, _⟩ => ⟨S50000x128, .f32⟩
  | .hbm, ⟨25, _⟩ => ⟨S_, .f32⟩
  | .hbm, ⟨26, _⟩ => ⟨S800000, .f32⟩
  | .hbm, ⟨27, _⟩ => ⟨S_, .f32⟩
  | .hbm, ⟨28, _⟩ => ⟨S50000, .f32⟩
  | .hbm, ⟨29, _⟩ => ⟨S800000x1, .i32⟩
  | .hbm, ⟨30, _⟩ => ⟨S50000, .f32⟩
  | .hbm, ⟨31, _⟩ => ⟨S_, .f32⟩
  | .hbm, ⟨32, _⟩ => ⟨S50000, .f32⟩
  | .hbm, ⟨33, _⟩ => ⟨S50000, .f32⟩
  | .hbm, ⟨34, _⟩ => ⟨S50000x1, .f32⟩
  | .hbm, ⟨35, _⟩ => ⟨S50000x128, .f32⟩
  | .hbm, ⟨36, _⟩ => ⟨S50000x128, .f32⟩
  | .hbm, ⟨37, _⟩ => ⟨S128x128, .f32⟩
  | .hbm, ⟨38, _⟩ => ⟨S50000x128, .f32⟩
  | .hbm, ⟨39, _⟩ => ⟨S1x128, .f32⟩
  | .hbm, ⟨40, _⟩ => ⟨S50000x128, .f32⟩
  | .hbm, ⟨41, _⟩ => ⟨S50000x128, .f32⟩
  | .hbm, ⟨42, _⟩ => ⟨S128x128, .f32⟩
  | .hbm, ⟨43, _⟩ => ⟨S50000x128, .f32⟩
  | .hbm, ⟨44, _⟩ => ⟨S50000x128, .f32⟩
  | .hbm, ⟨45, _⟩ => ⟨S_, .f32⟩
  | .hbm, ⟨46, _⟩ => ⟨S50000x128, .f32⟩
  | .hbm, ⟨47, _⟩ => ⟨S50000x128, .f32⟩
  | .hbm, ⟨48, _⟩ => ⟨S_, .i32⟩
  | .hbm, ⟨49, _⟩ => ⟨S800000, .i32⟩
  | .hbm, ⟨50, _⟩ => ⟨S800000, .i1⟩
  | .hbm, ⟨51, _⟩ => ⟨S_, .i32⟩
  | .hbm, ⟨52, _⟩ => ⟨S800000, .i32⟩
  | .hbm, ⟨53, _⟩ => ⟨S800000, .i32⟩
  | .hbm, ⟨54, _⟩ => ⟨S800000, .i32⟩
  | .hbm, ⟨55, _⟩ => ⟨S800000x1, .i32⟩
  | .hbm, ⟨56, _⟩ => ⟨S800000x128, .f32⟩
  | .hbm, ⟨57, _⟩ => ⟨S_, .f32⟩
  | .hbm, ⟨58, _⟩ => ⟨S50000x128, .f32⟩
  | .hbm, ⟨59, _⟩ => ⟨S800000x1, .i32⟩
  | .hbm, ⟨60, _⟩ => ⟨S50000x128, .f32⟩
  | .hbm, ⟨61, _⟩ => ⟨S_, .f32⟩
  | .hbm, ⟨62, _⟩ => ⟨S800000, .f32⟩
  | .hbm, ⟨63, _⟩ => ⟨S_, .f32⟩
  | .hbm, ⟨64, _⟩ => ⟨S50000, .f32⟩
  | .hbm, ⟨65, _⟩ => ⟨S800000x1, .i32⟩
  | .hbm, ⟨66, _⟩ => ⟨S50000, .f32⟩
  | .hbm, ⟨67, _⟩ => ⟨S_, .f32⟩
  | .hbm, ⟨68, _⟩ => ⟨S50000, .f32⟩
  | .hbm, ⟨69, _⟩ => ⟨S50000, .f32⟩
  | .hbm, ⟨70, _⟩ => ⟨S50000x1, .f32⟩
  | .hbm, ⟨71, _⟩ => ⟨S50000x128, .f32⟩
  | .hbm, ⟨72, _⟩ => ⟨S50000x128, .f32⟩
  | .hbm, ⟨73, _⟩ => ⟨S128x64, .f32⟩
  | .hbm, ⟨74, _⟩ => ⟨S50000x64, .f32⟩
  | .hbm, ⟨75, _⟩ => ⟨S1x64, .f32⟩
  | .hbm, ⟨76, _⟩ => ⟨S50000x64, .f32⟩
  | .hbm, ⟨77, _⟩ => ⟨S50000x64, .f32⟩
  | .hbm, ⟨78, _⟩ => ⟨S128x64, .f32⟩
  | .hbm, ⟨79, _⟩ => ⟨S50000x64, .f32⟩
  | .hbm, ⟨80, _⟩ => ⟨S50000x64, .f32⟩
  | .hbm, ⟨81, _⟩ => ⟨S_, .f32⟩
  | .hbm, ⟨82, _⟩ => ⟨S50000, .f32⟩
  | .hbm, ⟨83, _⟩ => ⟨S_, .f32⟩
  | .hbm, ⟨84, _⟩ => ⟨S50000, .f32⟩
  | .hbm, ⟨85, _⟩ => ⟨S50000, .f32⟩
  | .hbm, ⟨86, _⟩ => ⟨S50000x1, .f32⟩
  | .hbm, ⟨87, _⟩ => ⟨S50000x64, .f32⟩
  | .hbm, ⟨88, _⟩ => ⟨S50000x64, .f32⟩
  | .hbm, ⟨89, _⟩ => ⟨S50000x64, .f32⟩
  | .hbm, ⟨90, _⟩ => ⟨S_, .f32⟩
  | .hbm, ⟨91, _⟩ => ⟨S50000, .f32⟩
  | .hbm, ⟨92, _⟩ => ⟨S50000x1, .f32⟩
  | .hbm, ⟨93, _⟩ => ⟨S50000x1, .f32⟩
  | .hbm, ⟨94, _⟩ => ⟨S50000x64, .f32⟩
  | .hbm, ⟨95, _⟩ => ⟨S50000x64, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_call0_cst : Ref sig .tc := ⟨.hbm, 45, rfl⟩
abbrev main_call0_v0 : Ref sig .tc := ⟨.hbm, 46, rfl⟩
abbrev main_v31 : Ref sig .tc := ⟨.hbm, 47, rfl⟩
abbrev main_c_4 : Ref sig .tc := ⟨.hbm, 48, rfl⟩
abbrev main_v32 : Ref sig .tc := ⟨.hbm, 49, rfl⟩
abbrev main_v33 : Ref sig .tc := ⟨.hbm, 50, rfl⟩
abbrev main_c_5 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_cst_6 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_cst_7 : Ref sig .tc := ⟨.hbm, 61, rfl⟩
abbrev main_v42 : Ref sig .tc := ⟨.hbm, 62, rfl⟩
abbrev main_cst_8 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_cst_9 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_call1_cst : Ref sig .tc := ⟨.hbm, 81, rfl⟩
abbrev main_call1_v0 : Ref sig .tc := ⟨.hbm, 82, rfl⟩
abbrev main_call1_cst_0 : Ref sig .tc := ⟨.hbm, 83, rfl⟩
abbrev main_call1_v1 : Ref sig .tc := ⟨.hbm, 84, rfl⟩
abbrev main_call1_v2 : Ref sig .tc := ⟨.hbm, 85, rfl⟩
abbrev main_call1_v3 : Ref sig .tc := ⟨.hbm, 86, rfl⟩
abbrev main_call1_v4 : Ref sig .tc := ⟨.hbm, 87, rfl⟩
abbrev main_call1_v5 : Ref sig .tc := ⟨.hbm, 88, rfl⟩
abbrev main_call1_v6 : Ref sig .tc := ⟨.hbm, 89, rfl⟩
abbrev main_call1_cst_1 : Ref sig .tc := ⟨.hbm, 90, rfl⟩
abbrev main_call1_v7 : Ref sig .tc := ⟨.hbm, 91, rfl⟩
abbrev main_call1_v8 : Ref sig .tc := ⟨.hbm, 92, rfl⟩
abbrev main_call1_v9 : Ref sig .tc := ⟨.hbm, 93, rfl⟩
abbrev main_call1_v10 : Ref sig .tc := ⟨.hbm, 94, rfl⟩
abbrev main_v59 : Ref sig .tc := ⟨.hbm, 95, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  transposes_S128x128_S128x128_1_0 : S128x128.Transposes [1, 0] S128x128
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  transposes_S64x128_S128x64_1_0 : S64x128.Transposes [1, 0] S128x64
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  reducesTo_S50000x64_S50000_d1 : S50000x64.ReducesTo [1] S50000
  h_S_ : 0 < S_.numel
  bcast_S50000x1_S50000x64_0_1 : S50000x1.BroadcastsInDim S50000x64 (![0, 1] : Fin 2 → Fin S50000x64.rank)
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  scatter_S50000_S800000x1_S800000_n_0_0_1_wf : ScatterDims.WF S50000 S800000x1 S800000 [] [0] [0] 1
  dot_S50000x128_S128x128_S50000x128_1_0_0_1_n_n_wf : DotDims.WF S50000x128 S128x128 S50000x128 [1] [0] [0] [1] [] []
  dot_S50000x128_S128x64_S50000x64_1_0_0_1_n_n_wf : DotDims.WF S50000x128 S128x64 S50000x64 [1] [0] [0] [1] [] []

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf

class Facts : Prop extends Facts₀ where

variable [Facts]
-- ==== Proof.KernelRun.lean ====
/-
  The idealized kernel program's run with its RESULT named.

  @main is four segments: host operations, the first layer's grid of 25 points, host operations, the second
  layer's grid. The contents of every unscoped buffer after the last segment is the fold `W4` of the segments
  over the launch memory; the frame certificate reads the eight argument arrays out of that fold, and the same run
  read at the result array gives the result as `W4` at that array, which is the second grid's output array after its
  25 write-backs.
-/
import proofs.«175774_j12232066859618_2_alg».proof.Proof.Gen.KernelIdeal.Frame

set_option maxRecDepth 16384

noncomputable section

namespace Cert.KernelIdeal.RunValue

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with the result array at the last boundary's
    contents and the argument arrays as launched. -/
theorem run_result : θ_run defs (onTc (τ := τ) (main (F := F))) ⟨m, fun _ => 0, ρ⟩ (fun r => ∀ c : Dev nD,
      r.2.mem ((c.tc : Thread nD τ).loc main_v49) = W4 m ρ c (Proc.devRef .tc main_v49)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v49 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c)⟩)

end Cert.KernelIdeal.RunValue

end
-- ==== Proof.HostTerms.lean ====
/-
  The host side of the idealized kernel program, as functions of the argument arrays.

  From the edge list [2, 800000]: the source nodes (row 0, a negative index counted from the end) and the destination
  nodes (row 1), each as a column of indices. The in-degree count is the scatter-add of ones at the destinations;
  its reciprocal column is 1 / max(count, 1). The aggregate of a node table is the scatter-add, at the destinations,
  of the table's rows gathered at the sources; the neighbourhood mean is the aggregate times the reciprocal column
  spread over the features.
-/
import proofs.«175774_j12232066859618_2_alg».proof.Proof.Gen.KernelIdeal
import Idealize.ShloMosaic.PureOps.Ideal

noncomputable section

namespace Cert.KernelIdeal.HostTerms

open Cert.KernelIdeal Cert.KernelIdeal.Facts₀ Cert.KernelIdeal.Facts Idealize.ShloMosaic

/-- Row `k` of the edge list as a vector of 800000 indices. -/
def srcRow (x1 : IVec S2x800000 32) : IVec S800000 32 :=
  shapeCast S800000 (extractStridedSlice S1x800000 ![0, 0] x1 slices_S2x800000_S1x800000_0_0) shapeCasts_S1x800000_S800000

def dstRow (x1 : IVec S2x800000 32) : IVec S800000 32 :=
  shapeCast S800000 (extractStridedSlice S1x800000 ![1, 0] x1 slices_S2x800000_S1x800000_1_0) shapeCasts_S1x800000_S800000

/-- The source nodes as a column of indices, a negative index moved up by the number of nodes. -/
def srcIdx (x1 : IVec S2x800000 32) : IVec S800000x1 32 :=
  broadcastInDim S800000x1 ![0] bcast_S800000_S800000x1_0
    (select (cmpi .slt (srcRow x1) (broadcastInDim S800000 ![] bcast_S_S800000 (constantI S_ 32 0#32)))
      (addi (srcRow x1) (broadcastInDim S800000 ![] bcast_S_S800000 (constantI S_ 32 50000#32))) (srcRow x1))

/-- The destination nodes as a column of indices. -/
def dstIdx (x1 : IVec S2x800000 32) : IVec S800000x1 32 :=
  broadcastInDim S800000x1 ![0] bcast_S800000_S800000x1_0 (dstRow x1)

/-- The in-degree of every node: ones added up at the destinations. -/
def count (x1 : IVec S2x800000 32) : FVec Ideal S50000 .f32 :=
  Host.scatterAdd scatter_S50000_S800000x1_S800000_n_0_0_1
    (broadcastInDim S50000 ![] bcast_S_S50000 (constant (F := Ideal) S_ .f32 0x00000000#32)) (dstIdx x1)
    (broadcastInDim S800000 ![] bcast_S_S800000 (constant (F := Ideal) S_ .f32 0x3F800000#32))

/-- The column of reciprocals 1 / max(count, 1). -/
def recip (x1 : IVec S2x800000 32) : FVec Ideal S50000x1 .f32 :=
  Host.divf (broadcastInDim S50000x1 ![] bcast_S_S50000x1 (constant (F := Ideal) S_ .f32 0x3F800000#32))
    (maximumf (shapeCast S50000x1 (count x1) shapeCasts_S50000_S50000x1)
      (broadcastInDim S50000x1 ![] bcast_S_S50000x1 (constant (F := Ideal) S_ .f32 0x3F800000#32)))

/-- The aggregate of a node table: its rows gathered at the sources and added up at the destinations. -/
def aggregate (t : FVec Ideal S50000x128 .bf16) (x1 : IVec S2x800000 32) : FVec Ideal S50000x128 .f32 :=
  Host.scatterAdd scatter_S50000x128_S800000x1_S800000x128_1_0_0_1
    (broadcastInDim S50000x128 ![] bcast_S_S50000x128 (constant (F := Ideal) S_ .f32 0x00000000#32)) (dstIdx x1)
    (extf .f32 (Host.gather gather_S50000x128_S800000x1_S800000x128_1_0_n_n_0_1_1128 t (srcIdx x1)) bitsLt_bf16_f32)

/-- The neighbourhood mean of a node table: the aggregate times the reciprocal column spread over the features. -/
def mean (t : FVec Ideal S50000x128 .bf16) (x1 : IVec S2x800000 32) : FVec Ideal S50000x128 .f32 :=
  mulf (aggregate t x1) (broadcastInDim S50000x128 ![0, 1] bcast_S50000x1_S50000x128_0_1 (recip x1))

end Cert.KernelIdeal.HostTerms

end
-- ==== Proof.HostValues.lean ====
/-
  What the buffers hold when each of the two grids is entered, and when the program returns.

  The first grid is entered after the first stretch of host operations: its mean window holds the neighbourhood mean
  of the node features, its feature window the node features, its weight windows the two transposed weight matrices.
  The second grid is entered after the second stretch, which reads the first grid's output array (the hidden
  features): its mean window holds the neighbourhood mean of the hidden features, its feature window the hidden
  features themselves. Nothing between the grids writes the edge list's index columns or the reciprocal column, so
  the second stretch finds them as the first stretch left them.
-/
import proofs.«175774_j12232066859618_2_alg».proof.Proof.Gen.KernelIdeal.Frame
import proofs.«175774_j12232066859618_2_alg».proof.Proof.HostTerms
import Idealize.ShloMosaic.Lib.StableHlo.Run

noncomputable section

namespace Cert.KernelIdeal.HostValues

open Cert.KernelIdeal Cert.KernelIdeal.Facts₀ Cert.KernelIdeal.Facts Cert.KernelIdeal.HostTerms
open Cert.KernelIdeal.Gen (V1 V3 W0 W1 W2 W4 W2_of_ne W2_arr W4_arr dat0 dat1 hostOps0 hostOps1)
open Idealize.ShloMosaic Idealize.ShloMosaic.TcCoe Idealize.SL.Sem Idealize.ShloMosaic.StableHlo

variable (m : (ℓ : Loc nD τ sig) → Buf (Elt Ideal) ℓ) (ρ : Dev nD → PrngReg)

/-! ## At the first grid's entry -/

set_option maxHeartbeats 4000000 in
theorem entry0_mean (c : Dev nD) :
    V1 (F := Ideal) m ρ c main_v26
      = mean (truncf .bf16 (m ((c : Thread nD τ).loc main_arg0)) bitsLt_bf16_f32) (m ((c : Thread nD τ).loc main_arg1)) := by
  show StableHlo.after hostOps0 (W0 m ρ c) (Proc.devRef .tc main_v26) = _
  after_results_simp <;> rfl

set_option maxHeartbeats 4000000 in
theorem entry0_x (c : Dev nD) :
    V1 (F := Ideal) m ρ c main_v13 = (truncf .bf16 (m ((c : Thread nD τ).loc main_arg0) : FVec Ideal S50000x128 .f32) bitsLt_bf16_f32 : FVec Ideal S50000x128 .bf16) := by
  show StableHlo.after hostOps0 (W0 m ρ c) (Proc.devRef .tc main_v13) = _
  after_results_simp <;> rfl

set_option maxHeartbeats 4000000 in
theorem entry0_wl (c : Dev nD) :
    V1 (F := Ideal) m ρ c main_v28
      = (truncf .bf16 (transpose S128x128 [1, 0] (m ((c : Thread nD τ).loc main_arg2) : FVec Ideal S128x128 .f32) transposes_S128x128_S128x128_1_0) bitsLt_bf16_f32 : FVec Ideal S128x128 .bf16) := by
  show StableHlo.after hostOps0 (W0 m ρ c) (Proc.devRef .tc main_v28) = _
  after_results_simp <;> rfl

set_option maxHeartbeats 4000000 in
theorem entry0_wr (c : Dev nD) :
    V1 (F := Ideal) m ρ c main_v30
      = (truncf .bf16 (transpose S128x128 [1, 0] (m ((c : Thread nD τ).loc main_arg4) : FVec Ideal S128x128 .f32) transposes_S128x128_S128x128_1_0) bitsLt_bf16_f32 : FVec Ideal S128x128 .bf16) := by
  show StableHlo.after hostOps0 (W0 m ρ c) (Proc.devRef .tc main_v30) = _
  after_results_simp <;> rfl

set_option maxHeartbeats 4000000 in
theorem entry0_b (c : Dev nD) : V1 (F := Ideal) m ρ c main_arg3 = m ((c : Thread nD τ).loc main_arg3) := by
  show StableHlo.after hostOps0 (W0 m ρ c) (Proc.devRef .tc main_arg3) = _
  after_results_simp <;> rfl

/-! ## What the first stretch leaves for the second -/

set_option maxHeartbeats 4000000 in
theorem w1_src (c : Dev nD) : W1 (F := Ideal) m ρ c (Proc.devRef .tc main_v1) = srcRow (m ((c : Thread nD τ).loc main_arg1)) := by
  show StableHlo.after hostOps0 (W0 m ρ c) (Proc.devRef .tc main_v1) = _
  after_results_simp <;> rfl

set_option maxHeartbeats 4000000 in
theorem w1_dst (c : Dev nD) : W1 (F := Ideal) m ρ c (Proc.devRef .tc main_v3) = dstRow (m ((c : Thread nD τ).loc main_arg1)) := by
  show StableHlo.after hostOps0 (W0 m ρ c) (Proc.devRef .tc main_v3) = _
  after_results_simp <;> rfl

set_option maxHeartbeats 4000000 in
theorem w1_recip (c : Dev nD) : W1 (F := Ideal) m ρ c (Proc.devRef .tc main_v12) = recip (m ((c : Thread nD τ).loc main_arg1)) := by
  show StableHlo.after hostOps0 (W0 m ρ c) (Proc.devRef .tc main_v12) = _
  after_results_simp <;> rfl

set_option maxHeartbeats 4000000 in
theorem w1_arg5 (c : Dev nD) : W1 (F := Ideal) m ρ c (Proc.devRef .tc main_arg5) = m ((c : Thread nD τ).loc main_arg5) := by
  show StableHlo.after hostOps0 (W0 m ρ c) (Proc.devRef .tc main_arg5) = _
  after_results_simp <;> rfl

set_option maxHeartbeats 4000000 in
theorem w1_arg6 (c : Dev nD) : W1 (F := Ideal) m ρ c (Proc.devRef .tc main_arg6) = m ((c : Thread nD τ).loc main_arg6) := by
  show StableHlo.after hostOps0 (W0 m ρ c) (Proc.devRef .tc main_arg6) = _
  after_results_simp <;> rfl

set_option maxHeartbeats 4000000 in
theorem w1_arg7 (c : Dev nD) : W1 (F := Ideal) m ρ c (Proc.devRef .tc main_arg7) = m ((c : Thread nD τ).loc main_arg7) := by
  show StableHlo.after hostOps0 (W0 m ρ c) (Proc.devRef .tc main_arg7) = _
  after_results_simp <;> rfl

/-- The first grid's output array after its 25 write-backs: the hidden features. -/
abbrev hiddenArr (c : Dev nD) := (dat0 (F := Ideal) (V1 m ρ) c).arrAt 5 cfg0.N

theorem w2_hidden (c : Dev nD) : W2 (F := Ideal) m ρ c (Proc.devRef .tc main_v31) = hiddenArr m ρ c :=
  W2_arr m ρ c 5

/-! ## At the second grid's entry -/

set_option maxHeartbeats 4000000 in
theorem entry1_mean (c : Dev nD) :
    V3 (F := Ideal) m ρ c main_v44 = mean (hiddenArr m ρ c) (m ((c : Thread nD τ).loc main_arg1)) := by
  show StableHlo.after hostOps1 (W2 m ρ c) (Proc.devRef .tc main_v44) = _
  after_results_simp
  rw [W2_of_ne m ρ c main_v3 (by decide), W2_of_ne m ρ c main_v1 (by decide), W2_of_ne m ρ c main_v12 (by decide),
    w1_src, w1_dst, w1_recip, w2_hidden]
  rfl

set_option maxHeartbeats 4000000 in
theorem entry1_h (c : Dev nD) : V3 (F := Ideal) m ρ c main_v31 = hiddenArr m ρ c := by
  show StableHlo.after hostOps1 (W2 m ρ c) (Proc.devRef .tc main_v31) = _
  after_results_simp
  exact w2_hidden m ρ c

set_option maxHeartbeats 4000000 in
theorem entry1_wl (c : Dev nD) :
    V3 (F := Ideal) m ρ c main_v46
      = (truncf .bf16 (transpose S128x64 [1, 0] (m ((c : Thread nD τ).loc main_arg5) : FVec Ideal S64x128 .f32) transposes_S64x128_S128x64_1_0) bitsLt_bf16_f32 : FVec Ideal S128x64 .bf16) := by
  show StableHlo.after hostOps1 (W2 m ρ c) (Proc.devRef .tc main_v46) = _
  after_results_simp
  rw [W2_of_ne m ρ c main_arg5 (by decide), w1_arg5]

set_option maxHeartbeats 4000000 in
theorem entry1_wr (c : Dev nD) :
    V3 (F := Ideal) m ρ c main_v48
      = (truncf .bf16 (transpose S128x64 [1, 0] (m ((c : Thread nD τ).loc main_arg7) : FVec Ideal S64x128 .f32) transposes_S64x128_S128x64_1_0) bitsLt_bf16_f32 : FVec Ideal S128x64 .bf16) := by
  show StableHlo.after hostOps1 (W2 m ρ c) (Proc.devRef .tc main_v48) = _
  after_results_simp
  rw [W2_of_ne m ρ c main_arg7 (by decide), w1_arg7]

set_option maxHeartbeats 4000000 in
theorem entry1_b (c : Dev nD) : V3 (F := Ideal) m ρ c main_arg6 = m ((c : Thread nD τ).loc main_arg6) := by
  show StableHlo.after hostOps1 (W2 m ρ c) (Proc.devRef .tc main_arg6) = _
  after_results_simp
  rw [W2_of_ne m ρ c main_arg6 (by decide), w1_arg6]

/-! ## At the return -/

/-- The result array at the return is the second grid's output array after its 25 write-backs. -/
theorem result_arr (c : Dev nD) :
    W4 (F := Ideal) m ρ c (Proc.devRef .tc main_v49) = (dat1 (F := Ideal) (V3 m ρ) c).arrAt 5 cfg1.N :=
  W4_arr m ρ c 5

end Cert.KernelIdeal.HostValues

end
-- ==== Proof.LibMaxReduce.lean ====
/-
  Maximum reductions of an `[a, b]` matrix over one of its two axes, read at an index, at the ideal values.

  On the extended reals a maximum reduction from a start value `s` is the running maximum `foldMax s x` of the
  reduced entries, a fold of `max` over the reduced axis's coordinates whose order does not matter. The vector unit's
  reduction and the host's one-operand reduce with a maximum body both read that way: over the LAST axis at a row `p`
  the entries are `x (p, k)`, over the FIRST axis at a column `c` they are `x (r, c)`.
  Joining the start value in once more changes nothing, since the fold is already above it.
-/
import Idealize.ShloMosaic.Lib.ValueIdx
import Idealize.ShloMosaic.PureOps.Ideal.Laws

noncomputable section

namespace Cert.LibMaxReduce

open Idealize.ShloMosaic Idealize.ShloMosaic.ValueIdx

/-- The maximum of a finite family of extended reals and a start value. -/
def foldMax {n : ℕ} (s : EReal) (x : Fin n → EReal) : EReal := (Finset.univ : Finset (Fin n)).fold max s x

/-- The running maximum is above its start value, so the maximum of the two is the running maximum. -/
theorem max_foldMax {n : ℕ} (s : EReal) (x : Fin n → EReal) : max s (foldMax s x) = foldMax s x :=
  max_eq_right ((Finset.le_fold_max s).mpr (Or.inl le_rfl))

/-- A float maximum reduction over the LAST axis of an `[a, b]` matrix, read at row `p`: the running maximum of that
    row's `b` entries from the accumulator's value. -/
theorem multiReduction_maximumf_lastAxis_apply {a b : ℕ} (src : FVec Ideal ⟨2, ![a, b]⟩ .f32) (acc : BitVec 32)
    (h : (⟨2, ![a, b]⟩ : Shape).Reduces [1] ⟨1, ![a]⟩) (hφ : FKind.Formats .f32) (hacc : acc = FKind.maximumf.neutral .f32 hφ)
    (p : Fin a) :
    multiReduction .maximumf [1] ⟨1, ![a]⟩ src acc h hφ hacc (ix1 p)
      = foldMax (Ideal.ofBits .f32 acc) (fun k : Fin b => src (ix2 p k)) := by
  refine (Ideal.multiReduction_maximumf_single src acc h hφ hacc (ix1 p)).trans ?_
  unfold foldMax
  refine congrArg (fun f : Fin b → EReal => Finset.fold max (Ideal.ofBits .f32 acc) f Finset.univ) (funext fun k => congrArg src ?_)
  funext ax; apply Fin.ext
  match ax with
  | ⟨0, _⟩ => rfl
  | ⟨1, _⟩ => rfl

/-- A float maximum reduction over the FIRST axis of an `[a, b]` matrix, read at column `c`: the running maximum of
    that column's `a` entries from the accumulator's value. -/
theorem multiReduction_maximumf_firstAxis_apply {a b : ℕ} (src : FVec Ideal ⟨2, ![a, b]⟩ .f32) (acc : BitVec 32)
    (h : (⟨2, ![a, b]⟩ : Shape).Reduces [0] ⟨1, ![b]⟩) (hφ : FKind.Formats .f32) (hacc : acc = FKind.maximumf.neutral .f32 hφ)
    (c : Fin b) :
    multiReduction .maximumf [0] ⟨1, ![b]⟩ src acc h hφ hacc (ix1 c)
      = foldMax (Ideal.ofBits .f32 acc) (fun r : Fin a => src (ix2 r c)) := by
  refine (Ideal.multiReduction_maximumf_single src acc h hφ hacc (ix1 c)).trans ?_
  unfold foldMax
  refine congrArg (fun f : Fin a → EReal => Finset.fold max (Ideal.ofBits .f32 acc) f Finset.univ) (funext fun r => congrArg src ?_)
  funext ax; apply Fin.ext
  match ax with
  | ⟨0, _⟩ => rfl
  | ⟨1, _⟩ => rfl

/-- The host's one-operand reduce with a maximum body over the LAST axis of an `[a, b]` matrix, read at row `p`: the
    running maximum of that row's entries from the initial value's element. -/
theorem hostReduce_maximumf_lastAxis_apply {a b : ℕ} {u : Shape} (x : (⟨2, ![a, b]⟩ : Shape).Idx → EReal) (init : u.Idx → EReal)
    (h' : (⟨2, ![a, b]⟩ : Shape).ReducesTo [1] ⟨1, ![a]⟩) (h : (⟨2, ![a, b]⟩ : Shape).Reduces [1] ⟨1, ![a]⟩)
    (hu : 0 < u.numel) (p : Fin a) :
    Host.reduce (FloatOps.maximumf (F := Ideal) (φ := .f32)) x init h' hu (ix1 p)
      = foldMax (init (Shape.Idx.first hu)) (fun k : Fin b => x (ix2 p k)) := by
  refine (Host.reduce_eq_fold_single (FloatOps.maximumf (F := Ideal) (φ := .f32)) x init h' h hu (ix1 p)).trans ?_
  unfold foldMax
  refine congrArg (fun f : Fin b → EReal => Finset.fold max (init (Shape.Idx.first hu)) f Finset.univ) (funext fun k => congrArg x ?_)
  funext ax; apply Fin.ext
  match ax with
  | ⟨0, _⟩ => rfl
  | ⟨1, _⟩ => rfl

/-- The host's one-operand reduce with a maximum body over the FIRST axis of an `[a, b]` matrix, read at column `c`:
    the running maximum of that column's entries from the initial value's element. -/
theorem hostReduce_maximumf_firstAxis_apply {a b : ℕ} {u : Shape} (x : (⟨2, ![a, b]⟩ : Shape).Idx → EReal) (init : u.Idx → EReal)
    (h' : (⟨2, ![a, b]⟩ : Shape).ReducesTo [0] ⟨1, ![b]⟩) (h : (⟨2, ![a, b]⟩ : Shape).Reduces [0] ⟨1, ![b]⟩)
    (hu : 0 < u.numel) (c : Fin b) :
    Host.reduce (FloatOps.maximumf (F := Ideal) (φ := .f32)) x init h' hu (ix1 c)
      = foldMax (init (Shape.Idx.first hu)) (fun r : Fin a => x (ix2 r c)) := by
  refine (Host.reduce_eq_fold_single (FloatOps.maximumf (F := Ideal) (φ := .f32)) x init h' h hu (ix1 c)).trans ?_
  unfold foldMax
  refine congrArg (fun f : Fin a → EReal => Finset.fold max (init (Shape.Idx.first hu)) f Finset.univ) (funext fun r => congrArg x ?_)
  funext ax; apply Fin.ext
  match ax with
  | ⟨0, _⟩ => rfl
  | ⟨1, _⟩ => rfl

end Cert.LibMaxReduce

end
-- ==== Proof.Spec.lean ====
/-
  The per-node combine step of a mean-aggregating graph convolution, as functions of matrices over the extended
  reals, index by index.

  For a node (row) r and an output feature j the step forms
      lin r j = ( Σ_k mean(r, k) · wl(k, j) + Σ_k x(r, k) · wr(k, j) ) + b(j),
  the neighbourhood mean and the node's own features each through its own weight matrix [K, B], plus a bias.
  The hidden layer rectifies it, max (lin r j) 0. The output layer takes the log-softmax of the row
  z = lin r ·, in the arrangement  z j − (M + log Σ_k exp (z k − M))  with M the row's maximum (a fold of max
  from −∞): subtracting M inside the exponential and adding it back outside the logarithm.
-/
import Idealize.ShloMosaic.PureOps.Ideal
import Idealize.ShloMosaic.Lib.ValueIdx
import proofs.«175774_j12232066859618_2_alg».proof.Proof.LibMaxReduce

noncomputable section

namespace Cert.Combine

open Idealize.ShloMosaic Idealize.ShloMosaic.ValueIdx Cert.LibMaxReduce

/-- Entry (r, j) of the combine step before the nonlinearity: the two matrix products' entries added, then the bias. -/
def lin {A K B : ℕ} (mean x : (⟨2, ![A, K]⟩ : Shape).Idx → EReal) (wl wr : (⟨2, ![K, B]⟩ : Shape).Idx → EReal)
    (b : (⟨1, ![B]⟩ : Shape).Idx → EReal) (r : Fin A) (j : Fin B) : EReal :=
  (∑ k : Fin K, mean (ix2 r k) * wl (ix2 k j) + ∑ k : Fin K, x (ix2 r k) * wr (ix2 k j)) + b (ix1 j)

/-- The hidden layer's entry: the combine step rectified. -/
def hidden {A K B : ℕ} (mean x : (⟨2, ![A, K]⟩ : Shape).Idx → EReal) (wl wr : (⟨2, ![K, B]⟩ : Shape).Idx → EReal)
    (b : (⟨1, ![B]⟩ : Shape).Idx → EReal) (r : Fin A) (j : Fin B) : EReal :=
  max (lin mean x wl wr b r j) 0

/-- The maximum of a row, as a fold of max from −∞ (the f32 word of −∞). -/
def rowMax {B : ℕ} (z : Fin B → EReal) : EReal := foldMax (Ideal.ofBits .f32 0xFF800000#32) z

/-- The log-softmax of a row at column j, with the row maximum subtracted inside the exponential and added back
    outside the logarithm. -/
def logSoftmax {B : ℕ} (z : Fin B → EReal) (j : Fin B) : EReal :=
  z j - (rowMax z + Ideal.log (∑ k : Fin B, Ideal.exp (z k - rowMax z)))

/-- The output layer's entry: the log-softmax of the row of combine-step entries. -/
def output {A K B : ℕ} (mean x : (⟨2, ![A, K]⟩ : Shape).Idx → EReal) (wl wr : (⟨2, ![K, B]⟩ : Shape).Idx → EReal)
    (b : (⟨1, ![B]⟩ : Shape).Idx → EReal) (r : Fin A) (j : Fin B) : EReal :=
  logSoftmax (fun q : Fin B => lin mean x wl wr b r q) j

end Cert.Combine

end
-- ==== Proof.LibPlainMatmul.lean ====
/-
  A plain matrix product read at an index, at the ideal values.

  For the dimension numbers of an ordinary product — an [A, K] matrix times a [K, B] matrix, contracting the left
  operand's columns with the right operand's rows, no batch axis — a `tpu.matmul` into the zero accumulator is, at
  (p, e), the sum over k of L(p, k) · R(k, e): a sum indexed by `Fin K`, with both operands read at indices written by
  coordinates. The contraction index of the library's general statement is re-indexed through its one coordinate, and
  the operand indices it names are computed axis by axis.
-/
import Idealize.ShloMosaic.PureOps.Ideal.Laws
import Idealize.ShloMosaic.Lib.ValueIdx

noncomputable section

namespace Idealize.ShloMosaic.ValueIdx

open Idealize.ShloMosaic

/-- The left operand's index at result index (p, e) and contraction coordinate k is (p, k). -/
theorem plain_lhsIdx (A K B : Nat) (p : Fin A) (e : Fin B) (k : Fin K) :
    (DotDims.plain A K B).lhsIdx (ix2 p e) ((contrEquiv1 (DotDims.plain A K B) K rfl rfl).symm k) = ix2 p k :=
  funext fun a => Fin.ext (by
    match a with
    | ⟨0, _⟩ => rfl
    | ⟨1, _⟩ =>
      exact ((DotDims.plain A K B).lhsIdx_val_of_single (cl := 1) rfl _ _).trans
        (contrEquiv1_symm_val (DotDims.plain A K B) K rfl rfl k))

/-- The right operand's index there is (k, e). -/
theorem plain_rhsIdx (A K B : Nat) (p : Fin A) (e : Fin B) (k : Fin K) :
    (DotDims.plain A K B).rhsIdx (ix2 p e) ((contrEquiv1 (DotDims.plain A K B) K rfl rfl).symm k) = ix2 k e :=
  funext fun a => Fin.ext (by
    match a with
    | ⟨0, _⟩ =>
      exact ((DotDims.plain A K B).rhsIdx_val_of_single (cr := 0) rfl _ _).trans
        (contrEquiv1_symm_val (DotDims.plain A K B) K rfl rfl k)
    | ⟨1, _⟩ => rfl)

/-- A plain [A, K] × [K, B] `tpu.matmul` into the zero accumulator, read at (p, e): Σ_k L(p, k) · R(k, e). -/
theorem matmul_plain_zero_apply (A K B : Nat) {φ₁ φ₂ : FTy} (prec : Option ContractPrecision)
    (lhs : FVec Ideal ⟨2, ![A, K]⟩ φ₁) (rhs : FVec Ideal ⟨2, ![K, B]⟩ φ₂) (p : Fin A) (e : Fin B) :
    FloatOps.matmul (DotDims.plain A K B) prec lhs rhs (constant ⟨2, ![A, B]⟩ .f32 0x00000000#32) (ix2 p e)
      = ∑ k : Fin K, lhs (ix2 p k) * rhs (ix2 k e) := by
  rw [Ideal.matmul_constant_zero_apply, ← Equiv.sum_comp (contrEquiv1 (DotDims.plain A K B) K rfl rfl).symm]
  refine Finset.sum_congr rfl fun k _ => ?_
  rw [plain_lhsIdx, plain_rhsIdx]

end Idealize.ShloMosaic.ValueIdx

end
-- ==== Proof.Region0Payload.lean ====
/-
  The hidden layer's block, entry by entry.

  At a grid point the kernel holds a block of 2000 rows of the neighbourhood means and of the node features, both
  whole weight matrices and the bias, and stores ONE block of the result. Its value at row p and feature q of the
  block is read here off the operations: each matrix product into the zero accumulator is the sum over the 128
  contracted features of left entry (p, k) times right entry (k, q); the bias row [128] is given a unit leading axis
  and spread over the 2000 rows, so its entry at (p, q) is b(q); the two products are added, then the bias, and the
  result is rectified by a maximum with the zero word, which is 0. Changing the float format is the identity on
  extended reals and a cast to the same shape is the identity, so the entry is
      max ((Σ_k mean(p, k) · wl(k, q) + Σ_k x(p, k) · wr(k, q)) + b(q)) 0,
  the specification's hidden-layer entry of the five blocks.
-/
import proofs.«175774_j12232066859618_2_alg».proof.Proof.Gen.KernelIdeal.Skeleton
import proofs.«175774_j12232066859618_2_alg».proof.Proof.Spec
import proofs.«175774_j12232066859618_2_alg».proof.Proof.LibPlainMatmul
import Idealize.ShloMosaic.Lib.ValueLayout
import Idealize.ShloMosaic.Lib.Pipeline.Value

noncomputable section

namespace Cert.KernelIdeal.Region0

open Idealize.ShloMosaic Idealize.ShloMosaic.ValueIdx Cert.KernelIdeal

/-- A [2000, 128] × [128, 128] product into the zero accumulator, at (p, q): the sum over the contracted feature k of
    L(p, k) · R(k, q). The operands are behind a cast to their own shape, which is the identity. -/
theorem product_apply {φ₁ φ₂ : FTy} (L : FVec Ideal S2000x128 φ₁) (R : FVec Ideal S128x128 φ₂)
    (hR : S128x128.ShapeCasts S128x128) (p : Fin 2000) (q : Fin 128) :
    matmul dot_S2000x128_S128x128_S2000x128_1_0_0_1_n_n none L (shapeCast S128x128 R hR)
        (constant S2000x128 .f32 0x00000000#32) (ix2 p q)
      = ∑ k : Fin 128, L (ix2 p k) * R (ix2 k q) := by
  rw [shapeCast_self]
  exact matmul_plain_zero_apply 2000 128 128 none L R p q

/-- The bias [128], given a unit leading axis and spread over 2000 rows, reads b(q) at (p, q). -/
theorem bias_apply (b : Vec Ideal S128 .f32) (h1 : S128.ShapeCasts S1x128) (h2 : S1x128.Broadcasts S2000x128)
    (p : Fin 2000) (q : Fin 128) :
    broadcastTo S2000x128 (shapeCast S1x128 b h1) h2 (ix2 p q) = b (ix1 q) :=
  (broadcastTo_1b_ab_apply (shapeCast S1x128 b h1) h2 p q).trans (shapeCast_a_1a_apply b h1 (0 : Fin 1) q)

/-- THE BLOCK'S ENTRY (p, q): the hidden layer's entry of the loaded blocks — the means and the features (2000 rows
    each), the two weight matrices, the bias. -/
theorem payload_apply (mean : Vec Ideal S2000x128 .f32) (x : Vec Ideal S2000x128 .bf16) (wl wr : Vec Ideal S128x128 .bf16)
    (b : Vec Ideal S128 .f32) (p : Fin 2000) (q : Fin 128) :
    Gen.k0_pay1 (F := Ideal) mean x wl wr b (ix2 p q) = Cert.Combine.hidden mean x wl wr b p q := by
  unfold Gen.k0_pay1 Cert.Combine.hidden Cert.Combine.lin
  refine congrArg₂ max (congrArg₂ (· + ·) (congrArg₂ (· + ·) ?_ ?_) ?_) Ideal.ofBits_zero_f32
  · refine (product_apply _ wl _ p q).trans ?_
    rw [shapeCast_self]
    rfl
  · refine (product_apply _ wr _ p q).trans ?_
    rw [shapeCast_self]
  · exact bias_apply b _ _ p q

end Cert.KernelIdeal.Region0

end
-- ==== Proof.Region0Value.lean ====
/-
  The hidden layer's array after the first kernel region: row by row, the hidden-layer entries of the arrays the
  region starts from.

  The region runs over 25 grid points. At point t the windows of the neighbourhood means and of the node features hold
  rows 2000·t … 2000·t + 1999 of their arrays (block index (t, 0) of blocks of 2000 × 128), the two weight matrices and
  the bias are held whole at every point (block index 0 on every axis), and the output window's block, rows
  2000·t … 2000·t + 1999 of the result, is written back. An entry of the hidden layer at row r depends only on row r of
  the means and of the features, and on the whole weights and bias; so what point t writes back is exactly block t of
  ONE array, the hidden-layer entries of the whole input arrays. Row r lies in the block of point r / 2000, the 25 blocks
  cover the 50000 rows, and the result array ends holding that array.
-/
import proofs.«175774_j12232066859618_2_alg».proof.Proof.Gen.KernelIdeal.Frame
import proofs.«175774_j12232066859618_2_alg».proof.Proof.Region0Payload
import Idealize.ShloMosaic.Lib.Pipeline.Value

noncomputable section

namespace Cert.KernelIdeal.Region0

open Cert.KernelIdeal Cert.KernelIdeal.Gen Idealize.ShloMosaic Idealize.ShloMosaic.TcCoe Idealize.SL.Sem
open Idealize.ShloMosaic.ValueIdx
open Idealize.ShloMosaic.Pipeline (Dat)

/-! ## The hidden-layer entry depends on one row of the means and of the features -/

/-- Two hidden-layer entries agree when the means' and the features' rows agree entry by entry and the weights, the
    bias and the column are the same: the entry reads nothing else. -/
theorem hidden_congr {A A' K B : ℕ} {mean x : (⟨2, ![A, K]⟩ : Shape).Idx → EReal} {mean' x' : (⟨2, ![A', K]⟩ : Shape).Idx → EReal}
    {wl wr wl' wr' : (⟨2, ![K, B]⟩ : Shape).Idx → EReal} {b b' : (⟨1, ![B]⟩ : Shape).Idx → EReal}
    {r : Fin A} {r' : Fin A'} {q q' : Fin B}
    (hm : ∀ k : Fin K, mean (ix2 r k) = mean' (ix2 r' k)) (hx : ∀ k : Fin K, x (ix2 r k) = x' (ix2 r' k))
    (hwl : wl = wl') (hwr : wr = wr') (hb : b = b') (hq : q = q') :
    Cert.Combine.hidden mean x wl wr b r q = Cert.Combine.hidden mean' x' wl' wr' b' r' q' := by
  subst hwl hwr hb hq
  unfold Cert.Combine.hidden Cert.Combine.lin
  simp only [hm, hx]

/-! ## What the body leaves in the output block, from any five input blocks -/

theorem zero2 : (![0, 0] : Fin 2 → Nat) = fun _ => 0 := funext fun a => by fin_cases a <;> rfl
theorem zero1 : (![0] : Fin 1 → Nat) = fun _ => 0 := funext fun a => by fin_cases a <;> rfl

/-- The output block after the body, at the index with coordinates (p, q): the hidden-layer entry (p, q) of the input
    blocks. The body loads each block whole and stores the payload whole. -/
theorem block_entry (x0 : Vec Ideal S2000x128 .f32) (x1 : Vec Ideal S2000x128 .bf16) (x2 : Vec Ideal S128x128 .bf16)
    (x3 : Vec Ideal S128 .f32) (x4 : Vec Ideal S128x128 .bf16) (y : S2000x128.Idx) (p : Fin 2000) (q : Fin 128)
    (hp : (y 0).val = p.val) (hq : (y 1).val = q.val) :
    out0_5 x0 x1 x2 x3 x4 y = Cert.Combine.hidden x0 x1 x2 x4 x3 p q := by
  obtain rfl : y = ix2 p q := by
    funext a; apply Fin.ext
    match a with
    | ⟨0, _⟩ => exact hp
    | ⟨1, _⟩ => exact hq
  unfold out0_5
  rw [View.canon_unit_zero zero2]
  simp only [View.ld_unit_zero (S := S2000x128) zero2, View.ld_unit_zero (S := S128x128) zero2, View.ld_unit_zero (S := S128) zero1]
  exact payload_apply x0 x1 x2 x4 x3 p q

/-! ## The region, at any contents `V` of the buffers when it is entered -/

variable (V : (c : Dev nD) → (b : Ref sig .tc) → Buf (Elt Ideal) ((c : Thread nD τ).loc b))

/-- The array of hidden-layer entries of the arrays the region starts from: the means, the features, the two weight
    matrices, the bias. -/
def hiddenArr (c : Dev nD) : S50000x128.Idx → EReal := fun i =>
  Cert.Combine.hidden (V c main_v26 : S50000x128.Idx → EReal) (V c main_v13 : S50000x128.Idx → EReal)
    (V c main_v28 : S128x128.Idx → EReal) (V c main_v30 : S128x128.Idx → EReal) (V c main_arg3 : S128.Idx → EReal) (i 0) (i 1)

/-- The block indices over the grid: the means', the features' and the output's blocks are block (t, 0) at point t; the
    weights' and the bias' are block 0 at every point. -/
theorem index_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 1) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- The means' block at point t is rows 2000·t … 2000·t + 1999 of the means. -/
theorem mean_block (c : Dev nD) (t : Fin cfg0.N) (y : S2000x128.Idx) (i : S50000x128.Idx)
    (h0 : (i 0).val = 2000 * t.val + (y 0).val) (h1 : (i 1).val = (y 1).val) :
    (iblk0 V c 0 t : Vec Ideal S2000x128 .f32) y = (V c main_v26 : S50000x128.Idx → EReal) i := by
  obtain ⟨e0, e1, -⟩ := index_facts t
  show (V c main_v26 : S50000x128.Idx → EReal) (((cfg0.win 0).blk t).view.emb y) = (V c main_v26 : S50000x128.Idx → EReal) i
  refine congrArg (V c main_v26 : S50000x128.Idx → EReal) ?_
  funext a; apply Fin.ext
  match a with
  | ⟨0, _⟩ => show win0_0.index t (0 : Fin 2) * 2000 + 1 * (y 0).val = (i 0).val; omega
  | ⟨1, _⟩ => show win0_0.index t (1 : Fin 2) * 128 + 1 * (y 1).val = (i 1).val; omega

/-- The features' block at point t is rows 2000·t … 2000·t + 1999 of the features. -/
theorem feature_block (c : Dev nD) (t : Fin cfg0.N) (y : S2000x128.Idx) (i : S50000x128.Idx)
    (h0 : (i 0).val = 2000 * t.val + (y 0).val) (h1 : (i 1).val = (y 1).val) :
    (iblk0 V c 1 t : Vec Ideal S2000x128 .bf16) y = (V c main_v13 : S50000x128.Idx → EReal) i := by
  obtain ⟨-, -, e0, e1, -⟩ := index_facts t
  show (V c main_v13 : S50000x128.Idx → EReal) (((cfg0.win 1).blk t).view.emb y) = (V c main_v13 : S50000x128.Idx → EReal) i
  refine congrArg (V c main_v13 : S50000x128.Idx → EReal) ?_
  funext a; apply Fin.ext
  match a with
  | ⟨0, _⟩ => show win0_1.index t (0 : Fin 2) * 2000 + 1 * (y 0).val = (i 0).val; omega
  | ⟨1, _⟩ => show win0_1.index t (1 : Fin 2) * 128 + 1 * (y 1).val = (i 1).val; omega

/-- The first weight matrix's block is the whole matrix at every point. -/
theorem wl_block (c : Dev nD) (t : Fin cfg0.N) :
    (iblk0 V c 2 t : Vec Ideal S128x128 .bf16) = (V c main_v28 : S128x128.Idx → EReal) := by
  obtain ⟨-, -, -, -, e0, e1, -⟩ := index_facts t
  funext y
  show (V c main_v28 : S128x128.Idx → EReal) (((cfg0.win 2).blk t).view.emb y) = (V c main_v28 : S128x128.Idx → EReal) y
  refine congrArg (V c main_v28 : S128x128.Idx → EReal) ?_
  funext a; apply Fin.ext
  match a with
  | ⟨0, _⟩ => show win0_2.index t (0 : Fin 2) * 128 + 1 * (y 0).val = (y 0).val; omega
  | ⟨1, _⟩ => show win0_2.index t (1 : Fin 2) * 128 + 1 * (y 1).val = (y 1).val; omega

/-- The bias' block is the whole bias at every point. -/
theorem bias_block (c : Dev nD) (t : Fin cfg0.N) :
    (iblk0 V c 3 t : Vec Ideal S128 .f32) = (V c main_arg3 : S128.Idx → EReal) := by
  obtain ⟨-, -, -, -, -, -, e0, -⟩ := index_facts t
  funext y
  show (V c main_arg3 : S128.Idx → EReal) (((cfg0.win 3).blk t).view.emb y) = (V c main_arg3 : S128.Idx → EReal) y
  refine congrArg (V c main_arg3 : S128.Idx → EReal) ?_
  funext a; apply Fin.ext
  match a with
  | ⟨0, _⟩ => show win0_3.index t (0 : Fin 1) * 128 + 1 * (y 0).val = (y 0).val; omega

/-- The second weight matrix's block is the whole matrix at every point. -/
theorem wr_block (c : Dev nD) (t : Fin cfg0.N) :
    (iblk0 V c 4 t : Vec Ideal S128x128 .bf16) = (V c main_v30 : S128x128.Idx → EReal) := by
  obtain ⟨-, -, -, -, -, -, -, e0, e1, -⟩ := index_facts t
  funext y
  show (V c main_v30 : S128x128.Idx → EReal) (((cfg0.win 4).blk t).view.emb y) = (V c main_v30 : S128x128.Idx → EReal) y
  refine congrArg (V c main_v30 : S128x128.Idx → EReal) ?_
  funext a; apply Fin.ext
  match a with
  | ⟨0, _⟩ => show win0_4.index t (0 : Fin 2) * 128 + 1 * (y 0).val = (y 0).val; omega
  | ⟨1, _⟩ => show win0_4.index t (1 : Fin 2) * 128 + 1 * (y 1).val = (y 1).val; omega

/-- WHAT POINT t WRITES BACK is block t of the array of hidden-layer entries. -/
theorem flushed_eq (c : Dev nD) (t : Fin cfg0.N) :
    (dat0 V c).flushed 5 t = ((cfg0.win 5).blk t).view.read (Elt Ideal) (hiddenArr V c) := by
  show (cfg0.win 5).cut (grid0.coords t) ((dat0 V c).after 5 t) = _
  rw [after0_5]
  funext j
  have hN : cfg0.N = 25 := N_0
  have ht : t.val < 25 := hN ▸ t.isLt
  have hj0 : (j 0).val < 2000 := (j 0).isLt
  have hj1 : (j 1).val < 128 := (j 1).isLt
  obtain ⟨-, -, -, -, -, -, -, -, -, e0, e1⟩ := index_facts t
  have hi : ((cfg0.win 5).blk t).view.emb j
      = (ix2 (⟨2000 * t.val + (j 0).val, by omega⟩ : Fin 50000) (⟨(j 1).val, hj1⟩ : Fin 128) : S50000x128.Idx) := by
    funext a; apply Fin.ext
    match a with
    | ⟨0, _⟩ => show win0_5.index t (0 : Fin 2) * 2000 + 1 * (j 0).val = 2000 * t.val + (j 0).val; omega
    | ⟨1, _⟩ => show win0_5.index t (1 : Fin 2) * 128 + 1 * (j 1).val = (j 1).val; omega
  refine (block_entry (iblk0 V c 0 t) (iblk0 V c 1 t) (iblk0 V c 2 t) (iblk0 V c 3 t) (iblk0 V c 4 t) _
    (⟨(j 0).val, hj0⟩ : Fin 2000) (⟨(j 1).val, hj1⟩ : Fin 128) rfl rfl).trans ?_
  refine Eq.trans ?_ (congrArg (hiddenArr V c) hi.symm)
  exact hidden_congr
    (fun k => mean_block V c t (ix2 (⟨(j 0).val, hj0⟩ : Fin 2000) k) (ix2 (⟨2000 * t.val + (j 0).val, by omega⟩ : Fin 50000) k) rfl rfl)
    (fun k => feature_block V c t (ix2 (⟨(j 0).val, hj0⟩ : Fin 2000) k) (ix2 (⟨2000 * t.val + (j 0).val, by omega⟩ : Fin 50000) k) rfl rfl)
    (wl_block V c t) (wr_block V c t) (bias_block V c t) rfl

/-- An index of the result array is in point t's block iff each coordinate is in the block's range on its axis. -/
theorem mem_blk (t : Fin cfg0.N) (i : S50000x128.Idx) :
    i ∈ ((cfg0.win 5).blk t).view.set ↔ ∀ a : Fin 2, win0_5.index t a * S2000x128.size a ≤ (i a).val ∧ (i a).val < win0_5.index t a * S2000x128.size a + S2000x128.size a := by
  show i ∈ ((View.whole main_v31).slice (win0_5.rect t)).set ↔ _
  rw [View.set_slice_whole, Rect.mem_set_unit]
  exact Iff.rfl

/-- THE BLOCKS COVER THE ARRAY: row r lies in the block of point r / 2000. -/
theorem cover (i : S50000x128.Idx) :
    ∃ t : Fin cfg0.N, (cfg0.win 5).flush t = true ∧ i ∈ ((cfg0.win 5).blk t).view.set := by
  have hN : cfg0.N = 25 := N_0
  have hi0 : (i 0).val < 50000 := (i 0).isLt
  have hi1 : (i 1).val < 128 := (i 1).isLt
  obtain ⟨t, ht⟩ : ∃ t : Fin cfg0.N, t.val = (i 0).val / 2000 := ⟨⟨(i 0).val / 2000, by rw [hN]; omega⟩, rfl⟩
  obtain ⟨-, -, -, -, -, -, -, -, -, e0, e1⟩ := index_facts t
  refine ⟨t, flush0_5 t, ?_⟩
  rw [mem_blk]
  intro a
  match a with
  | ⟨0, _⟩ => show win0_5.index t (0 : Fin 2) * 2000 ≤ (i 0).val ∧ (i 0).val < win0_5.index t (0 : Fin 2) * 2000 + 2000; omega
  | ⟨1, _⟩ => show win0_5.index t (1 : Fin 2) * 128 ≤ (i 1).val ∧ (i 1).val < win0_5.index t (1 : Fin 2) * 128 + 128; omega

/-- THE RESULT ARRAY after the region's 25 points is the array of hidden-layer entries. -/
theorem array_eq (c : Dev nD) : (dat0 V c).arrAt 5 cfg0.N = hiddenArr V c :=
  (dat0 V c).arrAt_eq_of_cover 5 (hiddenArr V c) (fun t _ => flushed_eq V c t) cover

/-- Entry (r, j) of the result array after the region: the hidden-layer entry of the means, the features, the two
    weight matrices and the bias as the region finds them. -/
theorem array_value (c : Dev nD) (r : Fin 50000) (j : Fin 128) :
    (dat0 (F := Ideal) V c).arrAt 5 cfg0.N (ix2 r j)
      = Cert.Combine.hidden (V c main_v26 : S50000x128.Idx → EReal) (V c main_v13 : S50000x128.Idx → EReal)
          (V c main_v28 : S128x128.Idx → EReal) (V c main_v30 : S128x128.Idx → EReal) (V c main_arg3 : S128.Idx → EReal) r j :=
  congrFun (array_eq V c) (ix2 r j)

end Cert.KernelIdeal.Region0

end
-- ==== Proof.LibRowBroadcast.lean ====
/-
  A ROW `[1, b]` spread over `a` rows: the broadcast to `[a, b]` reads, at `(p, c)`, the row's entry of column `c`
  — every row of the result is the one row of the operand. The unit coordinate `u : Fin 1` is whatever the caller
  writes: there is only one.
-/
import Idealize.ShloMosaic.Lib.ValueLayout

namespace Cert.LibRowBroadcast

open Idealize.ShloMosaic Idealize.ShloMosaic.ValueIdx

variable {α : Type}

/-- A row `[1, b]` broadcast to `[a, b]` reads, at `(p, c)`, the row's entry of column `c`. -/
theorem broadcastTo_1b_ab_apply {a b : ℕ} (v : (⟨2, ![1, b]⟩ : Shape).Idx → α) (h : (⟨2, ![1, b]⟩ : Shape).Broadcasts ⟨2, ![a, b]⟩)
    (p : Fin a) (c : Fin b) (u : Fin 1) : broadcastTo ⟨2, ![a, b]⟩ v h (ix2 p c) = v (ix2 u c) := by
  refine broadcastTo_apply v h (ix2 p c) (ix2 u c) fun ax => ?_
  match ax with
  | ⟨0, _⟩ =>
    show u.val = if (1 : ℕ) = 1 then 0 else p.val
    rw [if_pos rfl]; omega
  | ⟨1, _⟩ =>
    show c.val = if b = 1 then 0 else c.val
    split
    · have := c.isLt; omega
    · rfl

end Cert.LibRowBroadcast
-- ==== Proof.LibKeepdims.lean ====
/-
  A reduction that keeps its reduced axis as a unit axis (`keepdims=True`) leaves a COLUMN `[a, 1]`; the
  layout operations that make it, turn it into a row, or spread it over columns, each read at an index
  written by its coordinates:
  • a vector `[a]` cast to the column `[a, 1]` reads, at `(i, u)`, the vector at `i`;
  • a column `[a, 1]` cast to the row `[1, a]` reads, at `(u, i)`, the column at `(i, u')`;
  • a column `[a, 1]` broadcast to `[a, b]` reads, at `(p, c)`, the column at `(p, u)`.
  In each the unit coordinate (`u`, `u'` of type `Fin 1`) is whatever the caller writes: there is only one.
  Also a sum over the LAST axis of a matrix, read at a row, as the `Fin`-indexed sum over that row's entries.
-/
import Idealize.ShloMosaic.Lib.ValueLayout
import Idealize.ShloMosaic.PureOps.Ideal.Laws

namespace Cert.LibKeepdims

open Idealize.ShloMosaic Idealize.ShloMosaic.ValueIdx

variable {α : Type}

/-- A vector `[a]` cast to the column `[a, 1]` reads, at `(i, u)`, the vector at `i`: both indices sit at
    row-major position `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_one, Shape.rowMajor_val_two]
    show i.val = i.val * 1 + u.val
    rw [hu, Nat.mul_one, Nat.add_zero])

/-- A column `[a, 1]` cast to the row `[1, a]` reads, at `(u, i)`, the column at `(i, u')`: both indices sit
    at row-major position `i`. -/
theorem shapeCast_a1_1a_apply {a : ℕ} (x : (⟨2, ![a, 1]⟩ : Shape).Idx → α) (h : (⟨2, ![a, 1]⟩ : Shape).ShapeCasts ⟨2, ![1, a]⟩)
    (u : Fin 1) (i : Fin a) (u' : Fin 1) : shapeCast ⟨2, ![1, a]⟩ x h (ix2 u i) = x (ix2 i u') :=
  shapeCast_apply x h _ _ (by
    have hu : u.val = 0 := by omega
    have hu' : u'.val = 0 := by omega
    rw [Shape.rowMajor_val_two, Shape.rowMajor_val_two]
    show i.val * 1 + u'.val = u.val * a + i.val
    rw [hu, hu', Nat.zero_mul, Nat.zero_add, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) (u : Fin 1) : broadcastTo ⟨2, ![a, b]⟩ v h (ix2 p c) = v (ix2 p u) := by
  refine broadcastTo_apply v h (ix2 p c) (ix2 p u) fun ax => ?_
  match ax with
  | ⟨0, _⟩ =>
    show p.val = if a = 1 then 0 else p.val
    split
    · have := p.isLt; omega
    · rfl
  | ⟨1, _⟩ =>
    show u.val = if (1 : ℕ) = 1 then 0 else c.val
    rw [if_pos rfl]; omega

/-- At the ideal values a float `vector.multi_reduction <add>` over the LAST axis of an `[a, b]` matrix, read at row
    `p`, is the sum of that row's `b` entries. -/
theorem multiReduction_add_lastAxis_apply {a b : ℕ} (src : FVec Ideal ⟨2, ![a, b]⟩ .f32) (acc : BitVec 32)
    (h : (⟨2, ![a, b]⟩ : Shape).Reduces [1] ⟨1, ![a]⟩) (hφ : FKind.Formats .f32) (hacc : acc = FKind.add.neutral .f32 hφ)
    (p : Fin a) :
    multiReduction .add [1] ⟨1, ![a]⟩ src acc h hφ hacc (ix1 p) = ∑ k : Fin b, src (ix2 p k) := by
  refine (Ideal.multiReduction_add_single src acc h hφ hacc (ix1 p)).trans ?_
  refine Finset.sum_congr rfl fun k _ => congrArg src ?_
  funext ax; apply Fin.ext
  match ax with
  | ⟨0, _⟩ => rfl
  | ⟨1, _⟩ => rfl

end Cert.LibKeepdims
-- ==== Proof.LibSoftmaxBlock.lean ====
/-
  The pieces of a softmax over the LAST axis of an `[a, b]` block as a vector unit computes it, read at an entry.

  A row statistic — the row's maximum, or the row's sum — is reduced to a vector `[a]`, kept as a column `[a, 1]`
  and spread back over the `b` columns. Read at `(r, m)` the spread statistic is the statistic of row `r`, whatever
  `m` is:
  • the maximum: the running maximum of row `r`'s entries from the accumulator word's value;
  • the sum: the sum of row `r`'s entries.
-/
import proofs.«175774_j12232066859618_2_alg».proof.Proof.LibKeepdims
import proofs.«175774_j12232066859618_2_alg».proof.Proof.LibMaxReduce

noncomputable section

namespace Cert.LibSoftmaxBlock

open Idealize.ShloMosaic Idealize.ShloMosaic.ValueIdx Cert.LibMaxReduce

/-- A row maximum kept as a column and spread over the columns, read at `(r, m)`: the running maximum of row `r`. -/
theorem rowMax_spread_apply {a b : ℕ} (S : FVec Ideal ⟨2, ![a, b]⟩ .f32) (acc : BitVec 32)
    (hr : (⟨2, ![a, b]⟩ : Shape).Reduces [1] ⟨1, ![a]⟩) (hφ : FKind.Formats .f32) (hacc : acc = FKind.maximumf.neutral .f32 hφ)
    (hc : (⟨1, ![a]⟩ : Shape).ShapeCasts ⟨2, ![a, 1]⟩) (hb : (⟨2, ![a, 1]⟩ : Shape).Broadcasts ⟨2, ![a, b]⟩)
    (r : Fin a) (m : Fin b) :
    broadcastTo ⟨2, ![a, b]⟩ (shapeCast ⟨2, ![a, 1]⟩ (multiReduction .maximumf [1] ⟨1, ![a]⟩ S acc hr hφ hacc) hc) hb (ix2 r m)
      = foldMax (Ideal.ofBits .f32 acc) (fun k : Fin b => S (ix2 r k)) :=
  (Cert.LibKeepdims.broadcastTo_a1_ab_apply _ hb r m (0 : Fin 1)).trans
    ((Cert.LibKeepdims.shapeCast_a_a1_apply _ hc r (0 : Fin 1)).trans
      (multiReduction_maximumf_lastAxis_apply S acc hr hφ hacc r))

/-- A row sum kept as a column and spread over the columns, read at `(r, m)`: the sum of row `r`. -/
theorem rowSum_spread_apply {a b : ℕ} (S : FVec Ideal ⟨2, ![a, b]⟩ .f32) (acc : BitVec 32)
    (hr : (⟨2, ![a, b]⟩ : Shape).Reduces [1] ⟨1, ![a]⟩) (hφ : FKind.Formats .f32) (hacc : acc = FKind.add.neutral .f32 hφ)
    (hc : (⟨1, ![a]⟩ : Shape).ShapeCasts ⟨2, ![a, 1]⟩) (hb : (⟨2, ![a, 1]⟩ : Shape).Broadcasts ⟨2, ![a, b]⟩)
    (r : Fin a) (m : Fin b) :
    broadcastTo ⟨2, ![a, b]⟩ (shapeCast ⟨2, ![a, 1]⟩ (multiReduction .add [1] ⟨1, ![a]⟩ S acc hr hφ hacc) hc) hb (ix2 r m)
      = ∑ k : Fin b, S (ix2 r k) :=
  (Cert.LibKeepdims.broadcastTo_a1_ab_apply _ hb r m (0 : Fin 1)).trans
    ((Cert.LibKeepdims.shapeCast_a_a1_apply _ hc r (0 : Fin 1)).trans
      (Cert.LibKeepdims.multiReduction_add_lastAxis_apply S acc hr hφ hacc r))

/-- The exponential of each entry's distance below its row's maximum, read at `(r, m)`. -/
theorem expBelowRowMax_apply {a b : ℕ} (S : FVec Ideal ⟨2, ![a, b]⟩ .f32) (acc : BitVec 32)
    (hr : (⟨2, ![a, b]⟩ : Shape).Reduces [1] ⟨1, ![a]⟩) (hφ : FKind.Formats .f32) (hacc : acc = FKind.maximumf.neutral .f32 hφ)
    (hc : (⟨1, ![a]⟩ : Shape).ShapeCasts ⟨2, ![a, 1]⟩) (hb : (⟨2, ![a, 1]⟩ : Shape).Broadcasts ⟨2, ![a, b]⟩)
    (r : Fin a) (m : Fin b) :
    exp (subf S (broadcastTo ⟨2, ![a, b]⟩ (shapeCast ⟨2, ![a, 1]⟩ (multiReduction .maximumf [1] ⟨1, ![a]⟩ S acc hr hφ hacc) hc) hb)) (ix2 r m)
      = Ideal.exp (S (ix2 r m) - foldMax (Ideal.ofBits .f32 acc) (fun k : Fin b => S (ix2 r k))) :=
  congrArg (fun z : EReal => Ideal.exp (S (ix2 r m) - z)) (rowMax_spread_apply S acc hr hφ hacc hc hb r m)

/-- Each entry divided by its row's sum, read at `(r, m)`. -/
theorem overRowSum_apply {a b : ℕ} (X : FVec Ideal ⟨2, ![a, b]⟩ .f32) (acc : BitVec 32)
    (hr : (⟨2, ![a, b]⟩ : Shape).Reduces [1] ⟨1, ![a]⟩) (hφ : FKind.Formats .f32) (hacc : acc = FKind.add.neutral .f32 hφ)
    (hc : (⟨1, ![a]⟩ : Shape).ShapeCasts ⟨2, ![a, 1]⟩) (hb : (⟨2, ![a, 1]⟩ : Shape).Broadcasts ⟨2, ![a, b]⟩)
    (r : Fin a) (m : Fin b) :
    divf X (broadcastTo ⟨2, ![a, b]⟩ (shapeCast ⟨2, ![a, 1]⟩ (multiReduction .add [1] ⟨1, ![a]⟩ X acc hr hφ hacc) hc) hb) (ix2 r m)
      = Ideal.div (X (ix2 r m)) (∑ k : Fin b, X (ix2 r k)) :=
  congrArg (fun z : EReal => Ideal.div (X (ix2 r m)) z) (rowSum_spread_apply X acc hr hφ hacc hc hb r m)

end Cert.LibSoftmaxBlock

end
-- ==== Proof.Region1Payload.lean ====
/-
  The output layer's block at one grid point, read at an entry.

  From a block of 2000 rows of the neighbourhood mean and of the node features, the two weight matrices [128, 64]
  and the bias [64], the body forms the block  z = (mean · wl + h · wr) + b  of shape [2000, 64] and leaves the
  log-softmax of each of its rows:  z(p, q) − (M(p) + log Σ_k exp (z(p, k) − M(p))),  with M(p) the maximum of row p.

  The body's term is cut in two. `preact` is z: two plain matrix products into the zero accumulator, added, plus the
  bias row spread over the 2000 rows; its entry (p, k) is the combine step's entry, which depends on row p of the two
  row blocks, column k of the two weight matrices and entry k of the bias. `logSoftmaxBlock` is the row-wise
  log-softmax of a block: the row maximum and the row sum of exponentials are reduced over the last axis, kept as a
  column [2000, 1] and spread back over the 64 columns; its entry (p, q) depends on row p of z only.
  Joined, entry (p, q) of the body's term is the output layer's entry of the specification.
-/
import proofs.«175774_j12232066859618_2_alg».proof.Proof.Gen.KernelIdeal.Skeleton
import proofs.«175774_j12232066859618_2_alg».proof.Proof.Spec
import proofs.«175774_j12232066859618_2_alg».proof.Proof.LibPlainMatmul
import proofs.«175774_j12232066859618_2_alg».proof.Proof.LibRowBroadcast
import proofs.«175774_j12232066859618_2_alg».proof.Proof.LibSoftmaxBlock
import Idealize.ShloMosaic.Lib.Pipeline.Value
import Idealize.ShloMosaic.Lib.ValueLayout

noncomputable section

namespace Cert.KernelIdeal.Region1

open Idealize.ShloMosaic Idealize.ShloMosaic.ValueIdx Cert.KernelIdeal Cert.KernelIdeal.Gen Cert.LibMaxReduce

/-- The block z = (mean · wl + h · wr) + b, as the body writes it: each row block cast to its own shape (the mean
    also narrowed, which changes no value here), each product into the zero accumulator, the bias cast to a row
    [1, 64] and spread over the rows. -/
def preact (mean : Vec Ideal S2000x128 .f32) (h : Vec Ideal S2000x128 .bf16) (wl wr : Vec Ideal S128x64 .bf16)
    (b : Vec Ideal S64 .f32) : FVec Ideal S2000x64 .f32 :=
  addf
    (addf
      (matmul dot_S2000x128_S128x64_S2000x64_1_0_0_1_n_n none
        (truncf .bf16 (shapeCast S2000x128 mean shapeCasts_S2000x128_S2000x128 : FVec Ideal S2000x128 .f32) bitsLt_bf16_f32)
        (shapeCast S128x64 wl shapeCasts_S128x64_S128x64 : FVec Ideal S128x64 .bf16)
        (constant S2000x64 .f32 0x00000000#32))
      (matmul dot_S2000x128_S128x64_S2000x64_1_0_0_1_n_n none
        (shapeCast S2000x128 h shapeCasts_S2000x128_S2000x128 : FVec Ideal S2000x128 .bf16)
        (shapeCast S128x64 wr shapeCasts_S128x64_S128x64 : FVec Ideal S128x64 .bf16)
        (constant S2000x64 .f32 0x00000000#32)))
    (broadcastTo S2000x64 (shapeCast S1x64 b shapeCasts_S64_S1x64 : FVec Ideal S1x64 .f32) broadcasts_S1x64_S2000x64)

/-- The maximum of each row of a block [2000, 64], kept as a column [2000, 1]. -/
def rowMaxCol (z : FVec Ideal S2000x64 .f32) : FVec Ideal S2000x1 .f32 :=
  shapeCast S2000x1 (multiReduction .maximumf [1] S2000 z 0xFF800000#32 reduces_S2000x64_S2000 (.inl rfl) rfl)
    shapeCasts_S2000_S2000x1

/-- The row-wise log-softmax of a block [2000, 64], as the body writes it: the row maximum as a column, spread back and
    subtracted under the exponential; the row sums of those exponentials as a column, its logarithm added to the
    maximum's column; that column spread back and subtracted from the block. -/
def logSoftmaxBlock (z : FVec Ideal S2000x64 .f32) : FVec Ideal S2000x64 .f32 :=
  subf z
    (broadcastTo S2000x64
      (addf (rowMaxCol z)
        (log
          (shapeCast S2000x1
            (multiReduction .add [1] S2000
              (exp (subf z (broadcastTo S2000x64 (rowMaxCol z) broadcasts_S2000x1_S2000x64)))
              0x00000000#32 reduces_S2000x64_S2000 (.inl rfl) rfl)
            shapeCasts_S2000_S2000x1)))
      broadcasts_S2000x1_S2000x64)

/-- The body's stored term is the log-softmax block of z: the same operations in the same order. -/
theorem pay_eq (mean : Vec Ideal S2000x128 .f32) (h : Vec Ideal S2000x128 .bf16) (wl wr : Vec Ideal S128x64 .bf16)
    (b : Vec Ideal S64 .f32) :
    k1_pay1 (F := Ideal) mean h wl wr b = logSoftmaxBlock (preact mean h wl wr b) := rfl

/-- Entry (p, k) of z is the combine step's entry: the two products read as sums over the 128 contracted
    coordinates, the bias row read at column k. Row p of the two row blocks only. -/
theorem preact_apply (mean : Vec Ideal S2000x128 .f32) (h : Vec Ideal S2000x128 .bf16) (wl wr : Vec Ideal S128x64 .bf16)
    (b : Vec Ideal S64 .f32) (p : Fin 2000) (k : Fin 64) :
    preact mean h wl wr b (ix2 p k) = Cert.Combine.lin (A := 2000) (K := 128) (B := 64) mean h wl wr b p k := by
  unfold preact Cert.Combine.lin
  simp only [shapeCast_self]
  refine congrArg₂ (fun s t : EReal => s + t) (congrArg₂ (fun s t : EReal => s + t) ?_ ?_) ?_
  · exact matmul_plain_zero_apply 2000 128 64 none (φ₁ := .bf16) (φ₂ := .bf16)
      (truncf .bf16 (mean : FVec Ideal S2000x128 .f32) bitsLt_bf16_f32) wl p k
  · exact matmul_plain_zero_apply 2000 128 64 none (φ₁ := .bf16) (φ₂ := .bf16) h wr p k
  · exact (Cert.LibRowBroadcast.broadcastTo_1b_ab_apply _ broadcasts_S1x64_S2000x64 p k (0 : Fin 1)).trans
      (shapeCast_a_1a_apply b shapeCasts_S64_S1x64 (0 : Fin 1) k)

/-- Entry (p, 0) of the row-maximum column is the running maximum of row p from −∞. -/
theorem rowMaxCol_apply (z : FVec Ideal S2000x64 .f32) (p : Fin 2000) (u : Fin 1) :
    rowMaxCol z (ix2 p u) = Cert.Combine.rowMax (fun k : Fin 64 => z (ix2 p k)) :=
  (Cert.LibKeepdims.shapeCast_a_a1_apply _ shapeCasts_S2000_S2000x1 p u).trans
    (multiReduction_maximumf_lastAxis_apply z 0xFF800000#32 reduces_S2000x64_S2000 (.inl rfl) rfl p)

/-- Entry (p, q) of the log-softmax block is the log-softmax of row p at column q. Row p of the block only. -/
theorem logSoftmaxBlock_apply (z : FVec Ideal S2000x64 .f32) (p : Fin 2000) (q : Fin 64) :
    logSoftmaxBlock z (ix2 p q) = Cert.Combine.logSoftmax (fun k : Fin 64 => z (ix2 p k)) q := by
  unfold logSoftmaxBlock Cert.Combine.logSoftmax
  refine congrArg (fun t : EReal => z (ix2 p q) - t) ?_
  refine (Cert.LibKeepdims.broadcastTo_a1_ab_apply _ broadcasts_S2000x1_S2000x64 p q (0 : Fin 1)).trans ?_
  refine congrArg₂ (fun s t : EReal => s + Ideal.log t) (rowMaxCol_apply z p 0) ?_
  refine (Cert.LibKeepdims.shapeCast_a_a1_apply _ shapeCasts_S2000_S2000x1 p (0 : Fin 1)).trans ?_
  refine (Cert.LibKeepdims.multiReduction_add_lastAxis_apply _ 0x00000000#32 reduces_S2000x64_S2000 (.inl rfl) rfl p).trans ?_
  refine Finset.sum_congr rfl fun k _ => ?_
  exact congrArg (fun t : EReal => Ideal.exp (z (ix2 p k) - t))
    ((Cert.LibKeepdims.broadcastTo_a1_ab_apply _ broadcasts_S2000x1_S2000x64 p k (0 : Fin 1)).trans (rowMaxCol_apply z p 0))

/-- THE BODY'S TERM AT AN ENTRY: entry (p, q) of what the body stores, from the blocks it loads, is the output layer's
    entry of the specification on those blocks: the log-softmax at column q of row p of the combine step. -/
theorem pay_apply (mean : Vec Ideal S2000x128 .f32) (h : Vec Ideal S2000x128 .bf16) (wl wr : Vec Ideal S128x64 .bf16)
    (b : Vec Ideal S64 .f32) (p : Fin 2000) (q : Fin 64) :
    k1_pay1 (F := Ideal) mean h wl wr b (ix2 p q)
      = Cert.Combine.output (A := 2000) (K := 128) (B := 64) mean h wl wr b p q := by
  rw [pay_eq, logSoftmaxBlock_apply]
  unfold Cert.Combine.output
  exact congrArg (fun f : Fin 64 → EReal => Cert.Combine.logSoftmax f q) (funext fun k => preact_apply mean h wl wr b p k)

end Cert.KernelIdeal.Region1

end
-- ==== Proof.Region1Value.lean ====
/-
  From the blocks to the array: what the output layer's region leaves in its result array [50000, 64].

  The region runs 25 grid points. At point t the body sees rows 2000·t … 2000·t + 1999 of the neighbourhood mean and of
  the node features (block index (t, 0) of each), the whole of the two weight matrices and of the bias (block index
  zero at every point), and writes back rows 2000·t … 2000·t + 1999 of the result. Entry (p, q) of the block written
  back is the output layer's entry for row p of the loaded row blocks, that is for row 2000·t + p of the arrays: the
  log-softmax depends on that one row of each. So every point writes its block of ONE function of the arrays as the
  region finds them, `outArr`; the 25 blocks cover the rows (row r is in block r / 2000), and the array ends at it.
-/
import proofs.«175774_j12232066859618_2_alg».proof.Proof.Gen.KernelIdeal.Frame
import proofs.«175774_j12232066859618_2_alg».proof.Proof.Region1Payload
import Idealize.ShloMosaic.Lib.Pipeline.Value

noncomputable section

namespace Cert.KernelIdeal.Region1

open Cert.KernelIdeal Cert.KernelIdeal.Gen Idealize.ShloMosaic Idealize.ShloMosaic.TcCoe Idealize.SL.Sem
open Idealize.ShloMosaic.ValueIdx
open Idealize.ShloMosaic.Pipeline (Dat)

/-! ## The specification read along one row -/

/-- The output layer's entry (p, q) reads row p of the two row matrices only: two pairs of row matrices that agree
    along a row of each, with the same weights and bias, give the same entry. -/
theorem output_congr_row {A A' K B : ℕ} (mean x : (⟨2, ![A, K]⟩ : Shape).Idx → EReal)
    (mean' x' : (⟨2, ![A', K]⟩ : Shape).Idx → EReal) (wl wr wl' wr' : (⟨2, ![K, B]⟩ : Shape).Idx → EReal)
    (b b' : (⟨1, ![B]⟩ : Shape).Idx → EReal) (p : Fin A) (r : Fin A') (q : Fin B)
    (hm : ∀ k : Fin K, mean (ix2 p k) = mean' (ix2 r k)) (hx : ∀ k : Fin K, x (ix2 p k) = x' (ix2 r k))
    (hwl : wl = wl') (hwr : wr = wr') (hb : b = b') :
    Cert.Combine.output mean x wl wr b p q = Cert.Combine.output mean' x' wl' wr' b' r q := by
  subst hwl hwr hb
  unfold Cert.Combine.output
  refine congrArg (fun f : Fin B → EReal => Cert.Combine.logSoftmax f q) (funext fun j => ?_)
  unfold Cert.Combine.lin
  simp only [hm, hx]

/-! ## The region's result as one function of the arrays it finds -/

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a; rfl

/-- What the result array ends holding: at (r, j) the output layer's entry of the mean, the node features, the two
    weight matrices and the bias as the region finds them. -/
def outArr (c : Dev nD) : S50000x64.Idx → EReal := fun i =>
  Cert.Combine.output (A := 50000) (K := 128) (B := 64) (V c main_v44) (V c main_v31) (V c main_v46) (V c main_v48)
    (V c main_arg6) (i 0) (i 1)

/-- The index maps over the 25 points: the two row windows and the result move with the point along the rows,
    the weights and the bias stay at block zero. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 1) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- A point's row offset stays inside the 50000 rows. -/
theorem row_lt (t : Fin cfg1.N) (p : Fin 2000) : t.val * 2000 + p.val < 50000 := by
  have hN : cfg1.N = 25 := N_1
  have := t.isLt
  have := p.isLt
  omega

/-! ## Each window's block at a point, read off its array -/

/-- Window 0's block at point t, row p: row 2000·t + p of the mean. -/
theorem blk0_apply (c : Dev nD) (t : Fin cfg1.N) (p : Fin 2000) (k : Fin 128) :
    (iblk1 V c 0 t : Vec Ideal S2000x128 .f32) (ix2 p k)
      = (V c main_v44 : S50000x128.Idx → EReal) (ix2 (⟨t.val * 2000 + p.val, row_lt t p⟩ : Fin 50000) k) := by
  obtain ⟨e0, e1, -⟩ := idx_facts t
  show V c main_v44 (((cfg1.win 0).blk t).view.emb (ix2 p k)) = V c main_v44 _
  refine congrArg (V c main_v44) (funext fun a => Fin.ext ?_)
  match a with
  | ⟨0, _⟩ => show win1_0.index t (0 : Fin 2) * 2000 + 1 * p.val = t.val * 2000 + p.val; omega
  | ⟨1, _⟩ => show win1_0.index t (1 : Fin 2) * 128 + 1 * k.val = k.val; omega

/-- Window 1's block at point t, row p: row 2000·t + p of the node features. -/
theorem blk1_apply (c : Dev nD) (t : Fin cfg1.N) (p : Fin 2000) (k : Fin 128) :
    (iblk1 V c 1 t : Vec Ideal S2000x128 .bf16) (ix2 p k)
      = (V c main_v31 : S50000x128.Idx → EReal) (ix2 (⟨t.val * 2000 + p.val, row_lt t p⟩ : Fin 50000) k) := by
  obtain ⟨-, -, e0, e1, -⟩ := idx_facts t
  show V c main_v31 (((cfg1.win 1).blk t).view.emb (ix2 p k)) = V c main_v31 _
  refine congrArg (V c main_v31) (funext fun a => Fin.ext ?_)
  match a with
  | ⟨0, _⟩ => show win1_1.index t (0 : Fin 2) * 2000 + 1 * p.val = t.val * 2000 + p.val; omega
  | ⟨1, _⟩ => show win1_1.index t (1 : Fin 2) * 128 + 1 * k.val = k.val; omega

/-- Window 2's block at every point is the whole left weight matrix. -/
theorem blk2_eq (c : Dev nD) (t : Fin cfg1.N) :
    (iblk1 V c 2 t : Vec Ideal S128x64 .bf16) = (V c main_v46 : S128x64.Idx → EReal) := by
  obtain ⟨-, -, -, -, e0, e1, -⟩ := idx_facts t
  funext y
  show V c main_v46 (((cfg1.win 2).blk t).view.emb y) = V c main_v46 y
  refine congrArg (V c main_v46) (funext fun a => Fin.ext ?_)
  match a with
  | ⟨0, _⟩ => show win1_2.index t (0 : Fin 2) * 128 + 1 * (y 0).val = (y 0).val; omega
  | ⟨1, _⟩ => show win1_2.index t (1 : Fin 2) * 64 + 1 * (y 1).val = (y 1).val; omega

/-- Window 3's block at every point is the whole bias. -/
theorem blk3_eq (c : Dev nD) (t : Fin cfg1.N) :
    (iblk1 V c 3 t : Vec Ideal S64 .f32) = (V c main_arg6 : S64.Idx → EReal) := by
  obtain ⟨-, -, -, -, -, -, e0, -⟩ := idx_facts t
  funext y
  show V c main_arg6 (((cfg1.win 3).blk t).view.emb y) = V c main_arg6 y
  refine congrArg (V c main_arg6) (funext fun a => Fin.ext ?_)
  match a with
  | ⟨0, _⟩ => show win1_3.index t (0 : Fin 1) * 64 + 1 * (y 0).val = (y 0).val; omega

/-- Window 4's block at every point is the whole right weight matrix. -/
theorem blk4_eq (c : Dev nD) (t : Fin cfg1.N) :
    (iblk1 V c 4 t : Vec Ideal S128x64 .bf16) = (V c main_v48 : S128x64.Idx → EReal) := by
  obtain ⟨-, -, -, -, -, -, -, e0, e1, -⟩ := idx_facts t
  funext y
  show V c main_v48 (((cfg1.win 4).blk t).view.emb y) = V c main_v48 y
  refine congrArg (V c main_v48) (funext fun a => Fin.ext ?_)
  match a with
  | ⟨0, _⟩ => show win1_4.index t (0 : Fin 2) * 128 + 1 * (y 0).val = (y 0).val; omega
  | ⟨1, _⟩ => show win1_4.index t (1 : Fin 2) * 64 + 1 * (y 1).val = (y 1).val; omega

/-- Entry (p, q) of the result's block at point t sits at row 2000·t + p, column q of the array. -/
theorem emb5 (t : Fin cfg1.N) (p : Fin 2000) (q : Fin 64) :
    (((cfg1.win 5).blk t).view.emb (ix2 p q) : S50000x64.Idx)
      = ix2 (⟨t.val * 2000 + p.val, row_lt t p⟩ : Fin 50000) q := by
  obtain ⟨-, -, -, -, -, -, -, -, -, e0, e1⟩ := idx_facts t
  funext a; apply Fin.ext
  match a with
  | ⟨0, _⟩ => show win1_5.index t (0 : Fin 2) * 2000 + 1 * p.val = t.val * 2000 + p.val; omega
  | ⟨1, _⟩ => show win1_5.index t (1 : Fin 2) * 64 + 1 * q.val = q.val; omega

/-! ## What a point writes back, the cover, the array -/

/-- WHAT POINT t WRITES BACK is block t of `outArr`: the body's one whole-block store of its term on the blocks it
    loaded, whose entry (p, q) is the output layer's entry for row 2000·t + p of the arrays. -/
theorem flushed_eq (c : Dev nD) (t : Fin cfg1.N) :
    (dat1 V c).flushed 5 t = ((cfg1.win 5).blk t).view.read (Elt Ideal) (outArr V c) := by
  show (cfg1.win 5).cut (grid1.coords t) ((dat1 V c).after 5 t) = _
  rw [after1_5]
  unfold out1_5
  rw [View.canon_unit_zero hz2]
  simp only [View.ld_unit_zero (S := S2000x128) hz2, View.ld_unit_zero (S := S128x64) hz2, View.ld_unit_zero (S := S64) hz1]
  funext j
  obtain ⟨p, q, rfl⟩ : ∃ (p : Fin 2000) (q : Fin 64), j = ix2 p q := ⟨j 0, j 1, eq_ix2 (n0 := 2000) (n1 := 64) j⟩
  show k1_pay1 (F := Ideal) (iblk1 V c 0 t) (iblk1 V c 1 t) (iblk1 V c 2 t) (iblk1 V c 4 t) (iblk1 V c 3 t) (ix2 p q)
      = outArr V c (((cfg1.win 5).blk t).view.emb (ix2 p q))
  refine ((pay_apply (iblk1 V c 0 t) (iblk1 V c 1 t) (iblk1 V c 2 t) (iblk1 V c 4 t) (iblk1 V c 3 t) p q).trans ?_).trans
    (congrArg (outArr V c) (emb5 t p q)).symm
  exact output_congr_row (A := 2000) (A' := 50000) (K := 128) (B := 64)
    (iblk1 V c 0 t) (iblk1 V c 1 t) (V c main_v44) (V c main_v31) (iblk1 V c 2 t) (iblk1 V c 4 t) (V c main_v46) (V c main_v48)
    (iblk1 V c 3 t) (V c main_arg6) p (⟨t.val * 2000 + p.val, row_lt t p⟩ : Fin 50000) q
    (fun k => blk0_apply V c t p k) (fun k => blk1_apply V c t p k) (blk2_eq V c t) (blk4_eq V c t) (blk3_eq V c t)

/-- An index of the array is in point t's block iff each coordinate is in the block's range on its axis. -/
theorem mem_blk (t : Fin cfg1.N) (i : S50000x64.Idx) :
    i ∈ ((cfg1.win 5).blk t).view.set ↔ ∀ a : Fin 2, win1_5.index t a * S2000x64.size a ≤ (i a).val ∧ (i a).val < win1_5.index t a * S2000x64.size a + S2000x64.size a := by
  show i ∈ ((View.whole main_v49).slice (win1_5.rect t)).set ↔ _
  rw [View.set_slice_whole, Rect.mem_set_unit]
  exact Iff.rfl

/-- Every index of the array is in some point's block: row r is in the block of point r / 2000. -/
theorem cover (i : S50000x64.Idx) :
    ∃ t : Fin cfg1.N, (cfg1.win 5).flush t = true ∧ i ∈ ((cfg1.win 5).blk t).view.set := by
  have hi0 : (i 0).val < 50000 := (i 0).isLt
  have hi1 : (i 1).val < 64 := (i 1).isLt
  have hN : cfg1.N = 25 := N_1
  let t : Fin cfg1.N := ⟨(i 0).val / 2000, by omega⟩
  obtain ⟨-, -, -, -, -, -, -, -, -, e0, e1⟩ := idx_facts t
  have ht : t.val = (i 0).val / 2000 := rfl
  refine ⟨t, flush1_5 t, ?_⟩
  rw [mem_blk]
  intro a
  match a with
  | ⟨0, _⟩ => show win1_5.index t (0 : Fin 2) * 2000 ≤ (i 0).val ∧ (i 0).val < win1_5.index t (0 : Fin 2) * 2000 + 2000; omega
  | ⟨1, _⟩ => show win1_5.index t (1 : Fin 2) * 64 ≤ (i 1).val ∧ (i 1).val < win1_5.index t (1 : Fin 2) * 64 + 64; omega

/-- THE ARRAY after the region's 25 points is `outArr`. -/
theorem final (c : Dev nD) : (dat1 V c).arrAt 5 cfg1.N = outArr V c :=
  (dat1 V c).arrAt_eq_of_cover 5 (outArr V c) (fun t _ => flushed_eq V c t) cover

/-- THE REGION'S RESULT, entry by entry: after the region the result array holds at (r, j) the output layer's entry
    (r, j) of the arrays the region found. -/
theorem array_value (c : Dev nD) (r : Fin 50000) (j : Fin 64) :
    (dat1 (F := Ideal) V c).arrAt 5 cfg1.N (ix2 r j)
      = Cert.Combine.output (A := 50000) (K := 128) (B := 64) (V c main_v44) (V c main_v31) (V c main_v46) (V c main_v48)
          (V c main_arg6) r j :=
  congrFun (final V c) (ix2 r j)

end Cert.KernelIdeal.Region1

end
-- ==== Proof.KernelValue.lean ====
/-
  The idealized kernel program's two output arrays, entry by entry, as the combine step of the host-side means.

  The first grid's output array (the hidden features) holds at (r, k) the rectified combine step of the neighbourhood
  mean of the node features, the node features themselves and the first layer's transposed weights and bias. The
  result array holds at (r, j) the log-softmax row of the combine step of the neighbourhood mean of the hidden
  features, the hidden features and the second layer's transposed weights and bias.
-/
import proofs.«175774_j12232066859618_2_alg».proof.Proof.HostValues
import proofs.«175774_j12232066859618_2_alg».proof.Proof.Region0Value
import proofs.«175774_j12232066859618_2_alg».proof.Proof.Region1Value

noncomputable section

namespace Cert.KernelIdeal.KernelValue

open Cert.KernelIdeal Cert.KernelIdeal.Facts₀ Cert.KernelIdeal.Facts Cert.KernelIdeal.HostTerms Cert.KernelIdeal.HostValues
open Cert.KernelIdeal.Gen (V1 V3 W4 dat0 dat1)
open Idealize.ShloMosaic Idealize.ShloMosaic.TcCoe Idealize.SL.Sem Idealize.ShloMosaic.ValueIdx

variable (m : (ℓ : Loc nD τ sig) → Buf (Elt Ideal) ℓ) (ρ : Dev nD → PrngReg)

/-- The hidden features at (r, k). -/
theorem hidden_apply (c : Dev nD) (r : Fin 50000) (k : Fin 128) :
    (hiddenArr m ρ c : S50000x128.Idx → EReal) (ix2 r k)
      = Cert.Combine.hidden
          (mean (truncf .bf16 ((m ((c : Thread nD τ).loc main_arg0)) : FVec Ideal S50000x128 .f32) bitsLt_bf16_f32) (m ((c : Thread nD τ).loc main_arg1)))
          (truncf .bf16 ((m ((c : Thread nD τ).loc main_arg0)) : FVec Ideal S50000x128 .f32) bitsLt_bf16_f32 : FVec Ideal S50000x128 .bf16)
          (truncf .bf16 (transpose S128x128 [1, 0] ((m ((c : Thread nD τ).loc main_arg2)) : FVec Ideal S128x128 .f32) transposes_S128x128_S128x128_1_0) bitsLt_bf16_f32 : FVec Ideal S128x128 .bf16)
          (truncf .bf16 (transpose S128x128 [1, 0] ((m ((c : Thread nD τ).loc main_arg4)) : FVec Ideal S128x128 .f32) transposes_S128x128_S128x128_1_0) bitsLt_bf16_f32 : FVec Ideal S128x128 .bf16)
          ((m ((c : Thread nD τ).loc main_arg3)) : FVec Ideal S128 .f32) r k := by
  have h := Cert.KernelIdeal.Region0.array_value (V1 (F := Ideal) m ρ) c r k
  rw [entry0_mean, entry0_x, entry0_wl, entry0_wr, entry0_b] at h
  exact h

/-- The result array at the return, at (r, j). -/
theorem result_apply (c : Dev nD) (r : Fin 50000) (j : Fin 64) :
    (W4 (F := Ideal) m ρ c (Proc.devRef .tc main_v49) : S50000x64.Idx → EReal) (ix2 r j)
      = Cert.Combine.output
          (mean (hiddenArr m ρ c) (m ((c : Thread nD τ).loc main_arg1)))
          (hiddenArr m ρ c : S50000x128.Idx → EReal)
          (truncf .bf16 (transpose S128x64 [1, 0] ((m ((c : Thread nD τ).loc main_arg5)) : FVec Ideal S64x128 .f32) transposes_S64x128_S128x64_1_0) bitsLt_bf16_f32 : FVec Ideal S128x64 .bf16)
          (truncf .bf16 (transpose S128x64 [1, 0] ((m ((c : Thread nD τ).loc main_arg7)) : FVec Ideal S64x128 .f32) transposes_S64x128_S128x64_1_0) bitsLt_bf16_f32 : FVec Ideal S128x64 .bf16)
          ((m ((c : Thread nD τ).loc main_arg6)) : FVec Ideal S64 .f32) r j := by
  have h := Cert.KernelIdeal.Region1.array_value (V3 (F := Ideal) m ρ) c r j
  rw [entry1_mean, entry1_h, entry1_wl, entry1_wr, entry1_b] at h
  rw [result_arr]
  exact h

end Cert.KernelIdeal.KernelValue

end
-- ==== Proof.LibAfterAppend.lean ====
/-
  The fold of host operations over two lines set end to end.

  `StableHlo.after ops V` is the device's buffer contents after the operations `ops`, in order, from contents `V`. Over
  a concatenation it is the fold over the second line of the fold over the first — for any signature and any type of
  values. With it a long line that is given as several stretches (`List.flatten [s₀, s₁, …]`, after
  `List.flatten_cons` a chain of `++`) is read one stretch at a time: each stretch from ANY contents of which the
  buffers it reads are known, so that no comparison is longer than a stretch.
-/
import Idealize.ShloMosaic.Lib.StableHlo.Run

namespace Idealize.ShloMosaic.StableHlo

variable {τ : Topo} {sig : RefSig} {Val : EltTy → Type}

/-- The contents after `l₁ ++ l₂` are the contents after `l₂` from the contents after `l₁`. -/
theorem after_append (l₁ l₂ : List (HloOp τ sig Val)) (V : Valuation τ sig Val) :
    after (l₁ ++ l₂) V = after l₂ (after l₁ V) := by
  induction l₁ generalizing V with
  | nil => rfl
  | cons op ops ih => simp only [List.cons_append, after_cons]; exact ih _

end Idealize.ShloMosaic.StableHlo
-- ==== Proof.RefRun.lean ====
/-
  The reference program's run, read back one stretch at a time.

  @main is 88 host operations in a line: the first layer (through the rectifier), the second layer's combine step,
  and the log-softmax. The contents after the whole line are the fold of the third stretch over the fold of the
  second over the fold of the first, and each stretch is read from ANY contents of which the few buffers it reads are
  known, so that no term is longer than a stretch: the hidden features are named once where the second stretch reads
  them twice, and the second layer's combine step once where the log-softmax reads it three times.
-/
import proofs.«175774_j12232066859618_2_alg».proof.Proof.Gen.ReferenceIdeal
import proofs.«175774_j12232066859618_2_alg».proof.Proof.RefReadP
import proofs.«175774_j12232066859618_2_alg».proof.Proof.LibAfterAppend
import Idealize.ShloMosaic.Lib.StableHlo.Run

noncomputable section

namespace Cert.ReferenceIdeal.RunValue

open Cert.ReferenceIdeal Cert.ReferenceIdeal.Gen Idealize.ShloMosaic Idealize.ShloMosaic.TcCoe Idealize.SL.Sem Idealize.ShloMosaic.StableHlo
open Cert.ReferenceIdeal.ReadP

variable {F : FTy → Type} [FloatOps F]

/-- The first layer: the edge list's two rows, the aggregate and the count, the mean, the two products, the bias, the rectifier. -/
abbrev ops1 : List (HloOp τ sig (Elt F)) :=
  [ unary main_arg1 main_v0 ((extractStridedSlice S1x800000 ![0, 0] · slices_S2x800000_S1x800000_0_0) : (⟨S2x800000, .i32⟩ : BufTy).Contents (Elt F) → (⟨S1x800000, .i32⟩ : BufTy).Contents (Elt F)),
    reshape main_v0 main_v1 rfl shapeCasts_S1x800000_S800000,
    unary main_arg1 main_v2 ((extractStridedSlice S1x800000 ![1, 0] · slices_S2x800000_S1x800000_1_0) : (⟨S2x800000, .i32⟩ : BufTy).Contents (Elt F) → (⟨S1x800000, .i32⟩ : BufTy).Contents (Elt F)),
    reshape main_v2 main_v3 rfl shapeCasts_S1x800000_S800000,
    nullary main_c (constantI S_ 32 0#32),
    unary main_c main_v4 (broadcastInDim S800000 ![] bcast_S_S800000 : (⟨S_, .i32⟩ : BufTy).Contents (Elt F) → (⟨S800000, .i32⟩ : BufTy).Contents (Elt F)),
    binary main_v1 main_v4 main_v5 (cmpi .slt : (⟨S800000, .i32⟩ : BufTy).Contents (Elt F) → (⟨S800000, .i32⟩ : BufTy).Contents (Elt F) → (⟨S800000, .i1⟩ : BufTy).Contents (Elt F)),
    nullary main_c_0 (constantI S_ 32 50000#32),
    unary main_c_0 main_v6 (broadcastInDim S800000 ![] bcast_S_S800000 : (⟨S_, .i32⟩ : BufTy).Contents (Elt F) → (⟨S800000, .i32⟩ : BufTy).Contents (Elt F)),
    binary main_v1 main_v6 main_v7 (addi : (⟨S800000, .i32⟩ : BufTy).Contents (Elt F) → (⟨S800000, .i32⟩ : BufTy).Contents (Elt F) → (⟨S800000, .i32⟩ : BufTy).Contents (Elt F)),
    ternary main_v5 main_v7 main_v1 main_v8 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v8 main_v9 (broadcastInDim S800000x1 ![0] bcast_S800000_S800000x1_0 : (⟨S800000, .i32⟩ : BufTy).Contents (Elt F) → (⟨S800000x1, .i32⟩ : BufTy).Contents (Elt F)),
    binary main_arg0 main_v9 main_v10 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    nullary main_cst (constant S_ .f32 0x00000000#32),
    unary main_cst main_v11 (broadcastInDim S50000x128 ![] bcast_S_S50000x128 : (⟨S_, .f32⟩ : BufTy).Contents (Elt F) → (⟨S50000x128, .f32⟩ : BufTy).Contents (Elt F)),
    unary main_v3 main_v12 (broadcastInDim S800000x1 ![0] bcast_S800000_S800000x1_0 : (⟨S800000, .i32⟩ : BufTy).Contents (Elt F) → (⟨S800000x1, .i32⟩ : BufTy).Contents (Elt F)),
    ternary main_v11 main_v12 main_v10 main_v13 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)),
    nullary main_cst_1 (constant S_ .f32 0x3F800000#32),
    unary main_cst_1 main_v14 (broadcastInDim S800000 ![] bcast_S_S800000 : (⟨S_, .f32⟩ : BufTy).Contents (Elt F) → (⟨S800000, .f32⟩ : BufTy).Contents (Elt F)),
    nullary main_cst_2 (constant S_ .f32 0x00000000#32),
    unary main_cst_2 main_v15 (broadcastInDim S50000 ![] bcast_S_S50000 : (⟨S_, .f32⟩ : BufTy).Contents (Elt F) → (⟨S50000, .f32⟩ : BufTy).Contents (Elt F)),
    unary main_v3 main_v16 (broadcastInDim S800000x1 ![0] bcast_S800000_S800000x1_0 : (⟨S800000, .i32⟩ : BufTy).Contents (Elt F) → (⟨S800000x1, .i32⟩ : BufTy).Contents (Elt F)),
    ternary main_v15 main_v16 main_v14 main_v17 ((fun x i u => Host.scatterAdd scatter_S50000_S800000x1_S800000_n_0_0_1 x i u) : (⟨S50000, .f32⟩ : BufTy).Contents (Elt F) → (⟨S800000x1, .i32⟩ : BufTy).Contents (Elt F) → (⟨S800000, .f32⟩ : BufTy).Contents (Elt F) → (⟨S50000, .f32⟩ : BufTy).Contents (Elt F)),
    nullary main_cst_3 (constant S_ .f32 0x3F800000#32),
    unary main_cst_3 main_v18 (broadcastInDim S50000 ![] bcast_S_S50000 : (⟨S_, .f32⟩ : BufTy).Contents (Elt F) → (⟨S50000, .f32⟩ : BufTy).Contents (Elt F)),
    binary main_v17 main_v18 main_v19 (maximumf : (⟨S50000, .f32⟩ : BufTy).Contents (Elt F) → (⟨S50000, .f32⟩ : BufTy).Contents (Elt F) → (⟨S50000, .f32⟩ : BufTy).Contents (Elt F)),
    unary main_v19 main_v20 (broadcastInDim S50000x1 ![0] bcast_S50000_S50000x1_0 : (⟨S50000, .f32⟩ : BufTy).Contents (Elt F) → (⟨S50000x1, .f32⟩ : BufTy).Contents (Elt F)),
    unary main_v20 main_v21 (broadcastInDim S50000x128 ![0, 1] bcast_S50000x1_S50000x128_0_1 : (⟨S50000x1, .f32⟩ : BufTy).Contents (Elt F) → (⟨S50000x128, .f32⟩ : BufTy).Contents (Elt F)),
    binary main_v13 main_v21 main_v22 (Host.divf : (⟨S50000x128, .f32⟩ : BufTy).Contents (Elt F) → (⟨S50000x128, .f32⟩ : BufTy).Contents (Elt F) → (⟨S50000x128, .f32⟩ : BufTy).Contents (Elt F)),
    unary main_arg2 main_v23 ((transpose S128x128 [1, 0] · transposes_S128x128_S128x128_1_0) : (⟨S128x128, .f32⟩ : BufTy).Contents (Elt F) → (⟨S128x128, .f32⟩ : BufTy).Contents (Elt F)),
    binary main_v22 main_v23 main_v24 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    unary main_arg3 main_v25 (broadcastInDim S1x128 ![1] bcast_S128_S1x128_1 : (⟨S128, .f32⟩ : BufTy).Contents (Elt F) → (⟨S1x128, .f32⟩ : BufTy).Contents (Elt F)),
    unary main_v25 main_v26 (broadcastInDim S50000x128 ![0, 1] bcast_S1x128_S50000x128_0_1 : (⟨S1x128, .f32⟩ : BufTy).Contents (Elt F) → (⟨S50000x128, .f32⟩ : BufTy).Contents (Elt F)),
    binary main_v24 main_v26 main_v27 (addf : (⟨S50000x128, .f32⟩ : BufTy).Contents (Elt F) → (⟨S50000x128, .f32⟩ : BufTy).Contents (Elt F) → (⟨S50000x128, .f32⟩ : BufTy).Contents (Elt F)),
    unary main_arg4 main_v28 ((transpose S128x128 [1, 0] · transposes_S128x128_S128x128_1_0) : (⟨S128x128, .f32⟩ : BufTy).Contents (Elt F) → (⟨S128x128, .f32⟩ : BufTy).Contents (Elt F)),
    binary main_arg0 main_v28 main_v29 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    binary main_v27 main_v29 main_v30 (addf : (⟨S50000x128, .f32⟩ : BufTy).Contents (Elt F) → (⟨S50000x128, .f32⟩ : BufTy).Contents (Elt F) → (⟨S50000x128, .f32⟩ : BufTy).Contents (Elt F)),
    TRef.nullary (TRef.of (T := ⟨S_, .f32⟩) main_call0_cst) (constant S_ .f32 0x00000000#32),
    TRef.unary (TRef.of (T := ⟨S_, .f32⟩) main_call0_cst) (TRef.of (T := ⟨S50000x128, .f32⟩) main_call0_v0) (broadcastInDim S50000x128 ![] bcast_S_S50000x128),
    TRef.binary (TRef.of (T := ⟨S50000x128, .f32⟩) main_v30) (TRef.of (T := ⟨S50000x128, .f32⟩) main_call0_v0) (TRef.of (T := ⟨S50000x128, .f32⟩) main_v31) maximumf ]

/-- The second layer's combine step, from the hidden features. -/
abbrev ops2 : List (HloOp τ sig (Elt F)) :=
  [ nullary main_c_4 (constantI S_ 32 0#32),
    unary main_c_4 main_v32 (broadcastInDim S800000 ![] bcast_S_S800000 : (⟨S_, .i32⟩ : BufTy).Contents (Elt F) → (⟨S800000, .i32⟩ : BufTy).Contents (Elt F)),
    binary main_v1 main_v32 main_v33 (cmpi .slt : (⟨S800000, .i32⟩ : BufTy).Contents (Elt F) → (⟨S800000, .i32⟩ : BufTy).Contents (Elt F) → (⟨S800000, .i1⟩ : BufTy).Contents (Elt F)),
    nullary main_c_5 (constantI S_ 32 50000#32),
    unary main_c_5 main_v34 (broadcastInDim S800000 ![] bcast_S_S800000 : (⟨S_, .i32⟩ : BufTy).Contents (Elt F) → (⟨S800000, .i32⟩ : BufTy).Contents (Elt F)),
    binary main_v1 main_v34 main_v35 (addi : (⟨S800000, .i32⟩ : BufTy).Contents (Elt F) → (⟨S800000, .i32⟩ : BufTy).Contents (Elt F) → (⟨S800000, .i32⟩ : BufTy).Contents (Elt F)),
    ternary main_v33 main_v35 main_v1 main_v36 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v36 main_v37 (broadcastInDim S800000x1 ![0] bcast_S800000_S800000x1_0 : (⟨S800000, .i32⟩ : BufTy).Contents (Elt F) → (⟨S800000x1, .i32⟩ : BufTy).Contents (Elt F)),
    binary main_v31 main_v37 main_v38 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    nullary main_cst_6 (constant S_ .f32 0x00000000#32),
    unary main_cst_6 main_v39 (broadcastInDim S50000x128 ![] bcast_S_S50000x128 : (⟨S_, .f32⟩ : BufTy).Contents (Elt F) → (⟨S50000x128, .f32⟩ : BufTy).Contents (Elt F)),
    unary main_v3 main_v40 (broadcastInDim S800000x1 ![0] bcast_S800000_S800000x1_0 : (⟨S800000, .i32⟩ : BufTy).Contents (Elt F) → (⟨S800000x1, .i32⟩ : BufTy).Contents (Elt F)),
    ternary main_v39 main_v40 main_v38 main_v41 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)),
    nullary main_cst_7 (constant S_ .f32 0x3F800000#32),
    unary main_cst_7 main_v42 (broadcastInDim S800000 ![] bcast_S_S800000 : (⟨S_, .f32⟩ : BufTy).Contents (Elt F) → (⟨S800000, .f32⟩ : BufTy).Contents (Elt F)),
    nullary main_cst_8 (constant S_ .f32 0x00000000#32),
    unary main_cst_8 main_v43 (broadcastInDim S50000 ![] bcast_S_S50000 : (⟨S_, .f32⟩ : BufTy).Contents (Elt F) → (⟨S50000, .f32⟩ : BufTy).Contents (Elt F)),
    unary main_v3 main_v44 (broadcastInDim S800000x1 ![0] bcast_S800000_S800000x1_0 : (⟨S800000, .i32⟩ : BufTy).Contents (Elt F) → (⟨S800000x1, .i32⟩ : BufTy).Contents (Elt F)),
    ternary main_v43 main_v44 main_v42 main_v45 ((fun x i u => Host.scatterAdd scatter_S50000_S800000x1_S800000_n_0_0_1 x i u) : (⟨S50000, .f32⟩ : BufTy).Contents (Elt F) → (⟨S800000x1, .i32⟩ : BufTy).Contents (Elt F) → (⟨S800000, .f32⟩ : BufTy).Contents (Elt F) → (⟨S50000, .f32⟩ : BufTy).Contents (Elt F)),
    nullary main_cst_9 (constant S_ .f32 0x3F800000#32),
    unary main_cst_9 main_v46 (broadcastInDim S50000 ![] bcast_S_S50000 : (⟨S_, .f32⟩ : BufTy).Contents (Elt F) → (⟨S50000, .f32⟩ : BufTy).Contents (Elt F)),
    binary main_v45 main_v46 main_v47 (maximumf : (⟨S50000, .f32⟩ : BufTy).Contents (Elt F) → (⟨S50000, .f32⟩ : BufTy).Contents (Elt F) → (⟨S50000, .f32⟩ : BufTy).Contents (Elt F)),
    unary main_v47 main_v48 (broadcastInDim S50000x1 ![0] bcast_S50000_S50000x1_0 : (⟨S50000, .f32⟩ : BufTy).Contents (Elt F) → (⟨S50000x1, .f32⟩ : BufTy).Contents (Elt F)),
    unary main_v48 main_v49 (broadcastInDim S50000x128 ![0, 1] bcast_S50000x1_S50000x128_0_1 : (⟨S50000x1, .f32⟩ : BufTy).Contents (Elt F) → (⟨S50000x128, .f32⟩ : BufTy).Contents (Elt F)),
    binary main_v41 main_v49 main_v50 (Host.divf : (⟨S50000x128, .f32⟩ : BufTy).Contents (Elt F) → (⟨S50000x128, .f32⟩ : BufTy).Contents (Elt F) → (⟨S50000x128, .f32⟩ : BufTy).Contents (Elt F)),
    unary main_arg5 main_v51 ((transpose S128x64 [1, 0] · transposes_S64x128_S128x64_1_0) : (⟨S64x128, .f32⟩ : BufTy).Contents (Elt F) → (⟨S128x64, .f32⟩ : BufTy).Contents (Elt F)),
    binary main_v50 main_v51 main_v52 ((fun l r => Host.dotGeneral dot_S50000x128_S128x64_S50000x64_1_0_0_1_n_n none l r) : (⟨S50000x128, .f32⟩ : BufTy).Contents (Elt F) → (⟨S128x64, .f32⟩ : BufTy).Contents (Elt F) → (⟨S50000x64, .f32⟩ : BufTy).Contents (Elt F)),
    unary main_arg6 main_v53 (broadcastInDim S1x64 ![1] bcast_S64_S1x64_1 : (⟨S64, .f32⟩ : BufTy).Contents (Elt F) → (⟨S1x64, .f32⟩ : BufTy).Contents (Elt F)),
    unary main_v53 main_v54 (broadcastInDim S50000x64 ![0, 1] bcast_S1x64_S50000x64_0_1 : (⟨S1x64, .f32⟩ : BufTy).Contents (Elt F) → (⟨S50000x64, .f32⟩ : BufTy).Contents (Elt F)),
    binary main_v52 main_v54 main_v55 (addf : (⟨S50000x64, .f32⟩ : BufTy).Contents (Elt F) → (⟨S50000x64, .f32⟩ : BufTy).Contents (Elt F) → (⟨S50000x64, .f32⟩ : BufTy).Contents (Elt F)),
    unary main_arg7 main_v56 ((transpose S128x64 [1, 0] · transposes_S64x128_S128x64_1_0) : (⟨S64x128, .f32⟩ : BufTy).Contents (Elt F) → (⟨S128x64, .f32⟩ : BufTy).Contents (Elt F)),
    binary main_v31 main_v56 main_v57 ((fun l r => Host.dotGeneral dot_S50000x128_S128x64_S50000x64_1_0_0_1_n_n none l r) : (⟨S50000x128, .f32⟩ : BufTy).Contents (Elt F) → (⟨S128x64, .f32⟩ : BufTy).Contents (Elt F) → (⟨S50000x64, .f32⟩ : BufTy).Contents (Elt F)),
    binary main_v55 main_v57 main_v58 (addf : (⟨S50000x64, .f32⟩ : BufTy).Contents (Elt F) → (⟨S50000x64, .f32⟩ : BufTy).Contents (Elt F) → (⟨S50000x64, .f32⟩ : BufTy).Contents (Elt F)) ]

/-- The log-softmax of the second layer's combine step. -/
abbrev ops3 : List (HloOp τ sig (Elt F)) :=
  [ TRef.nullary (TRef.of (T := ⟨S_, .f32⟩) main_call1_cst) (constant S_ .f32 0xFF800000#32),
    TRef.binary (TRef.of (T := ⟨S50000x64, .f32⟩) main_v58) (TRef.of (T := ⟨S_, .f32⟩) main_call1_cst) (TRef.of (T := ⟨S50000, .f32⟩) main_call1_v0) (fun x v => Host.reduce FloatOps.maximumf x v reducesTo_S50000x64_S50000_d1 h_S_),
    TRef.nullary (TRef.of (T := ⟨S_, .f32⟩) main_call1_cst_0) (constant S_ .f32 0xFF800000#32),
    TRef.unary (TRef.of (T := ⟨S_, .f32⟩) main_call1_cst_0) (TRef.of (T := ⟨S50000, .f32⟩) main_call1_v1) (broadcastInDim S50000 ![] bcast_S_S50000),
    TRef.binary (TRef.of (T := ⟨S50000, .f32⟩) main_call1_v1) (TRef.of (T := ⟨S50000, .f32⟩) main_call1_v0) (TRef.of (T := ⟨S50000, .f32⟩) main_call1_v2) maximumf,
    TRef.unary (TRef.of (T := ⟨S50000, .f32⟩) main_call1_v2) (TRef.of (T := ⟨S50000x1, .f32⟩) main_call1_v3) (broadcastInDim S50000x1 ![0] bcast_S50000_S50000x1_0),
    TRef.unary (TRef.of (T := ⟨S50000x1, .f32⟩) main_call1_v3) (TRef.of (T := ⟨S50000x64, .f32⟩) main_call1_v4) (broadcastInDim S50000x64 ![0, 1] bcast_S50000x1_S50000x64_0_1),
    TRef.binary (TRef.of (T := ⟨S50000x64, .f32⟩) main_v58) (TRef.of (T := ⟨S50000x64, .f32⟩) main_call1_v4) (TRef.of (T := ⟨S50000x64, .f32⟩) main_call1_v5) subf,
    TRef.unary (TRef.of (T := ⟨S50000x64, .f32⟩) main_call1_v5) (TRef.of (T := ⟨S50000x64, .f32⟩) main_call1_v6) Host.exp,
    TRef.nullary (TRef.of (T := ⟨S_, .f32⟩) main_call1_cst_1) (constant S_ .f32 0x00000000#32),
    TRef.binary (TRef.of (T := ⟨S50000x64, .f32⟩) main_call1_v6) (TRef.of (T := ⟨S_, .f32⟩) main_call1_cst_1) (TRef.of (T := ⟨S50000, .f32⟩) main_call1_v7) (fun x v => Host.reduceAdd x v reducesTo_S50000x64_S50000_d1 h_S_),
    TRef.unary (TRef.of (T := ⟨S50000, .f32⟩) main_call1_v7) (TRef.of (T := ⟨S50000x1, .f32⟩) main_call1_v8) (broadcastInDim S50000x1 ![0] bcast_S50000_S50000x1_0),
    TRef.unary (TRef.of (T := ⟨S50000x1, .f32⟩) main_call1_v8) (TRef.of (T := ⟨S50000x1, .f32⟩) main_call1_v9) Host.log,
    TRef.unary (TRef.of (T := ⟨S50000x1, .f32⟩) main_call1_v9) (TRef.of (T := ⟨S50000x64, .f32⟩) main_call1_v10) (broadcastInDim S50000x64 ![0, 1] bcast_S50000x1_S50000x64_0_1),
    TRef.binary (TRef.of (T := ⟨S50000x64, .f32⟩) main_call1_v5) (TRef.of (T := ⟨S50000x64, .f32⟩) main_call1_v10) (TRef.of (T := ⟨S50000x64, .f32⟩) main_v59) subf ]

/-- @main's 88 operations, in order. -/
abbrev ops : List (HloOp τ sig (Elt F)) := ops1 ++ (ops2 ++ ops3)

set_option maxRecDepth 8192 in
set_option maxHeartbeats 4000000 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide

theorem ops1_sub : (ops1 : List (HloOp τ sig (Elt F))).Forall fun op => op.bufs ⊆ tcRefs τ sig :=
  ⟨unary_bufs_sub .., reshape_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., nullary_bufs_sub .., unary_bufs_sub .., nullary_bufs_sub .., unary_bufs_sub .., unary_bufs_sub .., ternary_bufs_sub .., nullary_bufs_sub .., unary_bufs_sub .., binary_bufs_sub .., unary_bufs_sub .., unary_bufs_sub .., binary_bufs_sub .., unary_bufs_sub .., binary_bufs_sub .., unary_bufs_sub .., unary_bufs_sub .., binary_bufs_sub .., unary_bufs_sub .., binary_bufs_sub .., binary_bufs_sub .., nullary_bufs_sub .., unary_bufs_sub .., binary_bufs_sub ..⟩
theorem ops2_sub : (ops2 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., nullary_bufs_sub .., unary_bufs_sub .., nullary_bufs_sub .., unary_bufs_sub .., unary_bufs_sub .., ternary_bufs_sub .., nullary_bufs_sub .., unary_bufs_sub .., binary_bufs_sub .., unary_bufs_sub .., unary_bufs_sub .., binary_bufs_sub .., unary_bufs_sub .., binary_bufs_sub .., unary_bufs_sub .., unary_bufs_sub .., binary_bufs_sub .., unary_bufs_sub .., binary_bufs_sub .., binary_bufs_sub ..⟩
theorem ops3_sub : (ops3 : List (HloOp τ sig (Elt F))).Forall fun op => op.bufs ⊆ tcRefs τ sig :=
  ⟨nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., unary_bufs_sub .., binary_bufs_sub ..⟩

/-- Every operation of the line touches TensorCore buffers only: stretch by stretch. -/
theorem ops_sub : (ops : List (HloOp τ sig (Elt F))).Forall fun op => op.bufs ⊆ tcRefs τ sig :=
  List.forall_iff_forall_mem.mpr fun op h => by
    rcases List.mem_append.mp h with h | h
    · exact List.forall_iff_forall_mem.mp ops1_sub op h
    · rcases List.mem_append.mp h with h | h
      · exact List.forall_iff_forall_mem.mp ops2_sub op h
      · exact List.forall_iff_forall_mem.mp ops3_sub op h

theorem ops1_fresh : ∀ op ∈ (ops1 : List (HloOp τ sig (Elt F))), op.fresh = ∅ := by
  intro _ h; (repeat (cases h with | head => rfl | tail _ h => ?_)); exact nomatch h
theorem ops2_fresh : ∀ op ∈ (ops2 : List (HloOp τ sig (Elt F))), op.fresh = ∅ := by
  intro _ h; (repeat (cases h with | head => rfl | tail _ h => ?_)); exact nomatch h
theorem ops3_fresh : ∀ op ∈ (ops3 : List (HloOp τ sig (Elt F))), op.fresh = ∅ := by
  intro _ h; (repeat (cases h with | head => rfl | tail _ h => ?_)); exact nomatch h

/-- Every operation of the line determines its results: stretch by stretch. -/
theorem ops_fresh : ∀ op ∈ (ops : List (HloOp τ sig (Elt F))), op.fresh = ∅ := fun op h => by
  rcases List.mem_append.mp h with h | h
  · exact ops1_fresh op h
  · rcases List.mem_append.mp h with h | h
    · exact ops2_fresh op h
    · exact ops3_fresh op h

/-- The contents after the whole line: the third stretch's fold over the second's over the first's. -/
theorem after_ops (V : Valuation τ sig (Elt F)) : after ops V = after ops3 (after ops2 (after ops1 V)) := by
  show after (ops1 ++ (ops2 ++ ops3)) V = _
  rw [after_append, after_append]

/-! ## Each stretch from any contents -/

/-- A value moved to a typed buffer's own contents type and back is unchanged. -/
theorem ofBuf_toBuf {T : BufTy} (x : TRef sig T) (v : T.Contents (Elt F)) : x.ofBuf (x.toBuf v) = v := by
  obtain ⟨r, h, h2, h3⟩ := x
  subst h
  rfl

/-- The eight argument buffers. -/
abbrev args : List (Ref sig .tc) := [main_arg0, main_arg1, main_arg2, main_arg3, main_arg4, main_arg5, main_arg6, main_arg7]

set_option maxHeartbeats 4000000 in
/-- The first stretch writes no argument. -/
theorem keep1 (W : Valuation τ sig (Elt F)) (r : Ref sig .tc) (hr : r ∈ args) :
    after ops1 W (Proc.devRef .tc r) = W (Proc.devRef .tc r) := by
  simp only [args, List.mem_cons, List.not_mem_nil, or_false] at hr
  rcases hr with rfl | rfl | rfl | rfl | rfl | rfl | rfl | rfl <;> after_results_simp

set_option maxHeartbeats 4000000 in
/-- The second stretch writes no argument. -/
theorem keep2 (W : Valuation τ sig (Elt F)) (r : Ref sig .tc) (hr : r ∈ args) :
    after ops2 W (Proc.devRef .tc r) = W (Proc.devRef .tc r) := by
  simp only [args, List.mem_cons, List.not_mem_nil, or_false] at hr
  rcases hr with rfl | rfl | rfl | rfl | rfl | rfl | rfl | rfl <;> after_results_simp

set_option maxHeartbeats 4000000 in
/-- The third stretch writes no argument. -/
theorem keep3 (W : Valuation τ sig (Elt F)) (r : Ref sig .tc) (hr : r ∈ args) :
    after ops3 W (Proc.devRef .tc r) = W (Proc.devRef .tc r) := by
  simp only [args, List.mem_cons, List.not_mem_nil, or_false] at hr
  rcases hr with rfl | rfl | rfl | rfl | rfl | rfl | rfl | rfl <;> after_results_simp

/-- The whole line writes no argument. -/
theorem keep (V : Valuation τ sig (Elt F)) (r : Ref sig .tc) (hr : r ∈ args) :
    after ops V (Proc.devRef .tc r) = V (Proc.devRef .tc r) := by
  rw [after_ops, keep3 _ r hr, keep2 _ r hr, keep1 _ r hr]

set_option maxHeartbeats 4000000 in
/-- After the first stretch the hidden features' buffer holds the first layer's stage of the five arguments it reads. -/
theorem stage1_v31 (W : Valuation τ sig (Elt F)) :
    after ops1 W (Proc.devRef .tc main_v31)
      = val_main_v31 (F := F) (W (Proc.devRef .tc main_arg0)) (W (Proc.devRef .tc main_arg1)) (W (Proc.devRef .tc main_arg2)) (W (Proc.devRef .tc main_arg3)) (W (Proc.devRef .tc main_arg4)) := by
  after_results_simp <;> rfl

set_option maxHeartbeats 4000000 in
/-- After the first stretch the edge list's first row, flattened, is in its buffer. -/
theorem stage1_v1 (W : Valuation τ sig (Elt F)) :
    after ops1 W (Proc.devRef .tc main_v1) = val_main_v1 (F := F) (W (Proc.devRef .tc main_arg1)) := by
  after_results_simp <;> rfl

set_option maxHeartbeats 4000000 in
/-- After the first stretch the edge list's second row, flattened, is in its buffer. -/
theorem stage1_v3 (W : Valuation τ sig (Elt F)) :
    after ops1 W (Proc.devRef .tc main_v3) = val_main_v3 (F := F) (W (Proc.devRef .tc main_arg1)) := by
  after_results_simp <;> rfl

set_option maxHeartbeats 4000000 in
/-- The second stretch, from any contents that hold the hidden features, the two flattened rows of the edge list and the
    second layer's three arguments: the combine step's buffer ends at its stage. -/
theorem stage2_v58 (W : Valuation τ sig (Elt F)) (x0 : (⟨S50000x128, .f32⟩ : BufTy).Contents (Elt F)) (x1 : (⟨S2x800000, .i32⟩ : BufTy).Contents (Elt F)) (x2 : (⟨S128x128, .f32⟩ : BufTy).Contents (Elt F)) (x3 : (⟨S128, .f32⟩ : BufTy).Contents (Elt F)) (x4 : (⟨S128x128, .f32⟩ : BufTy).Contents (Elt F)) (x5 : (⟨S64x128, .f32⟩ : BufTy).Contents (Elt F)) (x6 : (⟨S64, .f32⟩ : BufTy).Contents (Elt F)) (x7 : (⟨S64x128, .f32⟩ : BufTy).Contents (Elt F))
    (h31 : W (Proc.devRef .tc main_v31) = val_main_v31 (F := F) x0 x1 x2 x3 x4)
    (h1 : W (Proc.devRef .tc main_v1) = val_main_v1 (F := F) x1)
    (h3 : W (Proc.devRef .tc main_v3) = val_main_v3 (F := F) x1)
    (h5 : W (Proc.devRef .tc main_arg5) = x5) (h6 : W (Proc.devRef .tc main_arg6) = x6)
    (h7 : W (Proc.devRef .tc main_arg7) = x7) :
    after ops2 W (Proc.devRef .tc main_v58) = val_main_v58 (F := F) x0 x1 x2 x3 x4 x5 x6 x7 := by
  after_results_simp
  rw [h31, h1, h3, h5, h6, h7]
  rfl

set_option maxHeartbeats 4000000 in
/-- The third stretch, from any contents that hold the combine step: the result buffer ends at the log-softmax's stage. -/
theorem stage3_v59 (W : Valuation τ sig (Elt F)) (x0 : (⟨S50000x128, .f32⟩ : BufTy).Contents (Elt F)) (x1 : (⟨S2x800000, .i32⟩ : BufTy).Contents (Elt F)) (x2 : (⟨S128x128, .f32⟩ : BufTy).Contents (Elt F)) (x3 : (⟨S128, .f32⟩ : BufTy).Contents (Elt F)) (x4 : (⟨S128x128, .f32⟩ : BufTy).Contents (Elt F)) (x5 : (⟨S64x128, .f32⟩ : BufTy).Contents (Elt F)) (x6 : (⟨S64, .f32⟩ : BufTy).Contents (Elt F)) (x7 : (⟨S64x128, .f32⟩ : BufTy).Contents (Elt F))
    (h58 : W (Proc.devRef .tc main_v58) = val_main_v58 (F := F) x0 x1 x2 x3 x4 x5 x6 x7) :
    after ops3 W (Proc.devRef .tc main_v59) = val_main_v59 (F := F) x0 x1 x2 x3 x4 x5 x6 x7 := by
  after_results_simp
  simp only [ofBuf_toBuf]
  rw [h58]
  rfl

/-- The result buffer after the whole line, from any contents: the last stage of the eight arguments. -/
theorem result_eq (V : Valuation τ sig (Elt F)) :
    after ops V (Proc.devRef .tc main_v59)
      = val_main_v59 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) := by
  rw [after_ops]
  refine stage3_v59 _ _ _ _ _ _ _ _ _ ?_
  refine stage2_v58 _ _ _ _ _ _ _ _ _ (stage1_v31 V) (stage1_v1 V) (stage1_v3 V) ?_ ?_ ?_
  · exact keep1 V main_arg5 (by decide)
  · exact keep1 V main_arg6 (by decide)
  · exact keep1 V main_arg7 (by decide)

/-- On every device, for any float values, from any memory with zero counters: every weakly fair execution of @main
    terminates with the result buffer at the last stage of the eight arguments' launch contents, and the arguments
    unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v59) = val_main_v59 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun _ h c => ⟨(h c main_v59).trans (result_eq (launchContents m c)),
      (h c main_arg0).trans (keep (launchContents m c) main_arg0 (by decide)),
      (h c main_arg1).trans (keep (launchContents m c) main_arg1 (by decide)),
      (h c main_arg2).trans (keep (launchContents m c) main_arg2 (by decide)),
      (h c main_arg3).trans (keep (launchContents m c) main_arg3 (by decide)),
      (h c main_arg4).trans (keep (launchContents m c) main_arg4 (by decide)),
      (h c main_arg5).trans (keep (launchContents m c) main_arg5 (by decide)),
      (h c main_arg6).trans (keep (launchContents m c) main_arg6 (by decide)),
      (h c main_arg7).trans (keep (launchContents m c) main_arg7 (by decide))⟩)
    (run_seq scopedRefs_eq scopedSems_eq defs main (fun _ => ops) main_eq (fun _ => ops_sub) m ρ (fun _ => ops_fresh))

end Cert.ReferenceIdeal.RunValue

end
-- ==== Proof.LibRealEntries.lean ====
/-
  Real entries among the extended reals, and the law they are needed for.

  An extended real is REAL when it is the image of a real number (neither infinity). Sums, products, differences,
  maxima and finite sums of reals are real, so a value computed from real inputs by those operations is real without
  looking at how it was computed. That matters because the extended reals are not a ring: distributivity and
  cancellation fail at the infinities (⊤ + ⊥ = ⊥, 0 · ⊤ = 0), and an algebraic identity between two arrangements of
  one computation, true on the reals by `ring`, holds on the extended reals only where the entries are real.

  The law stated here is the folding of an evaluation-mode normalisation: with scale γ, shift β, mean μ and reciprocal
  deviation s, the plain form ((r − μ)·s)·γ + β and the folded multiply-add r·(γ·s) + (β − μ·(γ·s)) agree on real
  entries (both are the affine function r ↦ r·γ·s + β − μ·γ·s).
-/
import Idealize.ShloMosaic.PureOps.Ideal

noncomputable section

namespace Cert.LibRealEntries

open Finset

/-- An extended real that is a real number. -/
def IsReal (x : EReal) : Prop := ∃ r : ℝ, x = (r : EReal)

theorem IsReal.coe (r : ℝ) : IsReal (r : EReal) := ⟨r, rfl⟩

theorem isReal_zero : IsReal 0 := ⟨0, rfl⟩

theorem IsReal.add {x y : EReal} (hx : IsReal x) (hy : IsReal y) : IsReal (x + y) := by
  obtain ⟨a, rfl⟩ := hx; obtain ⟨b, rfl⟩ := hy; exact ⟨a + b, (EReal.coe_add a b).symm⟩

theorem IsReal.mul {x y : EReal} (hx : IsReal x) (hy : IsReal y) : IsReal (x * y) := by
  obtain ⟨a, rfl⟩ := hx; obtain ⟨b, rfl⟩ := hy; exact ⟨a * b, (EReal.coe_mul a b).symm⟩

theorem IsReal.sub {x y : EReal} (hx : IsReal x) (hy : IsReal y) : IsReal (x - y) := by
  obtain ⟨a, rfl⟩ := hx; obtain ⟨b, rfl⟩ := hy; exact ⟨a - b, (EReal.coe_sub a b).symm⟩

theorem IsReal.max {x y : EReal} (hx : IsReal x) (hy : IsReal y) : IsReal (max x y) := by
  obtain ⟨a, rfl⟩ := hx; obtain ⟨b, rfl⟩ := hy
  rcases le_total a b with h | h
  · exact ⟨b, max_eq_right (EReal.coe_le_coe_iff.2 h)⟩
  · exact ⟨a, max_eq_left (EReal.coe_le_coe_iff.2 h)⟩

/-- A finite sum of reals is a real. -/
theorem IsReal.sum {ι : Type*} (s : Finset ι) (f : ι → EReal) (h : ∀ i ∈ s, IsReal (f i)) : IsReal (∑ i ∈ s, f i) :=
  Finset.sum_induction f IsReal (fun _ _ => IsReal.add) isReal_zero h

/-- The folded and the plain normalisation of one real entry agree: both are the affine function
    r ↦ r·γ·s + β − μ·γ·s. -/
theorem folded_eq_plain {r γ β μ s : EReal} (hr : IsReal r) (hγ : IsReal γ) (hβ : IsReal β) (hμ : IsReal μ) (hs : IsReal s) :
    r * (γ * s) + (β - μ * (γ * s)) = (r - μ) * s * γ + β := by
  obtain ⟨r, rfl⟩ := hr; obtain ⟨γ, rfl⟩ := hγ; obtain ⟨β, rfl⟩ := hβ; obtain ⟨μ, rfl⟩ := hμ; obtain ⟨s, rfl⟩ := hs
  simp only [← EReal.coe_mul, ← EReal.coe_sub, ← EReal.coe_add]
  congr 1
  ring

end Cert.LibRealEntries

end
-- ==== Proof.LibFinitePre.lean ====
/-
  Reading a printed precondition's tests "every entry is finite" and "every entry is nonnegative", at the ideal values.

  A precondition that says `jnp.all(|x| < inf)` of an array prints as a reduction by `and`, over all axes, of the
  comparison of |x| with the +∞ constant spread over the array's shape; it holds when the reduction's one result is 1.
  A reduction by `and` that is 1 had a 1 at every entry, so at every entry |x| = max(x, −x) is below the top of the
  extended reals, which excludes both infinities: the entry is a real number. The test `jnp.all(x >= 0)` reads the same
  way, through the order's comparison with the zero constant. Each lemma takes the test in the form it is printed in,
  for any shape and any reduced axes, so a precondition's conjunction is read one test at a time.
-/
import Idealize.ShloMosaic.Lib.ReduceAll
import Idealize.ShloMosaic.Lib.Pipeline.Value
import Idealize.ShloMosaic.Lib.ValueIdx
import Idealize.ShloMosaic.PureOps.Ideal.Laws
import proofs.«175774_j12232066859618_2_alg».proof.Proof.LibRealEntries

noncomputable section

namespace Cert.LibFinitePre

open Idealize.ShloMosaic Idealize.ShloMosaic.ValueIdx Cert.LibRealEntries

/-- The rank-0 shape has one index. -/
instance : Subsingleton (⟨0, ![]⟩ : Shape).Idx := ⟨fun a b => funext fun d => d.elim0⟩

/-- The f32 +∞ pattern is the top of the extended reals. -/
theorem inf_word : Ideal.ofBits .f32 0x7F800000#32 = ⊤ := by
  simp [Ideal.ofBits, Ideal.ieee]

theorem ofBool_eq_one (b : Bool) : BitVec.ofBool b = 1#1 ↔ b = true := by cases b <;> decide

/-- |x| < +∞ on the extended reals: x is a real. -/
theorem isReal_of_abs_lt_top (x : EReal) (h : Ideal.cmp .olt (max x (-x)) ⊤ = 1#1) : IsReal x := by
  have h' : max x (-x) < ⊤ := of_decide_eq_true ((ofBool_eq_one _).1 h)
  induction x using EReal.rec with
  | bot => exact absurd h' (by simp)
  | coe r => exact ⟨r, rfl⟩
  | top => exact absurd h' (by simp)

/-- x ≥ 0 on the extended reals is the order's. -/
theorem nonneg_of_cmp (x : EReal) (h : Ideal.cmp .oge x 0 = 1#1) : 0 ≤ x :=
  of_decide_eq_true ((ofBool_eq_one _).1 h)

/-- A test "every |entry| < +∞" that holds says every entry is a real. -/
theorem all_real {s : Shape} {axes : List (Fin s.rank)} (a : FVec Ideal s .f32) (hb : (⟨0, ![]⟩ : Shape).BroadcastsInDim s ![])
    (hr : s.ReducesTo axes ⟨0, ![]⟩) (hu : 0 < (⟨0, ![]⟩ : Shape).numel)
    (e : Host.reduce IntOp.andi (cmpf .olt (Host.absf a) (broadcastInDim s ![] hb (constant (F := Ideal) ⟨0, ![]⟩ .f32 0x7F800000#32)))
      (constantI ⟨0, ![]⟩ 1 1#1) hr hu ix0 = 1#1) (i : s.Idx) : IsReal (a i) := by
  have h := Host.reduce_andi_all _ _ hr hu ix0 e i
  have hb' : broadcastInDim s ![] hb (constant (F := Ideal) ⟨0, ![]⟩ .f32 0x7F800000#32) i = ⊤ :=
    (broadcastInDim_apply ![] hb _ i ix0 (fun a => a.elim0)).trans inf_word
  refine isReal_of_abs_lt_top (a i) ?_
  have h2 : Ideal.cmp .olt (max (a i) (-(a i))) (broadcastInDim s ![] hb (constant (F := Ideal) ⟨0, ![]⟩ .f32 0x7F800000#32) i) = 1#1 := h
  rwa [hb'] at h2

/-- A test "every entry ≥ 0" that holds says every entry is nonnegative. -/
theorem all_nonneg {s : Shape} {axes : List (Fin s.rank)} (a : FVec Ideal s .f32) (hb : (⟨0, ![]⟩ : Shape).BroadcastsInDim s ![])
    (hr : s.ReducesTo axes ⟨0, ![]⟩) (hu : 0 < (⟨0, ![]⟩ : Shape).numel)
    (e : Host.reduce IntOp.andi (cmpf .oge a (broadcastInDim s ![] hb (constant (F := Ideal) ⟨0, ![]⟩ .f32 0x00000000#32)))
      (constantI ⟨0, ![]⟩ 1 1#1) hr hu ix0 = 1#1) (i : s.Idx) : 0 ≤ a i := by
  have h := Host.reduce_andi_all _ _ hr hu ix0 e i
  have hb' : broadcastInDim s ![] hb (constant (F := Ideal) ⟨0, ![]⟩ .f32 0x00000000#32) i = 0 :=
    (broadcastInDim_apply ![] hb _ i ix0 (fun a => a.elim0)).trans Ideal.ofBits_zero_f32
  refine nonneg_of_cmp (a i) ?_
  have h2 : Ideal.cmp .oge (a i) (broadcastInDim s ![] hb (constant (F := Ideal) ⟨0, ![]⟩ .f32 0x00000000#32) i) = 1#1 := h
  rwa [hb'] at h2

end Cert.LibFinitePre

end
-- ==== Proof.Finite.lean ====
/-
  The precondition read entry by entry: each of the seven float arguments holds real numbers.

  The printed precondition is the conjunction, argument by argument, of the test "every |entry| is below +∞", each a
  reduction by `and` over all axes. The conjunction is all ones, so every conjunct is one, and a test that is one
  says every entry of its argument is a real number.
-/
import proofs.«175774_j12232066859618_2_alg».proof.Pre_finite_inputs
import proofs.«175774_j12232066859618_2_alg».proof.Proof.LibFinitePre
import Idealize.ShloMosaic.Lib.Affine

noncomputable section

namespace Cert.FiniteInputs

open Idealize.ShloMosaic Idealize.ShloMosaic.ValueIdx Cert.LibRealEntries Cert.LibFinitePre Cert.Pre_finite_inputs

variable [Cert.Pre_finite_inputs.Facts]

/-- Under the precondition every entry of every float argument is a real number. -/
theorem real_of_pre (x0 : FVec Ideal S50000x128 .f32) (x1 : IVec S2x800000 32) (x2 : FVec Ideal S128x128 .f32)
    (x3 : FVec Ideal S128 .f32) (x4 : FVec Ideal S128x128 .f32) (x5 : FVec Ideal S64x128 .f32) (x6 : FVec Ideal S64 .f32)
    (x7 : FVec Ideal S64x128 .f32) (h : fn (F := Ideal) x0 x1 x2 x3 x4 x5 x6 x7 = fun _ => 1#1) :
    (∀ i, IsReal (x0 i)) ∧ (∀ i, IsReal (x2 i)) ∧ (∀ i, IsReal (x3 i)) ∧ (∀ i, IsReal (x4 i)) ∧ (∀ i, IsReal (x5 i))
      ∧ (∀ i, IsReal (x6 i)) ∧ (∀ i, IsReal (x7 i)) := by
  have h0 := congrFun h ix0
  dsimp only [fn, fn_part1] at h0
  obtain ⟨h0, e7⟩ := IntOp.andi_eq_one.1 h0
  obtain ⟨h0, e6⟩ := IntOp.andi_eq_one.1 h0
  obtain ⟨h0, e5⟩ := IntOp.andi_eq_one.1 h0
  obtain ⟨h0, e4⟩ := IntOp.andi_eq_one.1 h0
  obtain ⟨h0, e3⟩ := IntOp.andi_eq_one.1 h0
  obtain ⟨e0, e2⟩ := IntOp.andi_eq_one.1 h0
  exact ⟨all_real x0 _ _ _ e0, all_real x2 _ _ _ e2, all_real x3 _ _ _ e3, all_real x4 _ _ _ e4, all_real x5 _ _ _ e5,
    all_real x6 _ _ _ e6, all_real x7 _ _ _ e7⟩

end Cert.FiniteInputs

end
-- ==== Proof.LibGatherRows.lean ====
import Idealize.ShloMosaic.Lib.ValueIdx

/-!
# A gather of the rows of a matrix, read at an index

What `x[idx]` over the ROWS of a matrix `x : [N, C]` at an integer array `idx : [E]` lowers to: `stablehlo.gather`
with offset_dims `[1]`, collapsed_slice_dims `[0]`, start_index_map `[0]`, index_vector_dim 1 and slice_sizes
`[1, C]` over the indices as `[E, 1]`. Result element `(e, c)` is `x` at row `r(e)` and column `c`, where `r(e)` is
the start index `idx[e, 0]` read as a signed integer and clamped into `[0, N − 1]`, as StableHLO's gather clamps
every start index. The row depends on `N`, `idx` and `e` only, not on the width `C`.
-/

noncomputable section

namespace Cert.RowGather

open Idealize.ShloMosaic Idealize.ShloMosaic.ValueIdx

/-- The dimension numbers of a row gather: an operand `[N, C]`, start indices `[E, 1]` and a result `[E, C]`; axis 0
    of the operand is collapsed and indexed by the one component of the start index, axis 1 is taken whole (slice
    size `C`) and becomes the result's offset axis 1. Their conditions `wf` are decided on a program's literal
    shapes. -/
abbrev rowGatherDims (N E C : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- The operand row that result row `e` reads: the start index `idx[e, 0]` read as a signed integer and clamped into
    `[0, N − 1]`. It does not mention the operand's width. -/
def rowOf {N E w : Nat} (hN : 0 < N) (idx : IVec ⟨2, ![E, 1]⟩ w) (e : Fin E) : Fin N :=
  ⟨min (idx (ix2 e ⟨0, Nat.one_pos⟩)).toInt.toNat (N - 1), by omega⟩

/-- Axis 1 is not axis 0: it is neither collapsed nor named by the start index map. -/
private theorem one_not_mem_zero : (1 : Fin 2) ∉ [(0 : Fin 2)] := by decide

/-- THE ROW GATHER READ AT `(e, c)`: the operand at row `rowOf hN idx e` and column `c`. -/
theorem gather_rows_apply {α : Type} {N E C w : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (c : Fin C) :
    Host.gather (rowGatherDims N E C wf) x idx (ix2 e c) = x (ix2 (rowOf hN idx e) c) := by
  unfold Host.gather
  congr 1
  funext a
  refine Fin.ext ?_
  match a with
  | ⟨0, _⟩ =>
    -- axis 0: collapsed, named by the start index map: the clamped start index alone
    show (rowGatherDims N E C wf).start (ix2 e c) idx 0 + (rowGatherDims N E C wf).batchCoord (ix2 e c) 0
      + (rowGatherDims N E C wf).offCoord (ix2 e c) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGatherDims N E C wf).startIndexMap from List.mem_singleton.mpr rfl)]
    have hsi : (rowGatherDims N E C wf).siIdx (ix2 e c) ⟨List.idxOf (0 : Fin 2) (rowGatherDims N E C wf).startIndexMap,
        List.idxOf_lt_length_iff.2 (List.mem_singleton.mpr rfl)⟩ = ix2 e ⟨0, Nat.one_pos⟩ := by
      funext b; refine Fin.ext ?_
      match b with
      | ⟨0, _⟩ => rfl
      | ⟨1, _⟩ => rfl
    rw [hsi]
    rfl
  | ⟨1, _⟩ =>
    -- axis 1: not in the start index map (start 0), not batching, kept: the result's coordinate on offset axis 1
    show (rowGatherDims N E C wf).start (ix2 e c) idx 1 + (rowGatherDims N E C wf).batchCoord (ix2 e c) 1
      + (rowGatherDims N E C wf).offCoord (ix2 e c) 1 = c.val
    rw [GatherDims.batchCoord_eq_zero _ _ _ List.not_mem_nil]
    have hst : (rowGatherDims N E C wf).start (ix2 e c) idx 1 = 0 := by
      unfold GatherDims.start
      rw [dif_neg (show (1 : Fin 2) ∉ (rowGatherDims N E C wf).startIndexMap from one_not_mem_zero)]
    have hk : (1 : Fin 2) ∈ (rowGatherDims N E C wf).sKept :=
      (GatherDims.mem_sKept _ _).mpr ⟨one_not_mem_zero, List.not_mem_nil⟩
    have hoff : (rowGatherDims N E C wf).offCoord (ix2 e c) 1 = c.val := by
      unfold GatherDims.offCoord
      rw [dif_pos hk]
      rfl
    rw [hst, hoff, Nat.zero_add]

end Cert.RowGather

end
-- ==== Proof.LibScatterRows.lean ====
/-
  A ROW SCATTER WITH AN ADDING BODY, READ AT AN INDEX.

  The scatter that a segment sum over rows lowers to: operand `[N, C]`, scatter indices `[E, 1]`, updates `[E, C]`,
  update window axes `[1]`, inserted window axes `[0]`, scatter-dims-to-operand-dims `[0]`, index vector axis `1`.
  Update row `e` is added, column by column, into operand row `idx[e, 0]` (read as a signed integer, not clamped);
  a row whose index falls outside `[0, N)` is dropped. Over the extended reals the result at `(n, c)` is therefore
  the operand's element plus the sum of `upd (e, c)` over the rows `e` with `idx[e, 0] = n`.
-/
import Idealize.ShloMosaic.Lib.ValueIdx

noncomputable section

open scoped BigOperators

namespace Cert.RowScatter

open Idealize.ShloMosaic Idealize.ShloMosaic.ValueIdx

/-- The dimension numbers of a row scatter: operand `[N, C]`, scatter indices `[E, 1]`, updates `[E, C]`; the
    updates' axis 1 is the window axis and goes to the operand's axis 1, the operand's axis 0 is inserted and is the
    one the (one-component) scatter index addresses. -/
abbrev rowScatterDims (N E C : Nat)
    (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

/-- On operand axis 0 the window of update index `(e, c')` starts at the scatter index `idx[e, 0]`, read signed. -/
theorem start_zero {N E C w : Nat} (wf : ScatterDims.WF ⟨2, ![N, C]⟩ ⟨2, ![E, 1]⟩ ⟨2, ![E, C]⟩ [1] [0] [0] 1)
    (idx : IVec ⟨2, ![E, 1]⟩ w) (e : Fin E) (c' : Fin C) :
    (rowScatterDims N E C wf).start (ix2 e c') idx 0 = (idx (ix2 e ⟨0, Nat.one_pos⟩)).toInt := by
  unfold ScatterDims.start
  rw [dif_pos (show (0 : Fin 2) ∈ (rowScatterDims N E C wf).scatterDimsToOperandDims from List.mem_singleton.mpr rfl)]
  have hsi : (rowScatterDims N E C wf).siIdx (ix2 e c')
      ⟨List.idxOf (0 : Fin 2) (rowScatterDims N E C wf).scatterDimsToOperandDims,
        List.idxOf_lt_length_iff.2 (List.mem_singleton.mpr rfl)⟩ = ix2 e ⟨0, Nat.one_pos⟩ := by
    funext b; refine Fin.ext ?_
    match b with
    | ⟨0, _⟩ => rfl
    | ⟨1, _⟩ => rfl
  rw [hsi]

/-- On operand axis 1, which the scatter index does not address, every window starts at `0`. -/
theorem start_one {N E C w : Nat} (wf : ScatterDims.WF ⟨2, ![N, C]⟩ ⟨2, ![E, 1]⟩ ⟨2, ![E, C]⟩ [1] [0] [0] 1)
    (idx : IVec ⟨2, ![E, 1]⟩ w) (j : (⟨2, ![E, C]⟩ : Shape).Idx) :
    (rowScatterDims N E C wf).start j idx 1 = 0 := by
  unfold ScatterDims.start
  rw [dif_neg]
  show ¬ ((1 : Fin 2) ∈ [(0 : Fin 2)])
  decide

/-- On the inserted operand axis 0 the window coordinate is `0`. -/
theorem window_zero {N E C : Nat} (wf : ScatterDims.WF ⟨2, ![N, C]⟩ ⟨2, ![E, 1]⟩ ⟨2, ![E, C]⟩ [1] [0] [0] 1)
    (j : (⟨2, ![E, C]⟩ : Shape).Idx) :
    (rowScatterDims N E C wf).window j 0 = 0 := by
  unfold ScatterDims.window
  rw [dif_neg]
  show ¬ ((0 : Fin 2) ∈ [(1 : Fin 2)])
  decide

/-- On operand axis 1 the window coordinate is the update index's column. -/
theorem window_one {N E C : Nat} (wf : ScatterDims.WF ⟨2, ![N, C]⟩ ⟨2, ![E, 1]⟩ ⟨2, ![E, C]⟩ [1] [0] [0] 1)
    (j : (⟨2, ![E, C]⟩ : Shape).Idx) :
    (rowScatterDims N E C wf).window j 1 = (j 1).val := by
  unfold ScatterDims.window
  rw [dif_pos (show (1 : Fin 2) ∈ (rowScatterDims N E C wf).sKept from
    (show (1 : Fin 2) ∈ [(1 : Fin 2)] from List.mem_singleton.mpr rfl))]
  rfl

/-- For any scatter dimension numbers: update index `j` lands on operand index `i` exactly when, on every operand
    axis, the (signed) start plus the window coordinate is `i`'s coordinate. The in-range condition is then automatic,
    since `i`'s coordinates are in range. -/
theorem resultIdx?_eq_some_iff {s si u : Shape} (d : ScatterDims s si u) {w : Nat} (j : u.Idx) (idx : IVec si w)
    (i : s.Idx) :
    d.resultIdx? j idx = some i ↔ ∀ a, d.start j idx a + (d.window j a : Int) = ((i a).val : Int) := by
  unfold ScatterDims.resultIdx?
  constructor
  · intro h a
    split at h
    · rename_i hb
      have := congrFun (Option.some.inj h) a
      have hv := congrArg Fin.val this
      simp only at hv
      have := hb a
      omega
    · exact absurd h (by simp)
  · intro h
    have hb : ∀ a, 0 ≤ d.start j idx a + (d.window j a : Int) ∧ d.start j idx a + (d.window j a : Int) < s.size a := by
      intro a; have := h a; have := (i a).isLt; omega
    rw [dif_pos hb]
    congr 1
    funext a
    refine Fin.ext ?_
    have := h a
    show (d.start j idx a + (d.window j a : Int)).toNat = (i a).val
    omega

/-- Update index `(e, c')` lands on operand index `(n, c)` exactly when the scatter index `idx[e, 0]`, read as a
    signed integer, is `n`, and the columns agree. -/
theorem resultIdx_rows_iff {N E C w : Nat} (wf : ScatterDims.WF ⟨2, ![N, C]⟩ ⟨2, ![E, 1]⟩ ⟨2, ![E, C]⟩ [1] [0] [0] 1)
    (idx : IVec ⟨2, ![E, 1]⟩ w) (e : Fin E) (c' : Fin C) (n : Fin N) (c : Fin C) :
    (rowScatterDims N E C wf).resultIdx? (ix2 e c') idx = some (ix2 n c)
      ↔ (idx (ix2 e ⟨0, Nat.one_pos⟩)).toInt = (n.val : Int) ∧ c' = c := by
  rw [resultIdx?_eq_some_iff]
  constructor
  · intro h
    have h0 : (idx (ix2 e ⟨0, Nat.one_pos⟩)).toInt + ((0 : Nat) : Int) = (n.val : Int) := by
      have := h 0; rwa [start_zero, window_zero] at this
    have h1 : (0 : Int) + (c'.val : Int) = (c.val : Int) := by
      have := h 1; rwa [start_one, window_one] at this
    refine ⟨?_, Fin.ext ?_⟩
    · omega
    · omega
  · rintro ⟨h0, rfl⟩ a
    match a with
    | ⟨0, _⟩ =>
      show (rowScatterDims N E C wf).start (ix2 e c') idx 0 + ((rowScatterDims N E C wf).window (ix2 e c') 0 : Int) = _
      rw [start_zero, window_zero, h0]
      show (n.val : Int) + ((0 : Nat) : Int) = (n.val : Int)
      omega
    | ⟨1, _⟩ =>
      show (rowScatterDims N E C wf).start (ix2 e c') idx 1 + ((rowScatterDims N E C wf).window (ix2 e c') 1 : Int) = _
      rw [start_one, window_one]
      show (0 : Int) + (c'.val : Int) = (c'.val : Int)
      omega

/-- The same for an update index not yet split into its coordinates. -/
theorem resultIdx_rows_iff' {N E C w : Nat} (wf : ScatterDims.WF ⟨2, ![N, C]⟩ ⟨2, ![E, 1]⟩ ⟨2, ![E, C]⟩ [1] [0] [0] 1)
    (idx : IVec ⟨2, ![E, 1]⟩ w) (j : (⟨2, ![E, C]⟩ : Shape).Idx) (n : Fin N) (c : Fin C) :
    (rowScatterDims N E C wf).resultIdx? j idx = some (ix2 n c)
      ↔ (idx (ix2 (j 0 : Fin E) ⟨0, Nat.one_pos⟩)).toInt = (n.val : Int) ∧ (j 1 : Fin C) = c := by
  have h := resultIdx_rows_iff wf idx (j 0) (j 1) n c
  constructor
  · intro hj
    rw [eq_ix2 j] at hj
    exact h.mp hj
  · intro hh
    rw [eq_ix2 j]
    exact h.mpr hh

/-- THE ROW SCATTER READ AT `(n, c)`: the operand's element plus the sum, over the update rows `e` whose scatter index
    `idx[e, 0]` (signed, not clamped) is `n`, of `upd (e, c)`. The update indices landing on `(n, c)` are the
    `(e, c)` with `idx[e, 0] = n`; the sum is re-indexed along `(e, c) ↦ e`. -/
theorem hostScatterAdd_rows_apply {N E C w : Nat}
    (wf : ScatterDims.WF ⟨2, ![N, C]⟩ ⟨2, ![E, 1]⟩ ⟨2, ![E, C]⟩ [1] [0] [0] 1)
    (x : (⟨2, ![N, C]⟩ : Shape).Idx → EReal) (idx : IVec ⟨2, ![E, 1]⟩ w)
    (upd : (⟨2, ![E, C]⟩ : Shape).Idx → EReal) (n : Fin N) (c : Fin C) :
    Ideal.hostScatterAdd (rowScatterDims N E C wf) x idx upd (ix2 n c)
      = x (ix2 n c) + ∑ e ∈ Finset.univ.filter (fun e : Fin E => (idx (ix2 e ⟨0, Nat.one_pos⟩)).toInt = (n.val : Int)),
          upd (ix2 e c) := by
  unfold Ideal.hostScatterAdd
  congr 1
  refine Finset.sum_nbij' (fun j => (j 0 : Fin E)) (fun e => ix2 e c) ?_ ?_ ?_ ?_ ?_
  · intro j hj
    have hj' := (Finset.mem_filter.mp hj).2
    exact Finset.mem_filter.mpr ⟨Finset.mem_univ _, ((resultIdx_rows_iff' wf idx j n c).mp hj').1⟩
  · intro e he
    have he' := (Finset.mem_filter.mp he).2
    exact Finset.mem_filter.mpr ⟨Finset.mem_univ _, (resultIdx_rows_iff wf idx e c n c).mpr ⟨he', rfl⟩⟩
  · intro j hj
    have hj' := (Finset.mem_filter.mp hj).2
    have h := ((resultIdx_rows_iff' wf idx j n c).mp hj').2
    rw [← h]; exact (eq_ix2 j).symm
  · intro e _; rfl
  · intro j hj
    have hj' := (Finset.mem_filter.mp hj).2
    have h := ((resultIdx_rows_iff' wf idx j n c).mp hj').2
    rw [← h]; exact congrArg upd (eq_ix2 j)

end Cert.RowScatter

end
-- ==== Proof.LibERealScale.lean ====
/-
  Scaling by a nonnegative finite factor on the extended reals, and two quantities that are such factors.

  On the extended reals multiplication does not distribute over addition in general (the sum of +∞ and −∞ is −∞, and
  a negative or infinite factor turns that around), but it does for a factor `x` with `0 ≤ x` and `x ≠ ⊤`: a
  nonnegative real. So a finite sum times such a factor is the sum of the products, whatever the summands are.
  The reciprocal square root of a positive extended real is such a factor (a positive real, or `0` at `+∞`), and so
  is a value that is either that or `0`. A quotient by a nonzero divisor is the product with the divisor's reciprocal.
-/
import Idealize.ShloMosaic.PureOps.Ideal
import Idealize.ShloMosaic.PureOps.Ideal.Laws

namespace Cert.LibERealScale

open Idealize.ShloMosaic

/-- A finite sum times a nonnegative finite factor is the sum of the products. -/
theorem sum_mul_of_nonneg_ne_top {ι : Type} (s : Finset ι) (f : ι → EReal) {x : EReal} (h0 : 0 ≤ x) (ht : x ≠ ⊤) :
    (∑ j ∈ s, f j) * x = ∑ j ∈ s, f j * x := by
  classical
  induction s using Finset.induction_on with
  | empty => rw [Finset.sum_empty, Finset.sum_empty, zero_mul]
  | insert a s ha ih =>
    rw [Finset.sum_insert ha, Finset.sum_insert ha, EReal.right_distrib_of_nonneg_of_ne_top h0 ht, ih]

/-- The f32 word of `1.0` denotes `1`. -/
theorem ofBits_one_f32 : Ideal.ofBits .f32 0x3F800000#32 = 1 := by
  simp [Ideal.ofBits, Ideal.ieee]
  rw [← EReal.coe_mul, ← EReal.coe_one]
  exact congrArg _ (by norm_num)

/-- The larger of anything and `1` is positive. -/
theorem max_one_pos (d : EReal) : 0 < max d (Ideal.ofBits .f32 0x3F800000#32) := by
  rw [ofBits_one_f32]
  exact lt_of_lt_of_le zero_lt_one (le_max_right d 1)

/-- The reciprocal square root of a positive extended real is a nonnegative finite number. -/
theorem rsqrt_nonneg_ne_top {y : EReal} (hy : 0 < y) : 0 ≤ Ideal.rsqrt y ∧ Ideal.rsqrt y ≠ ⊤ := by
  induction y using EReal.rec with
  | bot => exact absurd hy (not_lt.mpr bot_le)
  | top => rw [Ideal.rsqrt_top]; exact ⟨le_rfl, EReal.zero_ne_top⟩
  | coe r =>
    have hr : 0 < r := by exact_mod_cast hy
    rw [Ideal.rsqrt_coe, if_neg (not_lt.mpr hr.le), if_neg hr.ne']
    exact ⟨by exact_mod_cast inv_nonneg.mpr (Real.sqrt_nonneg r), EReal.coe_ne_top _⟩

/-- A value that is the reciprocal square root of `max d 1` where a flag is set and `0` elsewhere is a
    nonnegative finite number, whatever `d` and the flag are. -/
theorem select_rsqrt_nonneg_ne_top (b : BitVec 1) (d : EReal) :
    0 ≤ Scalar.select b (Ideal.rsqrt (max d (Ideal.ofBits .f32 0x3F800000#32))) (Ideal.ofBits .f32 0x00000000#32)
      ∧ Scalar.select b (Ideal.rsqrt (max d (Ideal.ofBits .f32 0x3F800000#32))) (Ideal.ofBits .f32 0x00000000#32) ≠ ⊤ := by
  unfold Scalar.select
  split
  · exact rsqrt_nonneg_ne_top (max_one_pos d)
  · rw [Ideal.ofBits_zero_f32]; exact ⟨le_rfl, EReal.zero_ne_top⟩

/-- A quotient by a nonzero divisor is the product with the divisor's reciprocal `1 / y`. -/
theorem div_eq_mul_one_div (x : EReal) {y : EReal} (hy : y ≠ 0) : Ideal.div x y = x * Ideal.div 1 y := by
  unfold Ideal.div
  rw [if_neg hy, if_neg hy, one_mul]

end Cert.LibERealScale
-- ==== Proof.Algebra.lean ====
/-
  The laws on the extended reals that join the two arrangements of the combine step.

  • A quotient by max d 1 is the product with its reciprocal, and that reciprocal is a real number whatever d is
    (max d 1 ≥ 1 > 0, and the reciprocal of +∞ is 0).
  • The three-term sum (a + c) + b is (a + b) + c: addition on the extended reals is commutative and associative.
  • Entries built from real entries by sums of products, a bias and a rectifier are real.
  • The maximum of a nonempty row of reals is real, and for a real M the difference a − (M + c) is (a − M) − c,
    whatever a and c are: the two arrangements of a log-softmax agree on a row of reals.
-/
import Idealize.ShloMosaic.PureOps.Ideal
import proofs.«175774_j12232066859618_2_alg».proof.Proof.LibRealEntries
import proofs.«175774_j12232066859618_2_alg».proof.Proof.LibMaxReduce
import proofs.«175774_j12232066859618_2_alg».proof.Proof.LibERealScale
import proofs.«175774_j12232066859618_2_alg».proof.Proof.Spec

noncomputable section

namespace Cert.Combine

open Idealize.ShloMosaic Idealize.ShloMosaic.ValueIdx Cert.LibRealEntries Cert.LibMaxReduce

/-- The f32 word of −∞ is the bottom of the extended reals. -/
theorem neg_inf_word : Ideal.ofBits .f32 0xFF800000#32 = ⊥ := by
  simp [Ideal.ofBits, Ideal.ieee]

/-- max d 1 is positive. -/
theorem max_one_pos (d : EReal) : (0 : EReal) < max d 1 := lt_of_lt_of_le zero_lt_one (le_max_right d 1)

/-- The reciprocal of max d 1 is a real number, whatever d is. -/
theorem isReal_inv_max_one (d : EReal) : IsReal (Ideal.div 1 (max d 1)) := by
  have hpos := max_one_pos d
  unfold Ideal.div
  rw [if_neg hpos.ne', one_mul]
  generalize max d 1 = y at hpos
  induction y using EReal.rec with
  | bot => exact absurd hpos (not_lt.mpr bot_le)
  | top => rw [EReal.inv_top]; exact isReal_zero
  | coe r => exact ⟨r⁻¹, (EReal.coe_inv r).symm⟩

/-- A quotient by max d 1 is the product with the reciprocal of max d 1. -/
theorem div_max_one (x d : EReal) : Ideal.div x (max d 1) = x * Ideal.div 1 (max d 1) :=
  Cert.LibERealScale.div_eq_mul_one_div x (max_one_pos d).ne'

/-- A real entry divided by max d 1 is real. -/
theorem isReal_div_max_one {x : EReal} (hx : IsReal x) (d : EReal) : IsReal (Ideal.div x (max d 1)) := by
  rw [div_max_one]; exact hx.mul (isReal_inv_max_one d)

/-- (a + c) + b = (a + b) + c. -/
theorem add_swap (a c b : EReal) : a + c + b = a + b + c := add_right_comm a c b

/-- The combine step's entry is real when every entry it reads is. -/
theorem isReal_lin {A K B : ℕ} (mean x : (⟨2, ![A, K]⟩ : Shape).Idx → EReal) (wl wr : (⟨2, ![K, B]⟩ : Shape).Idx → EReal)
    (b : (⟨1, ![B]⟩ : Shape).Idx → EReal) (r : Fin A) (j : Fin B)
    (hm : ∀ k, IsReal (mean (ix2 r k))) (hx : ∀ k, IsReal (x (ix2 r k)))
    (hwl : ∀ k, IsReal (wl (ix2 k j))) (hwr : ∀ k, IsReal (wr (ix2 k j))) (hb : IsReal (b (ix1 j))) :
    IsReal (lin mean x wl wr b r j) := by
  unfold lin
  exact ((IsReal.sum _ _ fun k _ => (hm k).mul (hwl k)).add (IsReal.sum _ _ fun k _ => (hx k).mul (hwr k))).add hb

/-- The rectified entry is real when the combine step's entry is. -/
theorem isReal_hidden {A K B : ℕ} (mean x : (⟨2, ![A, K]⟩ : Shape).Idx → EReal) (wl wr : (⟨2, ![K, B]⟩ : Shape).Idx → EReal)
    (b : (⟨1, ![B]⟩ : Shape).Idx → EReal) (r : Fin A) (j : Fin B) (h : IsReal (lin mean x wl wr b r j)) :
    IsReal (hidden mean x wl wr b r j) := h.max isReal_zero

/-- A fold of max from ⊥ over a finite set is ⊥ or one of the folded values. -/
theorem fold_max_bot_cases {ι : Type} [DecidableEq ι] (s : Finset ι) (z : ι → EReal) :
    s.fold max ⊥ z = ⊥ ∨ ∃ k ∈ s, s.fold max ⊥ z = z k := by
  induction s using Finset.induction_on with
  | empty => left; exact Finset.fold_empty
  | insert a s ha ih =>
    rw [Finset.fold_insert ha]
    rcases le_total (z a) (s.fold max ⊥ z) with h | h
    · rw [max_eq_right h]
      rcases ih with h0 | ⟨k, hk, e⟩
      · left; exact h0
      · right; exact ⟨k, Finset.mem_insert_of_mem hk, e⟩
    · rw [max_eq_left h]; right; exact ⟨a, Finset.mem_insert_self a s, rfl⟩

/-- The maximum of a nonempty row of reals is real. -/
theorem isReal_rowMax {B : ℕ} (z : Fin (B + 1) → EReal) (hz : ∀ k, IsReal (z k)) : IsReal (rowMax z) := by
  unfold rowMax foldMax
  rw [neg_inf_word]
  rcases fold_max_bot_cases (Finset.univ : Finset (Fin (B + 1))) z with h | ⟨k, _, e⟩
  · exfalso
    have hle : z 0 ≤ (Finset.univ : Finset (Fin (B + 1))).fold max ⊥ z :=
      (Finset.le_fold_max (z 0)).mpr (Or.inr ⟨0, Finset.mem_univ _, le_rfl⟩)
    rw [h] at hle
    obtain ⟨r, hr⟩ := hz 0
    rw [hr] at hle
    exact EReal.coe_ne_bot r (le_bot_iff.mp hle)
  · rw [e]; exact hz k

/-- For a real M, a − (M + c) = (a − M) − c. -/
theorem sub_add_of_isReal {a M c : EReal} (hM : IsReal M) : a - (M + c) = a - M - c := by
  obtain ⟨r, rfl⟩ := hM
  rw [sub_eq_add_neg, EReal.neg_add (Or.inl (EReal.coe_ne_bot r)) (Or.inl (EReal.coe_ne_top r)),
    sub_eq_add_neg (a - (r : EReal)), sub_eq_add_neg a, sub_eq_add_neg (-(r : EReal)), add_assoc]

/-- On a nonempty row of reals the log-softmax with the maximum added back outside the logarithm is the one that
    subtracts the logarithm from the shifted entry. -/
theorem logSoftmax_eq {B : ℕ} (z : Fin (B + 1) → EReal) (hz : ∀ k, IsReal (z k)) (j : Fin (B + 1)) :
    logSoftmax z j = z j - rowMax z - Ideal.log (∑ k : Fin (B + 1), Ideal.exp (z k - rowMax z)) :=
  sub_add_of_isReal (isReal_rowMax z hz)

end Cert.Combine

end
-- ==== Proof.MeanValue.lean ====
/-
  The neighbourhood mean and the aggregate, entry by entry.

  The mean of a node table at node n and feature c is the aggregate's entry (n, c) times the reciprocal column's entry
  of row n: the column [50000, 1] spread over the 128 features reads, at (n, c), the column at (n, 0). The reciprocal
  column at row n is 1 / max(count(n), 1): the quotient of the one word (which is 1) by the larger of the in-degree,
  cast from a vector [50000] to a column, and the one word.

  The aggregate at (n, c) is a scatter-add into the zero table: 0 plus the sum, over the edges e whose destination is
  n, of the gathered table's entry (e, c); and that entry is the table at the (clamped) source row of edge e and
  column c. So when every entry of the table is a real number, the aggregate's entries are real (a finite sum of
  reals), and so are the mean's: a real times the reciprocal of max(count, 1), which is real whatever the count is.
-/
import proofs.«175774_j12232066859618_2_alg».proof.Proof.HostTerms
import proofs.«175774_j12232066859618_2_alg».proof.Proof.LibGatherRows
import proofs.«175774_j12232066859618_2_alg».proof.Proof.LibScatterRows
import proofs.«175774_j12232066859618_2_alg».proof.Proof.LibRealEntries
import proofs.«175774_j12232066859618_2_alg».proof.Proof.LibKeepdims
import proofs.«175774_j12232066859618_2_alg».proof.Proof.LibERealScale
import proofs.«175774_j12232066859618_2_alg».proof.Proof.Algebra
import Idealize.ShloMosaic.Lib.ValueIdx
import Idealize.ShloMosaic.Lib.ValueLayout
import Idealize.ShloMosaic.Lib.Pipeline.Value

noncomputable section

open scoped BigOperators

namespace Cert.KernelIdeal.MeanValue

open Cert.KernelIdeal Cert.KernelIdeal.Facts₀ Cert.KernelIdeal.Facts Idealize.ShloMosaic Idealize.ShloMosaic.ValueIdx
open Cert.LibRealEntries

/-! ## Scalar words spread over an array -/

/-- The one word spread over any shape reads 1 everywhere. -/
theorem one_splat (s : Shape) (hb : S_.BroadcastsInDim s (![] : Fin 0 → Fin s.rank)) (i : s.Idx) :
    broadcastInDim s ![] hb (constant (F := Ideal) S_ .f32 0x3F800000#32) i = 1 :=
  (broadcastInDim_apply ![] hb _ i ix0 (fun a => a.elim0)).trans Cert.LibERealScale.ofBits_one_f32

/-- The zero word spread over any shape reads 0 everywhere. -/
theorem zero_splat (s : Shape) (hb : S_.BroadcastsInDim s (![] : Fin 0 → Fin s.rank)) (i : s.Idx) :
    broadcastInDim s ![] hb (constant (F := Ideal) S_ .f32 0x00000000#32) i = 0 :=
  (broadcastInDim_apply ![] hb _ i ix0 (fun a => a.elim0)).trans Ideal.ofBits_zero_f32

/-! ## The mean is the aggregate times the reciprocal of max(count, 1) -/

/-- The host's quotient at an index is the quotient of the entries. -/
theorem hostDivf_apply {s : Shape} {φ : FTy} (a b : FVec Ideal s φ) (i : s.Idx) :
    Host.divf a b i = Ideal.div (a i) (b i) := rfl

/-- The reciprocal column at row n: 1 / max(count(n), 1). -/
theorem recip_apply (x1 : IVec S2x800000 32) (n : Fin 50000) (u : Fin 1) :
    HostTerms.recip x1 (ix2 n u) = Ideal.div 1 (max (HostTerms.count x1 (ix1 n)) 1) := by
  unfold HostTerms.recip
  rw [hostDivf_apply, maximumf_apply, one_splat, Cert.LibKeepdims.shapeCast_a_a1_apply]

/-- A column [50000, 1] spread over the 128 features reads, at (n, c), the column's entry of row n. -/
theorem column_spread_apply {α : Type} (v : S50000x1.Idx → α)
    (h : S50000x1.BroadcastsInDim S50000x128 (![0, 1] : Fin 2 → Fin S50000x128.rank)) (n : Fin 50000) (c : Fin 128) :
    broadcastInDim S50000x128 ![0, 1] h v (ix2 n c) = v (ix2 n (0 : Fin 1)) := by
  refine broadcastInDim_apply ![0, 1] h v (ix2 n c) (ix2 n (0 : Fin 1)) fun a => ?_
  match a with
  | ⟨0, _⟩ =>
    show n.val = if (50000 : ℕ) = 1 then 0 else n.val
    rw [if_neg (show ¬ ((50000 : ℕ) = 1) by decide)]
  | ⟨1, _⟩ =>
    show (0 : ℕ) = if (1 : ℕ) = 1 then 0 else c.val
    rw [if_pos rfl]

/-- THE MEAN AT (n, c): the aggregate's entry times 1 / max(count(n), 1). -/
theorem mean_apply (t : FVec Ideal S50000x128 .bf16) (x1 : IVec S2x800000 32) (n : Fin 50000) (c : Fin 128) :
    HostTerms.mean t x1 (ix2 n c)
      = HostTerms.aggregate t x1 (ix2 n c) * Ideal.div 1 (max (HostTerms.count x1 (ix1 n)) 1) := by
  unfold HostTerms.mean
  rw [mulf_apply, column_spread_apply, recip_apply]

/-! ## The aggregate is a finite sum of table entries -/

/-- The printed scatter's dimension numbers are the row scatter's. -/
theorem scatter_eq : scatter_S50000x128_S800000x1_S800000x128_1_0_0_1
    = Cert.RowScatter.rowScatterDims 50000 800000 128 scatter_S50000x128_S800000x1_S800000x128_1_0_0_1_wf := rfl

/-- The printed gather's dimension numbers are the row gather's. -/
theorem gather_eq : gather_S50000x128_S800000x1_S800000x128_1_0_n_n_0_1_1128
    = Cert.RowGather.rowGatherDims 50000 800000 128 gather_S50000x128_S800000x1_S800000x128_1_0_n_n_0_1_1128_wf := rfl

/-- The aggregate is the row scatter-add, at the destination column, of the table's rows gathered at the source column,
    into the zero table. -/
theorem aggregate_eq (t : FVec Ideal S50000x128 .bf16) (x1 : IVec S2x800000 32) :
    HostTerms.aggregate t x1
      = Ideal.hostScatterAdd (Cert.RowScatter.rowScatterDims 50000 800000 128 scatter_S50000x128_S800000x1_S800000x128_1_0_0_1_wf)
          (broadcastInDim S50000x128 ![] bcast_S_S50000x128 (constant (F := Ideal) S_ .f32 0x00000000#32)) (HostTerms.dstIdx x1)
          (extf .f32 (Host.gather (Cert.RowGather.rowGatherDims 50000 800000 128 gather_S50000x128_S800000x1_S800000x128_1_0_n_n_0_1_1128_wf)
            t (HostTerms.srcIdx x1)) bitsLt_bf16_f32) := by
  unfold HostTerms.aggregate Host.scatterAdd
  rw [Ideal.hostScatterAdd_def, scatter_eq, gather_eq]

/-- THE AGGREGATE AT (n, c): the sum, over the edges whose destination index is n, of the table's entry at the edge's
    clamped source row and column c. -/
theorem aggregate_apply (t : FVec Ideal S50000x128 .bf16) (x1 : IVec S2x800000 32) (n : Fin 50000) (c : Fin 128) :
    HostTerms.aggregate t x1 (ix2 n c)
      = 0 + ∑ e ∈ Finset.univ.filter (fun e : Fin 800000 => (HostTerms.dstIdx x1 (ix2 e ⟨0, Nat.one_pos⟩)).toInt = (n.val : Int)),
          t (ix2 (Cert.RowGather.rowOf (N := 50000) (by decide) (HostTerms.srcIdx x1) e) c) := by
  rw [aggregate_eq, Cert.RowScatter.hostScatterAdd_rows_apply, zero_splat]
  refine congrArg (0 + ·) (Finset.sum_congr rfl fun e _ => ?_)
  rw [extf_apply, Cert.RowGather.gather_rows_apply (show 0 < 50000 by decide)]

/-! ## Real tables have real aggregates and real means -/

/-- The aggregate of a table of reals is real: a finite sum of reals. -/
theorem isReal_aggregate (t : FVec Ideal S50000x128 .bf16) (x1 : IVec S2x800000 32) (n : Fin 50000) (c : Fin 128)
    (ht : ∀ i, IsReal (t i)) : IsReal (HostTerms.aggregate t x1 (ix2 n c)) := by
  rw [aggregate_apply]
  exact isReal_zero.add (IsReal.sum _ _ fun e _ => ht _)

/-- The mean of a table of reals is real. -/
theorem isReal_mean (t : FVec Ideal S50000x128 .bf16) (x1 : IVec S2x800000 32) (n : Fin 50000) (c : Fin 128)
    (ht : ∀ i, IsReal (t i)) : IsReal (HostTerms.mean t x1 (ix2 n c)) := by
  rw [mean_apply]
  exact (isReal_aggregate t x1 n c ht).mul (Cert.Combine.isReal_inv_max_one _)

end Cert.KernelIdeal.MeanValue

end
-- ==== Proof.RefStages.lean ====
/-
  The reference program's stages read at an entry written by its coordinates.

  For a node r: the neighbourhood mean of a table is the aggregate's entry divided by max(count r, 1); the first
  layer's entry (r, k) before the rectifier is (Σ_q mean(r, q)·W_l(k, q) + b(k)) + Σ_q x(r, q)·W_r(k, q), the weights
  read transposed; the hidden features are its maximum with 0; the second layer repeats this over the hidden features
  with its own weights [64, 128]; and the result is (z_j − M) − log Σ_k exp(z_k − M) over the row z of the second
  layer's entries, M the row's maximum as a fold of max from −∞ (joining −∞ in once more changes nothing).
-/
import proofs.«175774_j12232066859618_2_alg».proof.Proof.RefReadP
import proofs.«175774_j12232066859618_2_alg».proof.Proof.LibMaxReduce
import proofs.«175774_j12232066859618_2_alg».proof.Proof.LibERealScale

noncomputable section

namespace Cert.ReferenceIdeal.Stages

open Cert.ReferenceIdeal Cert.ReferenceIdeal.Gen Cert.ReferenceIdeal.ReadP Idealize.ShloMosaic Idealize.ShloMosaic.ValueIdx Cert.LibMaxReduce

variable (x0 : (⟨S50000x128, .f32⟩ : BufTy).Contents (Elt Ideal)) (x1 : (⟨S2x800000, .i32⟩ : BufTy).Contents (Elt Ideal)) (x2 : (⟨S128x128, .f32⟩ : BufTy).Contents (Elt Ideal)) (x3 : (⟨S128, .f32⟩ : BufTy).Contents (Elt Ideal)) (x4 : (⟨S128x128, .f32⟩ : BufTy).Contents (Elt Ideal)) (x5 : (⟨S64x128, .f32⟩ : BufTy).Contents (Elt Ideal)) (x6 : (⟨S64, .f32⟩ : BufTy).Contents (Elt Ideal)) (x7 : (⟨S64x128, .f32⟩ : BufTy).Contents (Elt Ideal))

/-- The word of 1.0 is 1. -/
theorem one_word : FloatOps.ofBits (F := Ideal) .f32 0x3F800000#32 = 1 := Cert.LibERealScale.ofBits_one_f32

/-- The word of 0.0 is 0. -/
theorem zero_word : FloatOps.ofBits (F := Ideal) .f32 0x00000000#32 = 0 := Ideal.ofBits_zero_f32

/-- The first layer's neighbourhood mean at (r, q). -/
theorem mean1_apply (r : Fin 50000) (q : Fin 128) :
    val_main_v22 (F := Ideal) x0 x1 (ix2 r q)
      = Ideal.div (val_main_v13 (F := Ideal) x0 x1 (ix2 r q)) (max (val_main_v17 (F := Ideal) x1 (ix1 r)) 1) := by
  have e : idx_main_v20 (idx_main_v21 (ix2 r q)) = ix1 r := by funext a; match a with | ⟨0, _⟩ => rfl
  rw [val_main_v22_apply, val_main_v21_apply, val_main_v20_apply, val_main_v19_apply, val_main_v18_apply,
    val_main_cst_3_apply, e, one_word]
  rfl

/-- The first layer's entry (r, k) before the rectifier. -/
theorem pre1_apply (r : Fin 50000) (k : Fin 128) :
    val_main_v30 (F := Ideal) x0 x1 x2 x3 x4 (ix2 r k)
      = (∑ q : Fin 128, val_main_v22 (F := Ideal) x0 x1 (ix2 r q) * x2 (ix2 k q) + x3 (ix1 k))
        + ∑ q : Fin 128, x0 (ix2 r q) * x4 (ix2 k q) := by
  have el : ∀ q, lidx_main_v24 (ix2 r k) q = ix2 r q := fun q => by funext a; match a with | ⟨0, _⟩ => rfl | ⟨1, _⟩ => rfl
  have er : ∀ q, idx_main_v23 (ridx_main_v24 (ix2 r k) q) = ix2 k q := fun q => by funext a; match a with | ⟨0, _⟩ => rfl | ⟨1, _⟩ => rfl
  have el' : ∀ q, lidx_main_v29 (ix2 r k) q = ix2 r q := fun q => by funext a; match a with | ⟨0, _⟩ => rfl | ⟨1, _⟩ => rfl
  have er' : ∀ q, idx_main_v28 (ridx_main_v29 (ix2 r k) q) = ix2 k q := fun q => by funext a; match a with | ⟨0, _⟩ => rfl | ⟨1, _⟩ => rfl
  have eb : idx_main_v25 (idx_main_v26 (ix2 r k)) = ix1 k := by funext a; match a with | ⟨0, _⟩ => rfl
  rw [val_main_v30_apply, val_main_v27_apply, val_main_v24_apply, val_main_v26_apply, val_main_v25_apply,
    val_main_v29_apply, eb]
  simp only [val_main_v23_apply, val_main_v28_apply, el, er, el', er', Ideal.addf_def]

/-- The hidden features at (r, k). -/
theorem hidden_apply (r : Fin 50000) (k : Fin 128) :
    val_main_v31 (F := Ideal) x0 x1 x2 x3 x4 (ix2 r k) = max (val_main_v30 (F := Ideal) x0 x1 x2 x3 x4 (ix2 r k)) 0 := by
  rw [val_main_v31_apply, val_main_call0_v0_apply, val_main_call0_cst_apply, zero_word]
  rfl

/-- The second layer's neighbourhood mean at (r, q). -/
theorem mean2_apply (r : Fin 50000) (q : Fin 128) :
    val_main_v50 (F := Ideal) x0 x1 x2 x3 x4 (ix2 r q)
      = Ideal.div (val_main_v41 (F := Ideal) x0 x1 x2 x3 x4 (ix2 r q)) (max (val_main_v45 (F := Ideal) x1 (ix1 r)) 1) := by
  have e : idx_main_v48 (idx_main_v49 (ix2 r q)) = ix1 r := by funext a; match a with | ⟨0, _⟩ => rfl
  rw [val_main_v50_apply, val_main_v49_apply, val_main_v48_apply, val_main_v47_apply, val_main_v46_apply,
    val_main_cst_9_apply, e, one_word]
  rfl

/-- The second layer's entry (r, j). -/
theorem pre2_apply (r : Fin 50000) (j : Fin 64) :
    val_main_v58 (F := Ideal) x0 x1 x2 x3 x4 x5 x6 x7 (ix2 r j)
      = (∑ q : Fin 128, val_main_v50 (F := Ideal) x0 x1 x2 x3 x4 (ix2 r q) * x5 (ix2 j q) + x6 (ix1 j))
        + ∑ q : Fin 128, val_main_v31 (F := Ideal) x0 x1 x2 x3 x4 (ix2 r q) * x7 (ix2 j q) := by
  have el : ∀ q, lidx_main_v52 (ix2 r j) q = ix2 r q := fun q => by funext a; match a with | ⟨0, _⟩ => rfl | ⟨1, _⟩ => rfl
  have er : ∀ q, idx_main_v51 (ridx_main_v52 (ix2 r j) q) = ix2 j q := fun q => by funext a; match a with | ⟨0, _⟩ => rfl | ⟨1, _⟩ => rfl
  have el' : ∀ q, lidx_main_v57 (ix2 r j) q = ix2 r q := fun q => by funext a; match a with | ⟨0, _⟩ => rfl | ⟨1, _⟩ => rfl
  have er' : ∀ q, idx_main_v56 (ridx_main_v57 (ix2 r j) q) = ix2 j q := fun q => by funext a; match a with | ⟨0, _⟩ => rfl | ⟨1, _⟩ => rfl
  have eb : idx_main_v53 (idx_main_v54 (ix2 r j)) = ix1 j := by funext a; match a with | ⟨0, _⟩ => rfl
  rw [val_main_v58_apply, val_main_v55_apply, val_main_v52_apply, val_main_v54_apply, val_main_v53_apply,
    val_main_v57_apply, eb]
  simp only [val_main_v51_apply, val_main_v56_apply, el, er, el', er', Ideal.addf_def]

/-- The row of second-layer entries of node r. -/
abbrev row (r : Fin 50000) : Fin 64 → EReal := fun k => val_main_v58 (F := Ideal) x0 x1 x2 x3 x4 x5 x6 x7 (ix2 r k)

/-- The host's maximum over the last axis of a [50000, 64] array at row r, from −∞. -/
theorem hostRowMax (y : (⟨S50000x64, .f32⟩ : BufTy).Contents (Elt Ideal)) (r : Fin 50000) :
    Host.reduce (FloatOps.maximumf (F := Ideal) (φ := .f32)) y (val_main_call1_cst (F := Ideal)) reducesTo_S50000x64_S50000_d1 h_S_ (ix1 r)
      = foldMax (Ideal.ofBits .f32 0xFF800000#32) (fun k : Fin 64 => y (ix2 r k)) :=
  hostReduce_maximumf_lastAxis_apply (a := 50000) (b := 64) y (val_main_call1_cst (F := Ideal))
    reducesTo_S50000x64_S50000_d1 (by decide) h_S_ r

/-- The row maximum the log-softmax subtracts, at node r. -/
theorem rowMax_apply (r : Fin 50000) :
    val_main_call1_v2 (F := Ideal) x0 x1 x2 x3 x4 x5 x6 x7 (ix1 r) = foldMax (Ideal.ofBits .f32 0xFF800000#32) (row x0 x1 x2 x3 x4 x5 x6 x7 r) := by
  rw [val_main_call1_v2_apply, val_main_call1_v1_apply, val_main_call1_cst_0_apply]
  unfold val_main_call1_v0
  rw [hostRowMax]
  exact max_foldMax _ _

/-- The result at (r, j). -/
theorem out_apply (r : Fin 50000) (j : Fin 64) :
    val_main_v59 (F := Ideal) x0 x1 x2 x3 x4 x5 x6 x7 (ix2 r j)
      = row x0 x1 x2 x3 x4 x5 x6 x7 r j - foldMax (Ideal.ofBits .f32 0xFF800000#32) (row x0 x1 x2 x3 x4 x5 x6 x7 r)
        - Ideal.log (∑ k : Fin 64, Ideal.exp (row x0 x1 x2 x3 x4 x5 x6 x7 r k - foldMax (Ideal.ofBits .f32 0xFF800000#32) (row x0 x1 x2 x3 x4 x5 x6 x7 r))) := by
  have e4 : ∀ k : Fin 64, idx_main_call1_v3 (idx_main_call1_v4 (ix2 r k)) = ix1 r := fun k => by funext a; match a with | ⟨0, _⟩ => rfl
  have e8 : idx_main_call1_v8 (idx_main_call1_v10 (ix2 r j)) = ix1 r := by funext a; match a with | ⟨0, _⟩ => rfl
  have e7 : ∀ k : Fin 64, idx_main_call1_v7 (ix1 r) k = ix2 r k := fun k => by funext a; match a with | ⟨0, _⟩ => rfl | ⟨1, _⟩ => rfl
  have h5 : ∀ k : Fin 64, val_main_call1_v5 (F := Ideal) x0 x1 x2 x3 x4 x5 x6 x7 (ix2 r k)
      = row x0 x1 x2 x3 x4 x5 x6 x7 r k - foldMax (Ideal.ofBits .f32 0xFF800000#32) (row x0 x1 x2 x3 x4 x5 x6 x7 r) := fun k => by
    rw [val_main_call1_v5_apply, val_main_call1_v4_apply, val_main_call1_v3_apply, e4 k, rowMax_apply]
    rfl
  rw [val_main_v59_apply, val_main_call1_v10_apply, val_main_call1_v9_apply, val_main_call1_v8_apply, e8]
  have h7 : val_main_call1_v7 (F := Ideal) x0 x1 x2 x3 x4 x5 x6 x7 (ix1 r)
      = ∑ k : Fin 64, Ideal.exp (row x0 x1 x2 x3 x4 x5 x6 x7 r k - foldMax (Ideal.ofBits .f32 0xFF800000#32) (row x0 x1 x2 x3 x4 x5 x6 x7 r)) := by
    rw [val_main_call1_v7_apply, val_main_call1_cst_1_apply, zero_word, zero_add]
    refine Finset.sum_congr rfl fun k _ => ?_
    rw [e7 k, val_main_call1_v6_apply, h5 k]
    exact Ideal.hostUnary_exp_def _
  rw [h7, h5 j, Ideal.hostUnary_log_def]
  exact Ideal.subf_def _ _

end Cert.ReferenceIdeal.Stages

end
-- ==== Proof.LibPlainDot.lean ====
/-
  The host's plain matrix product and a matrix transpose, read at an index, at the ideal values.
  A `dot_general` with the dimension numbers of an ordinary product — an [A, K] matrix times a [K, B] matrix,
  contracting the left operand's columns with the right operand's rows, no batch axis — is, at (p, e), the sum over k
  of L(p, k) · R(k, e), a sum indexed by `Fin K` with both operands read at indices written by coordinates. The
  transpose of an [A, B] matrix read at (b, a) is the matrix at (a, b).
-/
import Idealize.ShloMosaic.PureOps.Ideal.Laws
import Idealize.ShloMosaic.Lib.ValueIdx
import Idealize.ShloMosaic.Lib.Pipeline.Value
import proofs.«175774_j12232066859618_2_alg».proof.Proof.LibPlainMatmul

noncomputable section

namespace Cert.LibPlainDot

open Idealize.ShloMosaic Idealize.ShloMosaic.ValueIdx

/-- A plain [A, K] × [K, B] `dot_general` on the host, read at (p, e): Σ_k L(p, k) · R(k, e). -/
theorem dotGeneral_plain_apply (A K B : Nat) {φ₁ φ₂ : FTy} (prec : Option ContractPrecision) (sched : HostSchedule)
    (lhs : FVec Ideal ⟨2, ![A, K]⟩ φ₁) (rhs : FVec Ideal ⟨2, ![K, B]⟩ φ₂) (p : Fin A) (e : Fin B) :
    FloatOps.dotGeneral (DotDims.plain A K B) prec sched lhs rhs (ix2 p e) = ∑ k : Fin K, lhs (ix2 p k) * rhs (ix2 k e) := by
  rw [Ideal.dotGeneral_apply, ← Equiv.sum_comp (contrEquiv1 (DotDims.plain A K B) K rfl rfl).symm]
  refine Finset.sum_congr rfl fun k _ => ?_
  rw [plain_lhsIdx, plain_rhsIdx]

/-- The transpose of an [A, B] matrix, read at (b, a), is the matrix at (a, b). -/
theorem transpose_swap_apply {α : Type} (A B : Nat) (x : (⟨2, ![A, B]⟩ : Shape).Idx → α)
    (h : (⟨2, ![A, B]⟩ : Shape).Transposes [1, 0] ⟨2, ![B, A]⟩) (b : Fin B) (a : Fin A) :
    transpose ⟨2, ![B, A]⟩ [1, 0] x h (ix2 b a) = x (ix2 a b) :=
  transpose_apply [1, 0] x h (ix2 b a) (ix2 a b) (fun d => match d with
    | ⟨0, _⟩ => rfl
    | ⟨1, _⟩ => rfl)

end Cert.LibPlainDot

end
-- ==== Proof.BridgeLayer1.lean ====
/-
  The two programs' host-side aggregates are one function, and the first layer agrees entry by entry.

  Both programs gather the rows of a node table at the source nodes and add them up at the destination nodes, with
  the same index columns; the kernel's program rounds the table to a narrower float format before the gather and
  widens the gathered rows after it, which at the ideal values changes nothing. So the aggregate of the node
  features, the aggregate of a hidden table and the in-degree count are the same arrays on both sides.
  The kernel multiplies the aggregate by 1 / max(count, 1) where the reference divides it by max(count, 1): equal,
  since max(count, 1) is not 0. The kernel adds the two products and then the bias, the reference the first product,
  the bias and then the second product: equal, since addition is commutative and associative.
-/
import proofs.«175774_j12232066859618_2_alg».proof.Proof.MeanValue
import proofs.«175774_j12232066859618_2_alg».proof.Proof.RefStages
import proofs.«175774_j12232066859618_2_alg».proof.Proof.LibPlainDot
import proofs.«175774_j12232066859618_2_alg».proof.Proof.Algebra

noncomputable section

namespace Cert.Bridge

open Cert.KernelIdeal Cert.KernelIdeal.Facts₀ Cert.KernelIdeal.Facts Cert.KernelIdeal.HostTerms
open Idealize.ShloMosaic Idealize.ShloMosaic.ValueIdx Cert.LibRealEntries Cert.Combine

variable (x0 : FVec Ideal S50000x128 .f32) (x1 : IVec S2x800000 32) (x2 x4 : FVec Ideal S128x128 .f32)
  (x3 : FVec Ideal S128 .f32) (x5 x7 : FVec Ideal S64x128 .f32) (x6 : FVec Ideal S64 .f32)

/-- The node features as the kernel's feature window holds them. -/
abbrev feat : FVec Ideal S50000x128 .bf16 := truncf .bf16 x0 bitsLt_bf16_f32

/-- A first-layer weight matrix as the kernel's weight window holds it: transposed. -/
abbrev wT1 (w : FVec Ideal S128x128 .f32) : FVec Ideal S128x128 .bf16 :=
  truncf .bf16 (transpose S128x128 [1, 0] w transposes_S128x128_S128x128_1_0) bitsLt_bf16_f32

/-- A second-layer weight matrix as the kernel's weight window holds it: transposed. -/
abbrev wT2 (w : FVec Ideal S64x128 .f32) : FVec Ideal S128x64 .bf16 :=
  truncf .bf16 (transpose S128x64 [1, 0] w transposes_S64x128_S128x64_1_0) bitsLt_bf16_f32

/-! ## The shared arrays -/

theorem count_eq1 : count x1 = Cert.ReferenceIdeal.ReadP.val_main_v17 (F := Ideal) x1 := rfl

theorem count_eq2 : count x1 = Cert.ReferenceIdeal.ReadP.val_main_v45 (F := Ideal) x1 := rfl

theorem aggregate_eq1 : aggregate (feat x0) x1 = Cert.ReferenceIdeal.ReadP.val_main_v13 (F := Ideal) x0 x1 := rfl

theorem aggregate_eq2 :
    aggregate (Cert.ReferenceIdeal.ReadP.val_main_v31 (F := Ideal) x0 x1 x2 x3 x4) x1 = Cert.ReferenceIdeal.ReadP.val_main_v41 (F := Ideal) x0 x1 x2 x3 x4 := rfl

/-! ## The layout reads -/

theorem feat_apply (i : S50000x128.Idx) : feat x0 i = x0 i := rfl

theorem wT1_apply (w : FVec Ideal S128x128 .f32) (q k : Fin 128) : wT1 w (ix2 q k) = w (ix2 k q) :=
  Cert.LibPlainDot.transpose_swap_apply 128 128 w transposes_S128x128_S128x128_1_0 q k

theorem wT2_apply (w : FVec Ideal S64x128 .f32) (q : Fin 128) (j : Fin 64) : wT2 w (ix2 q j) = w (ix2 j q) :=
  Cert.LibPlainDot.transpose_swap_apply 64 128 w transposes_S64x128_S128x64_1_0 q j

/-! ## The first layer -/

/-- The neighbourhood mean of the node features, kernel's arrangement and reference's. -/
theorem mean1_eq (r : Fin 50000) (q : Fin 128) :
    mean (feat x0) x1 (ix2 r q) = Cert.ReferenceIdeal.ReadP.val_main_v22 (F := Ideal) x0 x1 (ix2 r q) := by
  rw [Cert.KernelIdeal.MeanValue.mean_apply, aggregate_eq1, count_eq1, Cert.ReferenceIdeal.Stages.mean1_apply]
  exact (div_max_one _ _).symm

/-- The hidden features, kernel's arrangement and reference's. -/
theorem hidden_eq (r : Fin 50000) (k : Fin 128) :
    hidden (mean (feat x0) x1) (feat x0) (wT1 x2) (wT1 x4) x3 r k
      = Cert.ReferenceIdeal.ReadP.val_main_v31 (F := Ideal) x0 x1 x2 x3 x4 (ix2 r k) := by
  rw [Cert.ReferenceIdeal.Stages.hidden_apply, Cert.ReferenceIdeal.Stages.pre1_apply]
  unfold Cert.Combine.hidden Cert.Combine.lin
  rw [add_swap]
  simp only [mean1_eq, wT1_apply, feat_apply]

end Cert.Bridge

end
-- ==== Proof.Bridge.lean ====
/-
  The second layer and the log-softmax agree entry by entry, on real inputs.

  With the hidden features the same array on both sides, the second layer's neighbourhood mean and combine step agree
  as the first layer's do. The log-softmax is where the inputs' finiteness is used: the kernel subtracts
  M + log Σ exp(z − M) from z, the reference subtracts log Σ exp(z − M) from z − M, and a − (M + c) = (a − M) − c needs
  the row maximum M to be a real number. It is: every entry of the row is real, being built from real inputs by sums
  of products, a bias, a rectifier and a product with the real number 1 / max(count, 1).
-/
import proofs.«175774_j12232066859618_2_alg».proof.Proof.BridgeLayer1

noncomputable section

namespace Cert.Bridge

open Cert.KernelIdeal Cert.KernelIdeal.Facts₀ Cert.KernelIdeal.Facts Cert.KernelIdeal.HostTerms
open Idealize.ShloMosaic Idealize.ShloMosaic.ValueIdx Cert.LibRealEntries Cert.Combine

variable (x0 : FVec Ideal S50000x128 .f32) (x1 : IVec S2x800000 32) (x2 x4 : FVec Ideal S128x128 .f32)
  (x3 : FVec Ideal S128 .f32) (x5 x7 : FVec Ideal S64x128 .f32) (x6 : FVec Ideal S64 .f32)

/-! ## The hidden features are real -/

theorem isReal_hidden1 (h0 : ∀ i, IsReal (x0 i)) (h2 : ∀ i, IsReal (x2 i)) (h3 : ∀ i, IsReal (x3 i))
    (h4 : ∀ i, IsReal (x4 i)) (r : Fin 50000) (k : Fin 128) :
    IsReal (hidden (mean (feat x0) x1) (feat x0) (wT1 x2) (wT1 x4) x3 r k) :=
  isReal_hidden _ _ _ _ _ r k (isReal_lin _ _ _ _ _ r k
    (fun q => Cert.KernelIdeal.MeanValue.isReal_mean _ x1 r q (fun i => h0 i)) (fun q => h0 _)
    (fun q => by rw [wT1_apply]; exact h2 _) (fun q => by rw [wT1_apply]; exact h4 _) (h3 _))

theorem isReal_v31 (h0 : ∀ i, IsReal (x0 i)) (h2 : ∀ i, IsReal (x2 i)) (h3 : ∀ i, IsReal (x3 i))
    (h4 : ∀ i, IsReal (x4 i)) (i : S50000x128.Idx) : IsReal ((Cert.ReferenceIdeal.ReadP.val_main_v31 (F := Ideal) x0 x1 x2 x3 x4) i) := by
  obtain ⟨r, k, rfl⟩ : ∃ (r : Fin 50000) (k : Fin 128), i = ix2 r k := ⟨i 0, i 1, eq_ix2 (n0 := 50000) (n1 := 128) i⟩
  rw [← hidden_eq]
  exact isReal_hidden1 x0 x1 x2 x4 x3 h0 h2 h3 h4 r k

/-! ## The second layer -/

/-- The neighbourhood mean of the hidden features, kernel's arrangement and reference's. -/
theorem mean2_eq (r : Fin 50000) (q : Fin 128) :
    mean (Cert.ReferenceIdeal.ReadP.val_main_v31 (F := Ideal) x0 x1 x2 x3 x4) x1 (ix2 r q) = Cert.ReferenceIdeal.ReadP.val_main_v50 (F := Ideal) x0 x1 x2 x3 x4 (ix2 r q) := by
  rw [Cert.KernelIdeal.MeanValue.mean_apply, aggregate_eq2, count_eq2, Cert.ReferenceIdeal.Stages.mean2_apply]
  exact (div_max_one _ _).symm

/-- The second layer's combine step, kernel's arrangement and reference's. -/
theorem lin2_eq (r : Fin 50000) (j : Fin 64) :
    lin (mean (Cert.ReferenceIdeal.ReadP.val_main_v31 (F := Ideal) x0 x1 x2 x3 x4) x1) (Cert.ReferenceIdeal.ReadP.val_main_v31 (F := Ideal) x0 x1 x2 x3 x4) (wT2 x5) (wT2 x7) x6 r j
      = Cert.ReferenceIdeal.ReadP.val_main_v58 (F := Ideal) x0 x1 x2 x3 x4 x5 x6 x7 (ix2 r j) := by
  rw [Cert.ReferenceIdeal.Stages.pre2_apply]
  unfold Cert.Combine.lin
  rw [add_swap]
  simp only [mean2_eq, wT2_apply]

theorem isReal_lin2 (h0 : ∀ i, IsReal (x0 i)) (h2 : ∀ i, IsReal (x2 i)) (h3 : ∀ i, IsReal (x3 i))
    (h4 : ∀ i, IsReal (x4 i)) (h5 : ∀ i, IsReal (x5 i)) (h6 : ∀ i, IsReal (x6 i)) (h7 : ∀ i, IsReal (x7 i))
    (r : Fin 50000) (j : Fin 64) :
    IsReal (lin (mean (Cert.ReferenceIdeal.ReadP.val_main_v31 (F := Ideal) x0 x1 x2 x3 x4) x1) (Cert.ReferenceIdeal.ReadP.val_main_v31 (F := Ideal) x0 x1 x2 x3 x4) (wT2 x5) (wT2 x7) x6 r j) :=
  isReal_lin _ _ _ _ _ r j
    (fun q => Cert.KernelIdeal.MeanValue.isReal_mean _ x1 r q (isReal_v31 x0 x1 x2 x4 x3 h0 h2 h3 h4))
    (fun q => isReal_v31 x0 x1 x2 x4 x3 h0 h2 h3 h4 _)
    (fun q => by rw [wT2_apply]; exact h5 _) (fun q => by rw [wT2_apply]; exact h7 _) (h6 _)

/-! ## The result -/

/-- The result entry, kernel's arrangement and reference's, over the reference's hidden features. -/
theorem out_eq (h0 : ∀ i, IsReal (x0 i)) (h2 : ∀ i, IsReal (x2 i)) (h3 : ∀ i, IsReal (x3 i))
    (h4 : ∀ i, IsReal (x4 i)) (h5 : ∀ i, IsReal (x5 i)) (h6 : ∀ i, IsReal (x6 i)) (h7 : ∀ i, IsReal (x7 i))
    (r : Fin 50000) (j : Fin 64) :
    output (mean (Cert.ReferenceIdeal.ReadP.val_main_v31 (F := Ideal) x0 x1 x2 x3 x4) x1) (Cert.ReferenceIdeal.ReadP.val_main_v31 (F := Ideal) x0 x1 x2 x3 x4) (wT2 x5) (wT2 x7) x6 r j
      = Cert.ReferenceIdeal.ReadP.val_main_v59 (F := Ideal) x0 x1 x2 x3 x4 x5 x6 x7 (ix2 r j) := by
  have hz : (fun q : Fin 64 => lin (mean (Cert.ReferenceIdeal.ReadP.val_main_v31 (F := Ideal) x0 x1 x2 x3 x4) x1) (Cert.ReferenceIdeal.ReadP.val_main_v31 (F := Ideal) x0 x1 x2 x3 x4) (wT2 x5) (wT2 x7) x6 r q)
      = Cert.ReferenceIdeal.Stages.row x0 x1 x2 x3 x4 x5 x6 x7 r := funext fun q => lin2_eq x0 x1 x2 x4 x3 x5 x7 x6 r q
  have hreal : ∀ k, IsReal (Cert.ReferenceIdeal.Stages.row x0 x1 x2 x3 x4 x5 x6 x7 r k) := fun k => by
    rw [← congrFun hz k]
    exact isReal_lin2 x0 x1 x2 x4 x3 x5 x7 x6 h0 h2 h3 h4 h5 h6 h7 r k
  unfold Cert.Combine.output
  rw [hz, logSoftmax_eq (B := 63) (Cert.ReferenceIdeal.Stages.row x0 x1 x2 x3 x4 x5 x6 x7 r) hreal j, Cert.ReferenceIdeal.Stages.out_apply]
  unfold Cert.Combine.rowMax
  rfl

/-- THE BRIDGE: the kernel program's result entry, as the combine steps leave it over a hidden table H that holds the
    first layer's rectified entries, is the reference program's result entry. -/
theorem result_eq (h0 : ∀ i, IsReal (x0 i)) (h2 : ∀ i, IsReal (x2 i)) (h3 : ∀ i, IsReal (x3 i))
    (h4 : ∀ i, IsReal (x4 i)) (h5 : ∀ i, IsReal (x5 i)) (h6 : ∀ i, IsReal (x6 i)) (h7 : ∀ i, IsReal (x7 i))
    (H : S50000x128.Idx → EReal)
    (hH : ∀ (r : Fin 50000) (k : Fin 128), H (ix2 r k)
      = hidden (mean (truncf .bf16 x0 bitsLt_bf16_f32) x1) (truncf .bf16 x0 bitsLt_bf16_f32 : FVec Ideal S50000x128 .bf16)
          (truncf .bf16 (transpose S128x128 [1, 0] x2 transposes_S128x128_S128x128_1_0) bitsLt_bf16_f32 : FVec Ideal S128x128 .bf16)
          (truncf .bf16 (transpose S128x128 [1, 0] x4 transposes_S128x128_S128x128_1_0) bitsLt_bf16_f32 : FVec Ideal S128x128 .bf16)
          x3 r k)
    (r : Fin 50000) (j : Fin 64) :
    output (mean H x1) H
        (truncf .bf16 (transpose S128x64 [1, 0] x5 transposes_S64x128_S128x64_1_0) bitsLt_bf16_f32 : FVec Ideal S128x64 .bf16)
        (truncf .bf16 (transpose S128x64 [1, 0] x7 transposes_S64x128_S128x64_1_0) bitsLt_bf16_f32 : FVec Ideal S128x64 .bf16)
        x6 r j
      = Cert.ReferenceIdeal.ReadP.val_main_v59 (F := Ideal) x0 x1 x2 x3 x4 x5 x6 x7 (ix2 r j) := by
  have hHv : H = (Cert.ReferenceIdeal.ReadP.val_main_v31 (F := Ideal) x0 x1 x2 x3 x4) := funext fun i => by
    obtain ⟨a, k, rfl⟩ : ∃ (a : Fin 50000) (k : Fin 128), i = ix2 a k := ⟨i 0, i 1, eq_ix2 (n0 := 50000) (n1 := 128) i⟩
    exact (hH a k).trans (hidden_eq x0 x1 x2 x4 x3 a k)
  subst hHv
  exact out_eq x0 x1 x2 x4 x3 x5 x7 x6 h0 h2 h3 h4 h5 h6 h7 r j

end Cert.Bridge

end
-- ==== Proof.lean ====
/-
  A two-layer mean-aggregating graph convolution with a log-softmax output, computed in two arrangements, ends at the
  same array of extended reals.

  Both programs form, for every node, the mean of its in-neighbours' features: the features gathered along the edge
  list's source row and added up at its destination row, over the in-degree or 1. The mean and the node's own features
  go through two weight matrices and a bias and are rectified; the same step with a second pair of weights is applied
  to the hidden features, and each row of its result goes through a log-softmax. One program does the two combine
  steps on blocks of 2000 rows and multiplies the aggregate by the reciprocal 1 / max(count, 1); the other works on
  whole arrays and divides by max(count, 1).

  Three laws join the two arrangements.
  • x · (1 / y) = x / y for y = max(count, 1): it is at least 1, so it is not 0 and its reciprocal is a real number.
  • (a + c) + b = (a + b) + c: the bias is added before the node's own product in one arrangement and after it in the
    other; addition of extended reals is commutative and associative.
  • a − (M + c) = (a − M) − c for a REAL M: the log-softmax takes the row maximum M and the logarithm c of the row's sum of
    exponentials away together or one after the other; M is real because every entry of the row is, every input being
    finite — this is where the precondition is used.
  A change of float format, and the order or blocking of a sum, change nothing at exact values.

  The claims: the two kernel programs' frames are the generated ones; the reference's frame is its run with the result
  dropped; the idealization rewrote nothing; and for the value claim both runs are stated at ONE array, the reference's
  last stage of the arguments: the kernel program's result array is read entry by entry as the output layer of the
  specification and carried to that stage by the three laws, the reference's run ends at it by its own reading.
-/
import proofs.«175774_j12232066859618_2_alg».proof.Defs
import proofs.«175774_j12232066859618_2_alg».proof.Proof.Gen.Kernel
import proofs.«175774_j12232066859618_2_alg».proof.Proof.Gen.KernelIdeal
import proofs.«175774_j12232066859618_2_alg».proof.Proof.Gen.ReferenceIdeal
import proofs.«175774_j12232066859618_2_alg».proof.Proof.Gen.Pre_finite_inputs
import proofs.«175774_j12232066859618_2_alg».proof.Proof.Gen.Kernel.Frame
import proofs.«175774_j12232066859618_2_alg».proof.Proof.KernelRun
import proofs.«175774_j12232066859618_2_alg».proof.Proof.KernelValue
import proofs.«175774_j12232066859618_2_alg».proof.Proof.RefRun
import proofs.«175774_j12232066859618_2_alg».proof.Proof.Finite
import proofs.«175774_j12232066859618_2_alg».proof.Proof.Bridge

noncomputable section

namespace Cert.Proof

open Idealize.ShloMosaic Idealize.SL.Sem Idealize.ShloMosaic.TcCoe Idealize.ShloMosaic.ValueIdx

/-- The kernel program as printed runs and leaves its arguments: the generated frame. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference runs and leaves its arguments: its run, the result dropped. -/
theorem frame_reference : Cert.frame_ReferenceIdeal := fun m ρ _ =>
  (θ_run Cert.ReferenceIdeal.defs _ _).mono (fun _ h c => (h c).2) (Cert.ReferenceIdeal.RunValue.run (F := Ideal) m ρ)

/-- The idealization rewrote no operation. -/
theorem preserves : Cert.preserves_Kernel_KernelIdeal := trivial

/-- At exact values the two programs, from memories that agree on the eight arguments, end with the same result array:
    the reference's last stage of the arguments. The kernel program's array is that stage entry by entry (the output
    layer of the specification, joined to the stage under real entries); the reference's run ends at it. -/
theorem algebraic : Cert.algebraic_KernelIdeal_ReferenceIdeal := by
  intro m ρ m' ρ' hpre hagree
  refine ⟨fun c => Cert.ReferenceIdeal.ReadP.val_main_v59 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)), ?_, ?_⟩
  · refine (θ_run Cert.KernelIdeal.defs _ _).mono (fun r h c => ⟨(h c).1.trans ?_, (h c).2⟩)
      (Cert.KernelIdeal.RunValue.run_result (F := Ideal) m ρ)
    obtain ⟨h0, h2, h3, h4, h5, h6, h7⟩ := Cert.FiniteInputs.real_of_pre _ _ _ _ _ _ _ _ (hpre c)
    refine funext fun i => ?_
    obtain ⟨a, b, rfl⟩ : ∃ (a : Fin 50000) (b : Fin 64), i = ix2 a b := ⟨i 0, i 1, eq_ix2 (n0 := 50000) (n1 := 64) i⟩
    exact (Cert.KernelIdeal.KernelValue.result_apply m ρ c a b).trans
      (Cert.Bridge.result_eq _ _ _ _ _ _ _ _ h0 h2 h3 h4 h5 h6 h7 (Cert.KernelIdeal.HostValues.hiddenArr m ρ c)
        (Cert.KernelIdeal.KernelValue.hidden_apply m ρ c) a b)
  · refine (θ_run Cert.ReferenceIdeal.defs _ _).mono (fun r h c => ⟨(h c).1.trans ?_, (h c).2⟩)
      (Cert.ReferenceIdeal.RunValue.run (F := Ideal) m' ρ')
    obtain ⟨e0, e1, e2, e3, e4, e5, e6, e7⟩ := hagree c
    rw [e0, e1, e2, e3, e4, e5, e6, e7]

theorem claim : Cert.Claim := ⟨Cert.Kernel.Gen.facts, Cert.KernelIdeal.Gen.facts, Cert.ReferenceIdeal.Gen.facts, Cert.Pre_finite_inputs.Gen.facts,
  frame_kernel, frame_kernelIdeal, frame_reference, preserves, algebraic⟩

end Cert.Proof

end
